-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S1677721 : Shape := ⟨1, ![1677721]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1677721 : S_.BroadcastsInDim S1677721 (![] : Fin 0 → Fin S1677721.rank)
  reducesTo_S1677721_S_d0 : S1677721.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S1677721 .f32) (main_arg2 : FVec F S4096 .f32) (main_arg3 : IVec S1677721 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1677721 .f32 := Host.absf main_arg1
  let main_cst_0 : FVec F S_ .f32 := constant S_ .f32 0x7F800000#32
  let main_v5 : FVec F S1677721 .f32 := broadcastInDim S1677721 ![] bcast_S_S1677721 main_cst_0
  let main_v6 : IVec S1677721 1 := cmpf .olt main_v4 main_v5
  let main_c_1 : IVec S_ 1 := constantI S_ 1 1#1
  let main_v7 : IVec S_ 1 := (fun x v => Host.reduce IntOp.andi x v reducesTo_S1677721_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S1677721 : Shape := ⟨1, ![1677721]⟩
abbrev S4096 : Shape := ⟨1, ![4096]⟩
abbrev S_ : Shape := ⟨0, ![]⟩
abbrev S4096x4096 : Shape := ⟨2, ![4096, 4096]⟩
abbrev S1677721x1 : Shape := ⟨2, ![1677721, 1]⟩
abbrev S1677721x2 : Shape := ⟨2, ![1677721, 2]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 70
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S1677721, .f32⟩
  | .hbm, ⟨2, _⟩ => ⟨S4096, .f32⟩
  | .hbm, ⟨3, _⟩ => ⟨S1677721, .i32⟩
  | .hbm, ⟨4, _⟩ => ⟨S_, .i32⟩
  | .hbm, ⟨5, _⟩ => ⟨S_, .i32⟩
  | .hbm, ⟨6, _⟩ => ⟨S1677721, .i32⟩
  | .hbm, ⟨7, _⟩ => ⟨S1677721, .i32⟩
  | .hbm, ⟨8, _⟩ => ⟨S1677721, .i32⟩
  | .hbm, ⟨9, _⟩ => ⟨S_, .i32⟩
  | .hbm, ⟨10, _⟩ => ⟨S1677721, .i32⟩
  | .hbm, ⟨11, _⟩ => ⟨S1677721, .i1⟩
  | .hbm, ⟨12, _⟩ => ⟨S1677721, .i32⟩
  | .hbm, ⟨13, _⟩ => ⟨S1677721, .i32⟩
  | .hbm, ⟨14, _⟩ => ⟨S_, .i32⟩
  | .hbm, ⟨15, _⟩ => ⟨S1677721, .i32⟩
  | .hbm, ⟨16, _⟩ => ⟨S1677721, .i1⟩
  | .hbm, ⟨17, _⟩ => ⟨S1677721, .i1⟩
  | .hbm, ⟨18, _⟩ => ⟨S_, .i32⟩
  | .hbm, ⟨19, _⟩ => ⟨S1677721, .i32⟩
  | .hbm, ⟨20, _⟩ => ⟨S1677721, .i32⟩
  | .hbm, ⟨21, _⟩ => ⟨S1677721, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S1677721, .i32⟩
  | .hbm, ⟨29, _⟩ => ⟨S1677721, .i32⟩
  | .hbm, ⟨30, _⟩ => ⟨S_, .i32⟩
  | .hbm, ⟨31, _⟩ => ⟨S1677721, .i32⟩
  | .hbm, ⟨32, _⟩ => ⟨S1677721, .i1⟩
  | .hbm, ⟨33, _⟩ => ⟨S_, .i32⟩
  | .hbm, ⟨34, _⟩ => ⟨S1677721, .i32⟩
  | .hbm, ⟨35, _⟩ => ⟨S1677721, .i1⟩
  | .hbm, ⟨36, _⟩ => ⟨S_, .i32⟩
  | .hbm, ⟨37, _⟩ => ⟨S_, .i1⟩
  | .hbm, ⟨38, _⟩ => ⟨S1677721, .i1⟩
  | .hbm, ⟨39, _⟩ => ⟨S1677721, .i1⟩
  | .hbm, ⟨40, _⟩ => ⟨S1677721, .i1⟩
  | .hbm, ⟨41, _⟩ => ⟨S1677721, .i32⟩
  | .hbm, ⟨42, _⟩ => ⟨S1677721, .i32⟩
  | .hbm, ⟨43, _⟩ => ⟨S1677721, .i32⟩
  | .hbm, ⟨44, _⟩ => ⟨S_, .f32⟩
  | .hbm, ⟨45, _⟩ => ⟨S4096x4096, .f32⟩
  | .hbm, ⟨46, _⟩ => ⟨S_, .i32⟩
  | .hbm, ⟨47, _⟩ => ⟨S1677721, .i32⟩
  | .hbm, ⟨48, _⟩ => ⟨S1677721, .i1⟩
  | .hbm, ⟨49, _⟩ => ⟨S_, .i32⟩
  | .hbm, ⟨50, _⟩ => ⟨S1677721, .i32⟩
  | .hbm, ⟨51, _⟩ => ⟨S1677721, .i32⟩
  | .hbm, ⟨52, _⟩ => ⟨S1677721, .i32⟩
  | .hbm, ⟨53, _⟩ => ⟨S_, .i32⟩
  | .hbm, ⟨54, _⟩ => ⟨S1677721, .i32⟩
  | .hbm, ⟨55, _⟩ => ⟨S1677721, .i1⟩
  | .hbm, ⟨56, _⟩ => ⟨S_, .i32⟩
  | .hbm, ⟨57, _⟩ => ⟨S1677721, .i32⟩
  | .hbm, ⟨58, _⟩ => ⟨S1677721, .i32⟩
  | .hbm, ⟨59, _⟩ => ⟨S1677721, .i32⟩
  | .hbm, ⟨60, _⟩ => ⟨S1677721x1, .i32⟩
  | .hbm, ⟨61, _⟩ => ⟨S1677721x1, .i32⟩
  | .hbm, ⟨62, _⟩ => ⟨S1677721x2, .i32⟩
  | .hbm, ⟨63, _⟩ => ⟨S4096x4096, .f32⟩
  | .hbm, ⟨64, _⟩ => ⟨S8192x4096, .f32⟩
  | .hbm, ⟨65, _⟩ => ⟨S8192x4096, .bf16⟩
  | .hbm, ⟨66, _⟩ => ⟨S4096x4096, .bf16⟩
  | .hbm, ⟨67, _⟩ => ⟨S1x4096, .f32⟩
  | .hbm, ⟨68, _⟩ => ⟨S8192x4096, .f32⟩
  | .hbm, ⟨69, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v1 : Ref sig .tc := ⟨.hbm, 43, rfl⟩
abbrev main_cst : Ref sig .tc := ⟨.hbm, 44, rfl⟩
abbrev main_v2 : Ref sig .tc := ⟨.hbm, 45, rfl⟩
abbrev main_c_1 : Ref sig .tc := ⟨.hbm, 46, rfl⟩
abbrev main_v3 : Ref sig .tc := ⟨.hbm, 47, rfl⟩
abbrev main_v4 : Ref sig .tc := ⟨.hbm, 48, rfl⟩
abbrev main_c_2 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_c_3 : Ref sig .tc := ⟨.hbm, 53, rfl⟩
abbrev main_v8 : Ref sig .tc := ⟨.hbm, 54, rfl⟩
abbrev main_v9 : Ref sig .tc := ⟨.hbm, 55, rfl⟩
abbrev main_c_4 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S1677721 : S_.BroadcastsInDim S1677721 (![] : Fin 0 → Fin S1677721.rank)
  bcast_S_S4096x4096 : S_.BroadcastsInDim S4096x4096 (![] : Fin 0 → Fin S4096x4096.rank)
  bcast_S1677721_S1677721x1_0 : S1677721.BroadcastsInDim S1677721x1 (![0] : Fin 1 → Fin S1677721x1.rank)
  concatenates_S1677721x1_S1677721x1_S1677721x2_d1 : Shape.Concatenates [S1677721x1, S1677721x1] S1677721x2 1
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  scatter_S4096x4096_S1677721x2_S1677721_n_01_01_1_wf : ScatterDims.WF S4096x4096 S1677721x2 S1677721 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S1677721x2_S1677721_n_01_01_1 : ScatterDims S4096x4096 S1677721x2 S1677721 where
  updateWindowDims := []
  insertedWindowDims := [0, 1]
  scatterDimsToOperandDims := [0, 1]
  indexVectorDim := 1
  wf := scatter_S4096x4096_S1677721x2_S1677721_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S1677721 : Shape := ⟨1, ![1677721]⟩
abbrev S4096 : Shape := ⟨1, ![4096]⟩
abbrev S_ : Shape := ⟨0, ![]⟩
abbrev S4096x4096 : Shape := ⟨2, ![4096, 4096]⟩
abbrev S1677721x1 : Shape := ⟨2, ![1677721, 1]⟩
abbrev S1677721x2 : Shape := ⟨2, ![1677721, 2]⟩
abbrev S1x1x4096 : Shape := ⟨3, ![1, 1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1677721, .f32⟩
  | .hbm, ⟨2, _⟩ => ⟨S4096, .f32⟩
  | .hbm, ⟨3, _⟩ => ⟨S1677721, .i32⟩
  | .hbm, ⟨4, _⟩ => ⟨S_, .i32⟩
  | .hbm, ⟨5, _⟩ => ⟨S_, .i32⟩
  | .hbm, ⟨6, _⟩ => ⟨S1677721, .i32⟩
  | .hbm, ⟨7, _⟩ => ⟨S1677721, .i32⟩
  | .hbm, ⟨8, _⟩ => ⟨S1677721, .i32⟩
  | .hbm, ⟨9, _⟩ => ⟨S_, .i32⟩
  | .hbm, ⟨10, _⟩ => ⟨S1677721, .i32⟩
  | .hbm, ⟨11, _⟩ => ⟨S1677721, .i1⟩
  | .hbm, ⟨12, _⟩ => ⟨S1677721, .i32⟩
  | .hbm, ⟨13, _⟩ => ⟨S1677721, .i32⟩
  | .hbm, ⟨14, _⟩ => ⟨S_, .i32⟩
  | .hbm, ⟨15, _⟩ => ⟨S1677721, .i32⟩
  | .hbm, ⟨16, _⟩ => ⟨S1677721, .i1⟩
  | .hbm, ⟨17, _⟩ => ⟨S1677721, .i1⟩
  | .hbm, ⟨18, _⟩ => ⟨S_, .i32⟩
  | .hbm, ⟨19, _⟩ => ⟨S1677721, .i32⟩
  | .hbm, ⟨20, _⟩ => ⟨S1677721, .i32⟩
  | .hbm, ⟨21, _⟩ => ⟨S1677721, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S1677721, .i32⟩
  | .hbm, ⟨29, _⟩ => ⟨S1677721, .i32⟩
  | .hbm, ⟨30, _⟩ => ⟨S_, .i32⟩
  | .hbm, ⟨31, _⟩ => ⟨S1677721, .i32⟩
  | .hbm, ⟨32, _⟩ => ⟨S1677721, .i1⟩
  | .hbm, ⟨33, _⟩ => ⟨S_, .i32⟩
  | .hbm, ⟨34, _⟩ => ⟨S1677721, .i32⟩
  | .hbm, ⟨35, _⟩ => ⟨S1677721, .i1⟩
  | .hbm, ⟨36, _⟩ => ⟨S_, .i32⟩
  | .hbm, ⟨37, _⟩ => ⟨S_, .i1⟩
  | .hbm, ⟨38, _⟩ => ⟨S1677721, .i1⟩
  | .hbm, ⟨39, _⟩ => ⟨S1677721, .i1⟩
  | .hbm, ⟨40, _⟩ => ⟨S1677721, .i1⟩
  | .hbm, ⟨41, _⟩ => ⟨S1677721, .i32⟩
  | .hbm, ⟨42, _⟩ => ⟨S1677721, .i32⟩
  | .hbm, ⟨43, _⟩ => ⟨S1677721, .i32⟩
  | .hbm, ⟨44, _⟩ => ⟨S_, .f32⟩
  | .hbm, ⟨45, _⟩ => ⟨S4096x4096, .f32⟩
  | .hbm, ⟨46, _⟩ => ⟨S_, .i32⟩
  | .hbm, ⟨47, _⟩ => ⟨S1677721, .i32⟩
  | .hbm, ⟨48, _⟩ => ⟨S1677721, .i1⟩
  | .hbm, ⟨49, _⟩ => ⟨S_, .i32⟩
  | .hbm, ⟨50, _⟩ => ⟨S1677721, .i32⟩
  | .hbm, ⟨51, _⟩ => ⟨S1677721, .i32⟩
  | .hbm, ⟨52, _⟩ => ⟨S1677721, .i32⟩
  | .hbm, ⟨53, _⟩ => ⟨S_, .i32⟩
  | .hbm, ⟨54, _⟩ => ⟨S1677721, .i32⟩
  | .hbm, ⟨55, _⟩ => ⟨S1677721, .i1⟩
  | .hbm, ⟨56, _⟩ => ⟨S_, .i32⟩
  | .hbm, ⟨57, _⟩ => ⟨S1677721, .i32⟩
  | .hbm, ⟨58, _⟩ => ⟨S1677721, .i32⟩
  | .hbm, ⟨59, _⟩ => ⟨S1677721, .i32⟩
  | .hbm, ⟨60, _⟩ => ⟨S1677721x1, .i32⟩
  | .hbm, ⟨61, _⟩ => ⟨S1677721x1, .i32⟩
  | .hbm, ⟨62, _⟩ => ⟨S1677721x2, .i32⟩
  | .hbm, ⟨63, _⟩ => ⟨S4096x4096, .f32⟩
  | .hbm, ⟨64, _⟩ => ⟨S4x2048x4096, .f32⟩
  | .hbm, ⟨65, _⟩ => ⟨S1x1x4096, .f32⟩
  | .hbm, ⟨66, _⟩ => ⟨S4x2048x4096, .f32⟩
  | .hbm, ⟨67, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v1 : Ref sig .tc := ⟨.hbm, 43, rfl⟩
abbrev main_cst : Ref sig .tc := ⟨.hbm, 44, rfl⟩
abbrev main_v2 : Ref sig .tc := ⟨.hbm, 45, rfl⟩
abbrev main_c_1 : Ref sig .tc := ⟨.hbm, 46, rfl⟩
abbrev main_v3 : Ref sig .tc := ⟨.hbm, 47, rfl⟩
abbrev main_v4 : Ref sig .tc := ⟨.hbm, 48, rfl⟩
abbrev main_c_2 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_c_3 : Ref sig .tc := ⟨.hbm, 53, rfl⟩
abbrev main_v8 : Ref sig .tc := ⟨.hbm, 54, rfl⟩
abbrev main_v9 : Ref sig .tc := ⟨.hbm, 55, rfl⟩
abbrev main_c_4 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩

abbrev nD : Nat := 1
abbrev τ : Topo := Topo.v7x

variable {F : FTy → Type} [FloatOps F]

class Facts₀ : Prop where
  bcast_S_S1677721 : S_.BroadcastsInDim S1677721 (![] : Fin 0 → Fin S1677721.rank)
  bcast_S_S4096x4096 : S_.BroadcastsInDim S4096x4096 (![] : Fin 0 → Fin S4096x4096.rank)
  bcast_S1677721_S1677721x1_0 : S1677721.BroadcastsInDim S1677721x1 (![0] : Fin 1 → Fin S1677721x1.rank)
  concatenates_S1677721x1_S1677721x1_S1677721x2_d1 : Shape.Concatenates [S1677721x1, S1677721x1] S1677721x2 1
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  scatter_S4096x4096_S1677721x2_S1677721_n_01_01_1_wf : ScatterDims.WF S4096x4096 S1677721x2 S1677721 [] [0, 1] [0, 1] 1
  dot_S4x2048x4096_S4096x4096_S4x2048x4096_2_1_01_0_n_n_wf : DotDims.WF S4x2048x4096 S4096x4096 S4x2048x4096 [2] [1] [0, 1] [0] [] []

variable [Facts₀]

def scatter_S4096x4096_S1677721x2_S1677721_n_01_01_1 : ScatterDims S4096x4096 S1677721x2 S1677721 where
  updateWindowDims := []
  insertedWindowDims := [0, 1]
  scatterDimsToOperandDims := [0, 1]
  indexVectorDim := 1
  wf := scatter_S4096x4096_S1677721x2_S1677721_n_01_01_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.RefRun.lean ====
/-
  The reference program as one straight line of host operations, and its run.

  The program's entry function calls two outlined integer functions (the floor quotient and the remainder with the
  divisor's sign), each of which calls an outlined select. A call is its callee's body over the caller's buffers, so
  the whole program is one list of sixty-four operations: the divisor constant and the floor quotient's seventeen
  (its select last), the divisor constant again and the remainder's twenty-one (its scalar select fifth), then the
  entry function's own twenty-four (the zero matrix, the two negative-index wraps, the index pairs, the scatter-add,
  the contraction, the bias broadcast twice, the sum). Every weakly fair execution terminates with each buffer at
  the fold of these operations over the launch contents.
-/
import proofs.«109815_j1666447311096_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's sixty-four operations, in order, the calls unfolded at their call sites. -/
abbrev ops : List (HloOp τ sig (Elt F)) :=
  [ nullary main_c (constantI S_ 32 4096#32),
    TRef.unary (.of main_c : TRef sig ⟨S_, .i32⟩) (.of main_call0_v0 : TRef sig ⟨S_, .i32⟩) id,
    TRef.unary (.of main_call0_v0 : TRef sig ⟨S_, .i32⟩) (.of main_call0_v1 : TRef sig ⟨S1677721, .i32⟩) (broadcastInDim S1677721 ![] bcast_S_S1677721),
    TRef.binary (.of main_arg3 : TRef sig ⟨S1677721, .i32⟩) (.of main_call0_v1 : TRef sig ⟨S1677721, .i32⟩) (.of main_call0_v2 : TRef sig ⟨S1677721, .i32⟩) Host.divsi,
    TRef.unary (.of main_arg3 : TRef sig ⟨S1677721, .i32⟩) (.of main_call0_v3 : TRef sig ⟨S1677721, .i32⟩) signi,
    TRef.unary (.of main_call0_v0 : TRef sig ⟨S_, .i32⟩) (.of main_call0_v4 : TRef sig ⟨S_, .i32⟩) signi,
    TRef.unary (.of main_call0_v4 : TRef sig ⟨S_, .i32⟩) (.of main_call0_v5 : TRef sig ⟨S1677721, .i32⟩) (broadcastInDim S1677721 ![] bcast_S_S1677721),
    TRef.binary (.of main_call0_v3 : TRef sig ⟨S1677721, .i32⟩) (.of main_call0_v5 : TRef sig ⟨S1677721, .i32⟩) (.of main_call0_v6 : TRef sig ⟨S1677721, .i1⟩) (cmpi .ne),
    TRef.unary (.of main_call0_v0 : TRef sig ⟨S_, .i32⟩) (.of main_call0_v7 : TRef sig ⟨S1677721, .i32⟩) (broadcastInDim S1677721 ![] bcast_S_S1677721),
    TRef.binary (.of main_arg3 : TRef sig ⟨S1677721, .i32⟩) (.of main_call0_v7 : TRef sig ⟨S1677721, .i32⟩) (.of main_call0_v8 : TRef sig ⟨S1677721, .i32⟩) Host.remsi,
    TRef.nullary (.of main_call0_c : TRef sig ⟨S_, .i32⟩) (constantI S_ 32 0#32),
    TRef.unary (.of main_call0_c : TRef sig ⟨S_, .i32⟩) (.of main_call0_v9 : TRef sig ⟨S1677721, .i32⟩) (broadcastInDim S1677721 ![] bcast_S_S1677721),
    TRef.binary (.of main_call0_v8 : TRef sig ⟨S1677721, .i32⟩) (.of main_call0_v9 : TRef sig ⟨S1677721, .i32⟩) (.of main_call0_v10 : TRef sig ⟨S1677721, .i1⟩) (cmpi .ne),
    TRef.binary (.of main_call0_v6 : TRef sig ⟨S1677721, .i1⟩) (.of main_call0_v10 : TRef sig ⟨S1677721, .i1⟩) (.of main_call0_v11 : TRef sig ⟨S1677721, .i1⟩) andi,
    TRef.nullary (.of main_call0_c_0 : TRef sig ⟨S_, .i32⟩) (constantI S_ 32 1#32),
    TRef.unary (.of main_call0_c_0 : TRef sig ⟨S_, .i32⟩) (.of main_call0_v12 : TRef sig ⟨S1677721, .i32⟩) (broadcastInDim S1677721 ![] bcast_S_S1677721),
    TRef.binary (.of main_call0_v2 : TRef sig ⟨S1677721, .i32⟩) (.of main_call0_v12 : TRef sig ⟨S1677721, .i32⟩) (.of main_call0_v13 : TRef sig ⟨S1677721, .i32⟩) subi,
    TRef.ternary (.of main_call0_v11 : TRef sig ⟨S1677721, .i1⟩) (.of main_call0_v13 : TRef sig ⟨S1677721, .i32⟩) (.of main_call0_v2 : TRef sig ⟨S1677721, .i32⟩) (.of main_v0 : TRef sig ⟨S1677721, .i32⟩) select,
    nullary main_c_0 (constantI S_ 32 4096#32),
    TRef.unary (.of main_c_0 : TRef sig ⟨S_, .i32⟩) (.of main_call1_v0 : TRef sig ⟨S_, .i32⟩) id,
    TRef.nullary (.of main_call1_c : TRef sig ⟨S_, .i32⟩) (constantI S_ 32 0#32),
    TRef.binary (.of main_call1_v0 : TRef sig ⟨S_, .i32⟩) (.of main_call1_c : TRef sig ⟨S_, .i32⟩) (.of main_call1_v1 : TRef sig ⟨S_, .i1⟩) (cmpi .eq),
    TRef.nullary (.of main_call1_c_0 : TRef sig ⟨S_, .i32⟩) (constantI S_ 32 1#32),
    TRef.ternary (.of main_call1_v1 : TRef sig ⟨S_, .i1⟩) (.of main_call1_c_0 : TRef sig ⟨S_, .i32⟩) (.of main_call1_v0 : TRef sig ⟨S_, .i32⟩) (.of main_call1_v2 : TRef sig ⟨S_, .i32⟩) select,
    TRef.unary (.of main_call1_v2 : TRef sig ⟨S_, .i32⟩) (.of main_call1_v3 : TRef sig ⟨S1677721, .i32⟩) (broadcastInDim S1677721 ![] bcast_S_S1677721),
    TRef.binary (.of main_arg3 : TRef sig ⟨S1677721, .i32⟩) (.of main_call1_v3 : TRef sig ⟨S1677721, .i32⟩) (.of main_call1_v4 : TRef sig ⟨S1677721, .i32⟩) Host.remsi,
    TRef.nullary (.of main_call1_c_1 : TRef sig ⟨S_, .i32⟩) (constantI S_ 32 0#32),
    TRef.unary (.of main_call1_c_1 : TRef sig ⟨S_, .i32⟩) (.of main_call1_v5 : TRef sig ⟨S1677721, .i32⟩) (broadcastInDim S1677721 ![] bcast_S_S1677721),
    TRef.binary (.of main_call1_v4 : TRef sig ⟨S1677721, .i32⟩) (.of main_call1_v5 : TRef sig ⟨S1677721, .i32⟩) (.of main_call1_v6 : TRef sig ⟨S1677721, .i1⟩) (cmpi .ne),
    TRef.nullary (.of main_call1_c_2 : TRef sig ⟨S_, .i32⟩) (constantI S_ 32 0#32),
    TRef.unary (.of main_call1_c_2 : TRef sig ⟨S_, .i32⟩) (.of main_call1_v7 : TRef sig ⟨S1677721, .i32⟩) (broadcastInDim S1677721 ![] bcast_S_S1677721),
    TRef.binary (.of main_call1_v4 : TRef sig ⟨S1677721, .i32⟩) (.of main_call1_v7 : TRef sig ⟨S1677721, .i32⟩) (.of main_call1_v8 : TRef sig ⟨S1677721, .i1⟩) (cmpi .slt),
    TRef.nullary (.of main_call1_c_3 : TRef sig ⟨S_, .i32⟩) (constantI S_ 32 0#32),
    TRef.binary (.of main_call1_v2 : TRef sig ⟨S_, .i32⟩) (.of main_call1_c_3 : TRef sig ⟨S_, .i32⟩) (.of main_call1_v9 : TRef sig ⟨S_, .i1⟩) (cmpi .slt),
    TRef.unary (.of main_call1_v9 : TRef sig ⟨S_, .i1⟩) (.of main_call1_v10 : TRef sig ⟨S1677721, .i1⟩) (broadcastInDim S1677721 ![] bcast_S_S1677721),
    TRef.binary (.of main_call1_v8 : TRef sig ⟨S1677721, .i1⟩) (.of main_call1_v10 : TRef sig ⟨S1677721, .i1⟩) (.of main_call1_v11 : TRef sig ⟨S1677721, .i1⟩) (cmpi .ne),
    TRef.binary (.of main_call1_v11 : TRef sig ⟨S1677721, .i1⟩) (.of main_call1_v6 : TRef sig ⟨S1677721, .i1⟩) (.of main_call1_v12 : TRef sig ⟨S1677721, .i1⟩) andi,
    TRef.unary (.of main_call1_v2 : TRef sig ⟨S_, .i32⟩) (.of main_call1_v13 : TRef sig ⟨S1677721, .i32⟩) (broadcastInDim S1677721 ![] bcast_S_S1677721),
    TRef.binary (.of main_call1_v4 : TRef sig ⟨S1677721, .i32⟩) (.of main_call1_v13 : TRef sig ⟨S1677721, .i32⟩) (.of main_call1_v14 : TRef sig ⟨S1677721, .i32⟩) addi,
    TRef.ternary (.of main_call1_v12 : TRef sig ⟨S1677721, .i1⟩) (.of main_call1_v14 : TRef sig ⟨S1677721, .i32⟩) (.of main_call1_v4 : TRef sig ⟨S1677721, .i32⟩) (.of main_v1 : TRef sig ⟨S1677721, .i32⟩) select,
    nullary main_cst (constant S_ .f32 0x00000000#32),
    unary main_cst main_v2 (broadcastInDim S4096x4096 ![] bcast_S_S4096x4096 : (⟨S_, .f32⟩ : BufTy).Contents (Elt F) → (⟨S4096x4096, .f32⟩ : BufTy).Contents (Elt F)),
    nullary main_c_1 (constantI S_ 32 0#32),
    unary main_c_1 main_v3 (broadcastInDim S1677721 ![] bcast_S_S1677721 : (⟨S_, .i32⟩ : BufTy).Contents (Elt F) → (⟨S1677721, .i32⟩ : BufTy).Contents (Elt F)),
    binary main_v0 main_v3 main_v4 (cmpi .slt : (⟨S1677721, .i32⟩ : BufTy).Contents (Elt F) → (⟨S1677721, .i32⟩ : BufTy).Contents (Elt F) → (⟨S1677721, .i1⟩ : BufTy).Contents (Elt F)),
    nullary main_c_2 (constantI S_ 32 4096#32),
    unary main_c_2 main_v5 (broadcastInDim S1677721 ![] bcast_S_S1677721 : (⟨S_, .i32⟩ : BufTy).Contents (Elt F) → (⟨S1677721, .i32⟩ : BufTy).Contents (Elt F)),
    binary main_v0 main_v5 main_v6 (addi : (⟨S1677721, .i32⟩ : BufTy).Contents (Elt F) → (⟨S1677721, .i32⟩ : BufTy).Contents (Elt F) → (⟨S1677721, .i32⟩ : BufTy).Contents (Elt F)),
    ternary main_v4 main_v6 main_v0 main_v7 (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)),
    nullary main_c_3 (constantI S_ 32 0#32),
    unary main_c_3 main_v8 (broadcastInDim S1677721 ![] bcast_S_S1677721 : (⟨S_, .i32⟩ : BufTy).Contents (Elt F) → (⟨S1677721, .i32⟩ : BufTy).Contents (Elt F)),
    binary main_v1 main_v8 main_v9 (cmpi .slt : (⟨S1677721, .i32⟩ : BufTy).Contents (Elt F) → (⟨S1677721, .i32⟩ : BufTy).Contents (Elt F) → (⟨S1677721, .i1⟩ : BufTy).Contents (Elt F)),
    nullary main_c_4 (constantI S_ 32 4096#32),
    unary main_c_4 main_v10 (broadcastInDim S1677721 ![] bcast_S_S1677721 : (⟨S_, .i32⟩ : BufTy).Contents (Elt F) → (⟨S1677721, .i32⟩ : BufTy).Contents (Elt F)),
    binary main_v1 main_v10 main_v11 (addi : (⟨S1677721, .i32⟩ : BufTy).Contents (Elt F) → (⟨S1677721, .i32⟩ : BufTy).Contents (Elt F) → (⟨S1677721, .i32⟩ : BufTy).Contents (Elt F)),
    ternary main_v9 main_v11 main_v1 main_v12 (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)),
    unary main_v7 main_v13 (broadcastInDim S1677721x1 ![0] bcast_S1677721_S1677721x1_0 : (⟨S1677721, .i32⟩ : BufTy).Contents (Elt F) → (⟨S1677721x1, .i32⟩ : BufTy).Contents (Elt F)),
    unary main_v12 main_v14 (broadcastInDim S1677721x1 ![0] bcast_S1677721_S1677721x1_0 : (⟨S1677721, .i32⟩ : BufTy).Contents (Elt F) → (⟨S1677721x1, .i32⟩ : BufTy).Contents (Elt F)),
    binary main_v13 main_v14 main_v15 ((fun a b => concatenate S1677721x2 1 [⟨S1677721x1, a⟩, ⟨S1677721x1, b⟩] concatenates_S1677721x1_S1677721x1_S1677721x2_d1) : (⟨S1677721x1, .i32⟩ : BufTy).Contents (Elt F) → (⟨S1677721x1, .i32⟩ : BufTy).Contents (Elt F) → (⟨S1677721x2, .i32⟩ : BufTy).Contents (Elt F)),
    ternary main_v2 main_v15 main_arg1 main_v16 ((fun x i u => Host.scatterAdd scatter_S4096x4096_S1677721x2_S1677721_n_01_01_1 x i u) : (⟨S4096x4096, .f32⟩ : BufTy).Contents (Elt F) → (⟨S1677721x2, .i32⟩ : BufTy).Contents (Elt F) → (⟨S1677721, .f32⟩ : BufTy).Contents (Elt F) → (⟨S4096x4096, .f32⟩ : BufTy).Contents (Elt F)),
    binary main_arg0 main_v16 main_v17 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v18 (broadcastInDim S1x1x4096 ![2] bcast_S4096_S1x1x4096_2 : (⟨S4096, .f32⟩ : BufTy).Contents (Elt F) → (⟨S1x1x4096, .f32⟩ : BufTy).Contents (Elt F)),
    unary main_v18 main_v19 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v17 main_v19 main_v20 (addf : (⟨S4x2048x4096, .f32⟩ : BufTy).Contents (Elt F) → (⟨S4x2048x4096, .f32⟩ : BufTy).Contents (Elt F) → (⟨S4x2048x4096, .f32⟩ : BufTy).Contents (Elt F)) ]

/-! ## The entry function is that line

Piece by piece: each call is its callee's operations, and the pieces run one after the other are their concatenation
run as one. -/

/-- The floor quotient's seventeen operations over the buffers of its one call. -/
def opsQuot : List (HloOp τ sig (Elt F)) :=
  [ TRef.unary (.of main_c : TRef sig ⟨S_, .i32⟩) (.of main_call0_v0 : TRef sig ⟨S_, .i32⟩) id,
    TRef.unary (.of main_call0_v0 : TRef sig ⟨S_, .i32⟩) (.of main_call0_v1 : TRef sig ⟨S1677721, .i32⟩) (broadcastInDim S1677721 ![] bcast_S_S1677721),
    TRef.binary (.of main_arg3 : TRef sig ⟨S1677721, .i32⟩) (.of main_call0_v1 : TRef sig ⟨S1677721, .i32⟩) (.of main_call0_v2 : TRef sig ⟨S1677721, .i32⟩) Host.divsi,
    TRef.unary (.of main_arg3 : TRef sig ⟨S1677721, .i32⟩) (.of main_call0_v3 : TRef sig ⟨S1677721, .i32⟩) signi,
    TRef.unary (.of main_call0_v0 : TRef sig ⟨S_, .i32⟩) (.of main_call0_v4 : TRef sig ⟨S_, .i32⟩) signi,
    TRef.unary (.of main_call0_v4 : TRef sig ⟨S_, .i32⟩) (.of main_call0_v5 : TRef sig ⟨S1677721, .i32⟩) (broadcastInDim S1677721 ![] bcast_S_S1677721),
    TRef.binary (.of main_call0_v3 : TRef sig ⟨S1677721, .i32⟩) (.of main_call0_v5 : TRef sig ⟨S1677721, .i32⟩) (.of main_call0_v6 : TRef sig ⟨S1677721, .i1⟩) (cmpi .ne),
    TRef.unary (.of main_call0_v0 : TRef sig ⟨S_, .i32⟩) (.of main_call0_v7 : TRef sig ⟨S1677721, .i32⟩) (broadcastInDim S1677721 ![] bcast_S_S1677721),
    TRef.binary (.of main_arg3 : TRef sig ⟨S1677721, .i32⟩) (.of main_call0_v7 : TRef sig ⟨S1677721, .i32⟩) (.of main_call0_v8 : TRef sig ⟨S1677721, .i32⟩) Host.remsi,
    TRef.nullary (.of main_call0_c : TRef sig ⟨S_, .i32⟩) (constantI S_ 32 0#32),
    TRef.unary (.of main_call0_c : TRef sig ⟨S_, .i32⟩) (.of main_call0_v9 : TRef sig ⟨S1677721, .i32⟩) (broadcastInDim S1677721 ![] bcast_S_S1677721),
    TRef.binary (.of main_call0_v8 : TRef sig ⟨S1677721, .i32⟩) (.of main_call0_v9 : TRef sig ⟨S1677721, .i32⟩) (.of main_call0_v10 : TRef sig ⟨S1677721, .i1⟩) (cmpi .ne),
    TRef.binary (.of main_call0_v6 : TRef sig ⟨S1677721, .i1⟩) (.of main_call0_v10 : TRef sig ⟨S1677721, .i1⟩) (.of main_call0_v11 : TRef sig ⟨S1677721, .i1⟩) andi,
    TRef.nullary (.of main_call0_c_0 : TRef sig ⟨S_, .i32⟩) (constantI S_ 32 1#32),
    TRef.unary (.of main_call0_c_0 : TRef sig ⟨S_, .i32⟩) (.of main_call0_v12 : TRef sig ⟨S1677721, .i32⟩) (broadcastInDim S1677721 ![] bcast_S_S1677721),
    TRef.binary (.of main_call0_v2 : TRef sig ⟨S1677721, .i32⟩) (.of main_call0_v12 : TRef sig ⟨S1677721, .i32⟩) (.of main_call0_v13 : TRef sig ⟨S1677721, .i32⟩) subi,
    TRef.ternary (.of main_call0_v11 : TRef sig ⟨S1677721, .i1⟩) (.of main_call0_v13 : TRef sig ⟨S1677721, .i32⟩) (.of main_call0_v2 : TRef sig ⟨S1677721, .i32⟩) (.of main_v0 : TRef sig ⟨S1677721, .i32⟩) select ]

/-- The remainder's twenty-one operations over the buffers of its one call. -/
def opsRem : List (HloOp τ sig (Elt F)) :=
  [ TRef.unary (.of main_c_0 : TRef sig ⟨S_, .i32⟩) (.of main_call1_v0 : TRef sig ⟨S_, .i32⟩) id,
    TRef.nullary (.of main_call1_c : TRef sig ⟨S_, .i32⟩) (constantI S_ 32 0#32),
    TRef.binary (.of main_call1_v0 : TRef sig ⟨S_, .i32⟩) (.of main_call1_c : TRef sig ⟨S_, .i32⟩) (.of main_call1_v1 : TRef sig ⟨S_, .i1⟩) (cmpi .eq),
    TRef.nullary (.of main_call1_c_0 : TRef sig ⟨S_, .i32⟩) (constantI S_ 32 1#32),
    TRef.ternary (.of main_call1_v1 : TRef sig ⟨S_, .i1⟩) (.of main_call1_c_0 : TRef sig ⟨S_, .i32⟩) (.of main_call1_v0 : TRef sig ⟨S_, .i32⟩) (.of main_call1_v2 : TRef sig ⟨S_, .i32⟩) select,
    TRef.unary (.of main_call1_v2 : TRef sig ⟨S_, .i32⟩) (.of main_call1_v3 : TRef sig ⟨S1677721, .i32⟩) (broadcastInDim S1677721 ![] bcast_S_S1677721),
    TRef.binary (.of main_arg3 : TRef sig ⟨S1677721, .i32⟩) (.of main_call1_v3 : TRef sig ⟨S1677721, .i32⟩) (.of main_call1_v4 : TRef sig ⟨S1677721, .i32⟩) Host.remsi,
    TRef.nullary (.of main_call1_c_1 : TRef sig ⟨S_, .i32⟩) (constantI S_ 32 0#32),
    TRef.unary (.of main_call1_c_1 : TRef sig ⟨S_, .i32⟩) (.of main_call1_v5 : TRef sig ⟨S1677721, .i32⟩) (broadcastInDim S1677721 ![] bcast_S_S1677721),
    TRef.binary (.of main_call1_v4 : TRef sig ⟨S1677721, .i32⟩) (.of main_call1_v5 : TRef sig ⟨S1677721, .i32⟩) (.of main_call1_v6 : TRef sig ⟨S1677721, .i1⟩) (cmpi .ne),
    TRef.nullary (.of main_call1_c_2 : TRef sig ⟨S_, .i32⟩) (constantI S_ 32 0#32),
    TRef.unary (.of main_call1_c_2 : TRef sig ⟨S_, .i32⟩) (.of main_call1_v7 : TRef sig ⟨S1677721, .i32⟩) (broadcastInDim S1677721 ![] bcast_S_S1677721),
    TRef.binary (.of main_call1_v4 : TRef sig ⟨S1677721, .i32⟩) (.of main_call1_v7 : TRef sig ⟨S1677721, .i32⟩) (.of main_call1_v8 : TRef sig ⟨S1677721, .i1⟩) (cmpi .slt),
    TRef.nullary (.of main_call1_c_3 : TRef sig ⟨S_, .i32⟩) (constantI S_ 32 0#32),
    TRef.binary (.of main_call1_v2 : TRef sig ⟨S_, .i32⟩) (.of main_call1_c_3 : TRef sig ⟨S_, .i32⟩) (.of main_call1_v9 : TRef sig ⟨S_, .i1⟩) (cmpi .slt),
    TRef.unary (.of main_call1_v9 : TRef sig ⟨S_, .i1⟩) (.of main_call1_v10 : TRef sig ⟨S1677721, .i1⟩) (broadcastInDim S1677721 ![] bcast_S_S1677721),
    TRef.binary (.of main_call1_v8 : TRef sig ⟨S1677721, .i1⟩) (.of main_call1_v10 : TRef sig ⟨S1677721, .i1⟩) (.of main_call1_v11 : TRef sig ⟨S1677721, .i1⟩) (cmpi .ne),
    TRef.binary (.of main_call1_v11 : TRef sig ⟨S1677721, .i1⟩) (.of main_call1_v6 : TRef sig ⟨S1677721, .i1⟩) (.of main_call1_v12 : TRef sig ⟨S1677721, .i1⟩) andi,
    TRef.unary (.of main_call1_v2 : TRef sig ⟨S_, .i32⟩) (.of main_call1_v13 : TRef sig ⟨S1677721, .i32⟩) (broadcastInDim S1677721 ![] bcast_S_S1677721),
    TRef.binary (.of main_call1_v4 : TRef sig ⟨S1677721, .i32⟩) (.of main_call1_v13 : TRef sig ⟨S1677721, .i32⟩) (.of main_call1_v14 : TRef sig ⟨S1677721, .i32⟩) addi,
    TRef.ternary (.of main_call1_v12 : TRef sig ⟨S1677721, .i1⟩) (.of main_call1_v14 : TRef sig ⟨S1677721, .i32⟩) (.of main_call1_v4 : TRef sig ⟨S1677721, .i32⟩) (.of main_v1 : TRef sig ⟨S1677721, .i32⟩) select ]

/-- The entry function's own last twenty-four operations. -/
def opsTail : List (HloOp τ sig (Elt F)) :=
  [ nullary main_cst (constant S_ .f32 0x00000000#32),
    unary main_cst main_v2 (broadcastInDim S4096x4096 ![] bcast_S_S4096x4096 : (⟨S_, .f32⟩ : BufTy).Contents (Elt F) → (⟨S4096x4096, .f32⟩ : BufTy).Contents (Elt F)),
    nullary main_c_1 (constantI S_ 32 0#32),
    unary main_c_1 main_v3 (broadcastInDim S1677721 ![] bcast_S_S1677721 : (⟨S_, .i32⟩ : BufTy).Contents (Elt F) → (⟨S1677721, .i32⟩ : BufTy).Contents (Elt F)),
    binary main_v0 main_v3 main_v4 (cmpi .slt : (⟨S1677721, .i32⟩ : BufTy).Contents (Elt F) → (⟨S1677721, .i32⟩ : BufTy).Contents (Elt F) → (⟨S1677721, .i1⟩ : BufTy).Contents (Elt F)),
    nullary main_c_2 (constantI S_ 32 4096#32),
    unary main_c_2 main_v5 (broadcastInDim S1677721 ![] bcast_S_S1677721 : (⟨S_, .i32⟩ : BufTy).Contents (Elt F) → (⟨S1677721, .i32⟩ : BufTy).Contents (Elt F)),
    binary main_v0 main_v5 main_v6 (addi : (⟨S1677721, .i32⟩ : BufTy).Contents (Elt F) → (⟨S1677721, .i32⟩ : BufTy).Contents (Elt F) → (⟨S1677721, .i32⟩ : BufTy).Contents (Elt F)),
    ternary main_v4 main_v6 main_v0 main_v7 (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)),
    nullary main_c_3 (constantI S_ 32 0#32),
    unary main_c_3 main_v8 (broadcastInDim S1677721 ![] bcast_S_S1677721 : (⟨S_, .i32⟩ : BufTy).Contents (Elt F) → (⟨S1677721, .i32⟩ : BufTy).Contents (Elt F)),
    binary main_v1 main_v8 main_v9 (cmpi .slt : (⟨S1677721, .i32⟩ : BufTy).Contents (Elt F) → (⟨S1677721, .i32⟩ : BufTy).Contents (Elt F) → (⟨S1677721, .i1⟩ : BufTy).Contents (Elt F)),
    nullary main_c_4 (constantI S_ 32 4096#32),
    unary main_c_4 main_v10 (broadcastInDim S1677721 ![] bcast_S_S1677721 : (⟨S_, .i32⟩ : BufTy).Contents (Elt F) → (⟨S1677721, .i32⟩ : BufTy).Contents (Elt F)),
    binary main_v1 main_v10 main_v11 (addi : (⟨S1677721, .i32⟩ : BufTy).Contents (Elt F) → (⟨S1677721, .i32⟩ : BufTy).Contents (Elt F) → (⟨S1677721, .i32⟩ : BufTy).Contents (Elt F)),
    ternary main_v9 main_v11 main_v1 main_v12 (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)),
    unary main_v7 main_v13 (broadcastInDim S1677721x1 ![0] bcast_S1677721_S1677721x1_0 : (⟨S1677721, .i32⟩ : BufTy).Contents (Elt F) → (⟨S1677721x1, .i32⟩ : BufTy).Contents (Elt F)),
    unary main_v12 main_v14 (broadcastInDim S1677721x1 ![0] bcast_S1677721_S1677721x1_0 : (⟨S1677721, .i32⟩ : BufTy).Contents (Elt F) → (⟨S1677721x1, .i32⟩ : BufTy).Contents (Elt F)),
    binary main_v13 main_v14 main_v15 ((fun a b => concatenate S1677721x2 1 [⟨S1677721x1, a⟩, ⟨S1677721x1, b⟩] concatenates_S1677721x1_S1677721x1_S1677721x2_d1) : (⟨S1677721x1, .i32⟩ : BufTy).Contents (Elt F) → (⟨S1677721x1, .i32⟩ : BufTy).Contents (Elt F) → (⟨S1677721x2, .i32⟩ : BufTy).Contents (Elt F)),
    ternary main_v2 main_v15 main_arg1 main_v16 ((fun x i u => Host.scatterAdd scatter_S4096x4096_S1677721x2_S1677721_n_01_01_1 x i u) : (⟨S4096x4096, .f32⟩ : BufTy).Contents (Elt F) → (⟨S1677721x2, .i32⟩ : BufTy).Contents (Elt F) → (⟨S1677721, .f32⟩ : BufTy).Contents (Elt F) → (⟨S4096x4096, .f32⟩ : BufTy).Contents (Elt F)),
    binary main_arg0 main_v16 main_v17 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v18 (broadcastInDim S1x1x4096 ![2] bcast_S4096_S1x1x4096_2 : (⟨S4096, .f32⟩ : BufTy).Contents (Elt F) → (⟨S1x1x4096, .f32⟩ : BufTy).Contents (Elt F)),
    unary main_v18 main_v19 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v17 main_v19 main_v20 (addf : (⟨S4x2048x4096, .f32⟩ : BufTy).Contents (Elt F) → (⟨S4x2048x4096, .f32⟩ : BufTy).Contents (Elt F) → (⟨S4x2048x4096, .f32⟩ : BufTy).Contents (Elt F)) ]

/-- The floor quotient's call is its seventeen operations: its body with the select's body in place of the inner
    call, sequencing re-associated. -/
theorem quot_eq : fn_floor_divide.body (F := F) (.of main_arg3) (.of main_c) main_call0 = seq opsQuot := by
  simp only [fn_floor_divide.body, fn_where.body, opsQuot, seq, bind_assoc, pure_bind]

/-- The remainder's call is its twenty-one operations, likewise. -/
theorem rem_eq : fn_remainder.body (F := F) (.of main_arg3) (.of main_c_0) main_call1 = seq opsRem := by
  simp only [fn_remainder.body, fn_where_0.body, opsRem, seq, bind_assoc, pure_bind]

theorem seq_cons_eq (op : HloOp τ sig (Elt F)) (l : List (HloOp τ sig (Elt F))) :
    (seq (op :: l) : Prog (TpuEff nD τ sig (Elt F) (Pipeline.Sig Λ₀ (Fin 0) fun p => (pcfgs (F := F) p).Adm) .tc) PUnit)
      = (hlo rfl op fun _ => .ret (⟨⟩ : PUnit)) >>= fun _ => seq l := rfl

/-- The line is the five pieces in order. -/
theorem ops_eq : (ops : List (HloOp τ sig (Elt F)))
    = nullary main_c (constantI S_ 32 4096#32) :: (opsQuot ++ (nullary main_c_0 (constantI S_ 32 4096#32) :: (opsRem ++ opsTail))) := rfl

/-- The entry function is the straight line. -/
theorem main_eq (c : Dev nD) : main (F := F) c = seq ops := by
  rw [ops_eq, seq_cons_eq, seq_append, seq_cons_eq, seq_append, ← quot_eq, ← rem_eq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..,
    binary_bufs_sub .., unary_bufs_sub .., unary_bufs_sub .., binary_bufs_sub ..⟩

/-- On every device, for any float values, from any memory with zero counters: every weakly fair execution of the
    program terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.LibTypedRef.lean ====
import Idealize.ShloMosaic.Lib.StableHlo.Run

/-! ## A function applied through identity transports

A host operation of a module-local function is stated over typed references: its function is wrapped in transports
along "this buffer's type is the value's type". At a literal reference both sides of that equation are the same type, so
the transports are the identity; these lemmas say so for an operation with no, one, two or three operands, WITHOUT
looking inside the function. (Closing such a goal by `rfl` instead can send the unifier into the function's body.) -/

namespace Idealize.ShloMosaic.StableHlo

universe u

theorem cast_app₀ {γ : Sort u} (hγ : γ = γ) (c : γ) : cast hγ c = c := rfl

theorem cast_app₁ {α γ : Sort u} (hα : α = α) (hγ : γ = γ) (f : α → γ) (x : α) :
    cast hγ (f (cast hα x)) = f x := rfl

theorem cast_app₂ {α β γ : Sort u} (hα : α = α) (hβ : β = β) (hγ : γ = γ) (f : α → β → γ) (x : α) (y : β) :
    cast hγ (f (cast hα x) (cast hβ y)) = f x y := rfl

theorem cast_app₃ {α β δ γ : Sort u} (hα : α = α) (hβ : β = β) (hδ : δ = δ) (hγ : γ = γ) (f : α → β → δ → γ)
    (x : α) (y : β) (z : δ) : cast hγ (f (cast hα x) (cast hβ y) (cast hδ z)) = f x y z := rfl

end Idealize.ShloMosaic.StableHlo
-- ==== Proof.Spec.lean ====
/-
  The mathematics both programs compute, stated once over literal shapes and importing no program.

  A sparse weight matrix is given in coordinate form: entry number e has the flat position flat(e) and the value
  vals(e). Its row is the floor quotient of flat(e) by 4096 and its column the non-negative remainder; a negative
  row or column is moved up by 4096 once (the wrap of a negative index), and an entry whose row or column is
  still outside [0, 4096) is dropped. The dense matrix W has at (o, i) the sum of the values of all entries with
  row o and column i. The layer is y(b, s, o) = (sum over i of x(b, s, i) * W(o, i)) + bias(o).

  The integer steps are spelt exactly as the two programs spell them (the quotient truncated toward zero and
  lowered by one where the signs differ and the remainder is not zero; the truncated remainder raised by the
  divisor where its sign differs from the divisor's), as functions of the flat positions, so that both programs'
  index columns are the same two functions of the same input.
-/
import Idealize.ShloMosaic.PureOps.Ideal
import Idealize.ShloMosaic.Lib.ValueIdx

noncomputable section

namespace Cert.Spec

open Idealize.ShloMosaic Idealize.ShloMosaic.ValueIdx

abbrev S0 : Shape := ⟨0, ![]⟩
abbrev SE : Shape := ⟨1, ![1677721]⟩
abbrev SE1 : Shape := ⟨2, ![1677721, 1]⟩
abbrev SE2 : Shape := ⟨2, ![1677721, 2]⟩
abbrev SW : Shape := ⟨2, ![4096, 4096]⟩
abbrev SX : Shape := ⟨3, ![4, 2048, 4096]⟩
abbrev SB : Shape := ⟨1, ![4096]⟩

/-- The floor quotient of every flat position by the divisor d: the quotient truncated toward zero, lowered by
    one at the positions whose sign differs from the divisor's and whose truncated remainder is not zero. -/
def floorDiv (hb : S0.BroadcastsInDim SE (![] : Fin 0 → Fin SE.rank)) (flat : IVec SE 32) (d : IVec S0 32) : IVec SE 32 :=
  select
    (andi
      (cmpi .ne (signi flat) (broadcastInDim SE ![] hb (signi (id d))))
      (cmpi .ne (Host.remsi flat (broadcastInDim SE ![] hb (id d))) (broadcastInDim SE ![] hb (constantI S0 32 0#32))))
    (subi (Host.divsi flat (broadcastInDim SE ![] hb (id d))) (broadcastInDim SE ![] hb (constantI S0 32 1#32)))
    (Host.divsi flat (broadcastInDim SE ![] hb (id d)))

/-- The divisor the remainder is taken by: d itself, or 1 where d is 0. -/
def safeDiv (d : IVec S0 32) : IVec S0 32 :=
  select (cmpi .eq (id d) (constantI S0 32 0#32)) (constantI S0 32 1#32) (id d)

/-- The remainder of every flat position by the divisor d with the divisor's sign: the truncated remainder,
    raised by the divisor at the positions where it is not zero and its sign differs from the divisor's. -/
def floorMod (hb : S0.BroadcastsInDim SE (![] : Fin 0 → Fin SE.rank)) (flat : IVec SE 32) (d : IVec S0 32) : IVec SE 32 :=
  select
    (andi
      (cmpi .ne
        (cmpi .slt (Host.remsi flat (broadcastInDim SE ![] hb (safeDiv d))) (broadcastInDim SE ![] hb (constantI S0 32 0#32)))
        (broadcastInDim SE ![] hb (cmpi .slt (safeDiv d) (constantI S0 32 0#32))))
      (cmpi .ne (Host.remsi flat (broadcastInDim SE ![] hb (safeDiv d))) (broadcastInDim SE ![] hb (constantI S0 32 0#32))))
    (addi (Host.remsi flat (broadcastInDim SE ![] hb (safeDiv d))) (broadcastInDim SE ![] hb (safeDiv d)))
    (Host.remsi flat (broadcastInDim SE ![] hb (safeDiv d)))

/-- A negative index moved up by 4096 once; the others kept. -/
def wrapNeg (hb : S0.BroadcastsInDim SE (![] : Fin 0 → Fin SE.rank)) (a : IVec SE 32) : IVec SE 32 :=
  select (cmpi .slt a (broadcastInDim SE ![] hb (constantI S0 32 0#32)))
    (addi a (broadcastInDim SE ![] hb (constantI S0 32 4096#32))) a

/-- The row of every entry: the floor quotient of its flat position by 4096, wrapped. -/
def rowOf (hb : S0.BroadcastsInDim SE (![] : Fin 0 → Fin SE.rank)) (flat : IVec SE 32) : IVec SE 32 :=
  wrapNeg hb (floorDiv hb flat (constantI S0 32 4096#32))

/-- The column of every entry: the remainder of its flat position by 4096, wrapped. -/
def colOf (hb : S0.BroadcastsInDim SE (![] : Fin 0 → Fin SE.rank)) (flat : IVec SE 32) : IVec SE 32 :=
  wrapNeg hb (floorMod hb flat (constantI S0 32 4096#32))

/-- Two index vectors side by side as the two columns of an E x 2 array of index pairs. -/
def pairs (hb1 : SE.BroadcastsInDim SE1 (![0] : Fin 1 → Fin SE1.rank)) (hc : Shape.Concatenates [SE1, SE1] SE2 1)
    (p q : IVec SE 32) : IVec SE2 32 :=
  concatenate SE2 1 [⟨SE1, broadcastInDim SE1 ![0] hb1 p⟩, ⟨SE1, broadcastInDim SE1 ![0] hb1 q⟩] hc

/-- The dense matrix with, at (a, b), the sum of the values of the entries whose first index is a and whose
    second index is b (indices read as signed integers; an entry outside the matrix is in no sum). -/
def coo (p q : IVec SE 32) (vals : SE.Idx → EReal) (a b : Fin 4096) : EReal :=
  ∑ j ∈ Finset.univ.filter (fun j : SE.Idx => (p j).toInt = (a.val : Int) ∧ (q j).toInt = (b.val : Int)), vals j

/-- Swapping the two index vectors transposes the matrix. -/
theorem coo_swap (p q : IVec SE 32) (vals : SE.Idx → EReal) (a b : Fin 4096) : coo p q vals a b = coo q p vals b a := by
  unfold coo
  refine Finset.sum_congr (Finset.filter_congr fun j _ => And.comm) fun _ _ => rfl

/-- The layer: y(b, s, o) = (sum over i of x(b, s, i) * W(o, i)) + bias(o), for a weight matrix given entry by entry. -/
def dense (x : SX.Idx → EReal) (W : Fin 4096 → Fin 4096 → EReal) (bias : SB.Idx → EReal) (b : Fin 4) (s : Fin 2048) (o : Fin 4096) : EReal :=
  (∑ i : Fin 4096, x (ix3 b s i) * W o i) + bias (ix1 o)

end Cert.Spec

end
-- ==== Proof.RefStages.lean ====
/-
  The reference program's result, read stage by stage.

  The line of sixty-four operations is in single-assignment form: operation number i writes one buffer, no later
  operation writes it again, and it reads only buffers written before it (or the arguments, which nothing writes).
  So after the whole line each buffer holds its operation's function of what its operands hold after the whole line.
  Composing these one-step readings along the data flow gives the result in closed form:

    the floor quotient's seventeen steps are the floor quotient of the flat positions by 4096,
    the remainder's twenty-one steps are the remainder with the divisor's sign,
    each followed by the wrap of a negative index: the row and the column of every entry;
    the two broadcasts and the concatenation put them side by side as index pairs (row, column);
    the scatter-add into the zero matrix, the contraction with the input and the broadcast bias give the output.
-/
import proofs.«109815_j1666447311096_1_alg».proof.Proof.RefRun
import proofs.«109815_j1666447311096_1_alg».proof.Proof.LibStageRead
import proofs.«109815_j1666447311096_1_alg».proof.Proof.LibTypedRef
import proofs.«109815_j1666447311096_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the sixty-four operations write, in order. -/
abbrev dsts : List (Ref sig .tc) :=
  [ main_c, main_call0_v0, main_call0_v1, main_call0_v2, main_call0_v3, main_call0_v4, main_call0_v5, main_call0_v6,
    main_call0_v7, main_call0_v8, main_call0_c, main_call0_v9, main_call0_v10, main_call0_v11, main_call0_c_0, main_call0_v12,
    main_call0_v13, main_v0, main_c_0, main_call1_v0, main_call1_c, main_call1_v1, main_call1_c_0, main_call1_v2,
    main_call1_v3, main_call1_v4, main_call1_c_1, main_call1_v5, main_call1_v6, main_call1_c_2, main_call1_v7, main_call1_v8,
    main_call1_c_3, main_call1_v9, main_call1_v10, main_call1_v11, main_call1_v12, main_call1_v13, main_call1_v14, main_v1,
    main_cst, main_v2, main_c_1, main_v3, main_v4, main_c_2, main_v5, main_v6,
    main_v7, main_c_3, main_v8, main_v9, main_c_4, main_v10, main_v11, main_v12,
    main_v13, main_v14, main_v15, main_v16, main_v17, main_v18, main_v19, main_v20 ]

/-- Operation number i writes the i-th of them and nothing else. -/
theorem writes : WritesAre (ops : List (HloOp τ sig (Elt F))) dsts := by
  unfold WritesAre
  repeat (first | exact List.Forall₂.nil | refine List.Forall₂.cons (Finset.Subset.refl _) ?_)

/-! ## The arguments: nothing writes them -/

theorem arg0_eq (V : Valuation τ sig (Elt F)) : after ops V (main_arg0 : DevRef τ sig) = V (main_arg0 : DevRef τ sig) :=
  after_keep_from writes 0 (by decide) V
theorem arg1_eq (V : Valuation τ sig (Elt F)) : after ops V (main_arg1 : DevRef τ sig) = V (main_arg1 : DevRef τ sig) :=
  after_keep_from writes 0 (by decide) V
theorem arg2_eq (V : Valuation τ sig (Elt F)) : after ops V (main_arg2 : DevRef τ sig) = V (main_arg2 : DevRef τ sig) :=
  after_keep_from writes 0 (by decide) V
theorem arg3_eq (V : Valuation τ sig (Elt F)) : after ops V (main_arg3 : DevRef τ sig) = V (main_arg3 : DevRef τ sig) :=
  after_keep_from writes 0 (by decide) V

/-! ## One step each: a buffer's contents after the line are its operation's function of its operands' -/

theorem st_c (V : Valuation τ sig (Elt F)) :
    after ops V (main_c : DevRef τ sig) = (constantI S_ 32 4096#32) :=
  read_nullary writes 0 V rfl (by decide)

theorem st_call0_v0 (V : Valuation τ sig (Elt F)) :
    after ops V (main_call0_v0 : DevRef τ sig) = (id : (⟨S_, .i32⟩ : BufTy).Contents (Elt F) → (⟨S_, .i32⟩ : BufTy).Contents (Elt F)) (after ops V (main_c : DevRef τ sig)) :=
  (read_unary writes 1 V rfl (by decide) (by decide)).trans (cast_app₁ _ _ _ _)

theorem st_call0_v1 (V : Valuation τ sig (Elt F)) :
    after ops V (main_call0_v1 : DevRef τ sig) = (broadcastInDim S1677721 ![] bcast_S_S1677721 : (⟨S_, .i32⟩ : BufTy).Contents (Elt F) → (⟨S1677721, .i32⟩ : BufTy).Contents (Elt F)) (after ops V (main_call0_v0 : DevRef τ sig)) :=
  (read_unary writes 2 V rfl (by decide) (by decide)).trans (cast_app₁ _ _ _ _)

theorem st_call0_v2 (V : Valuation τ sig (Elt F)) :
    after ops V (main_call0_v2 : DevRef τ sig) = (Host.divsi : (⟨S1677721, .i32⟩ : BufTy).Contents (Elt F) → (⟨S1677721, .i32⟩ : BufTy).Contents (Elt F) → (⟨S1677721, .i32⟩ : BufTy).Contents (Elt F)) (after ops V (main_arg3 : DevRef τ sig)) (after ops V (main_call0_v1 : DevRef τ sig)) :=
  (read_binary writes 3 V rfl (by decide) (by decide) (by decide)).trans (cast_app₂ _ _ _ _ _ _)

theorem st_call0_v3 (V : Valuation τ sig (Elt F)) :
    after ops V (main_call0_v3 : DevRef τ sig) = (signi : (⟨S1677721, .i32⟩ : BufTy).Contents (Elt F) → (⟨S1677721, .i32⟩ : BufTy).Contents (Elt F)) (after ops V (main_arg3 : DevRef τ sig)) :=
  (read_unary writes 4 V rfl (by decide) (by decide)).trans (cast_app₁ _ _ _ _)

theorem st_call0_v4 (V : Valuation τ sig (Elt F)) :
    after ops V (main_call0_v4 : DevRef τ sig) = (signi : (⟨S_, .i32⟩ : BufTy).Contents (Elt F) → (⟨S_, .i32⟩ : BufTy).Contents (Elt F)) (after ops V (main_call0_v0 : DevRef τ sig)) :=
  (read_unary writes 5 V rfl (by decide) (by decide)).trans (cast_app₁ _ _ _ _)

theorem st_call0_v5 (V : Valuation τ sig (Elt F)) :
    after ops V (main_call0_v5 : DevRef τ sig) = (broadcastInDim S1677721 ![] bcast_S_S1677721 : (⟨S_, .i32⟩ : BufTy).Contents (Elt F) → (⟨S1677721, .i32⟩ : BufTy).Contents (Elt F)) (after ops V (main_call0_v4 : DevRef τ sig)) :=
  (read_unary writes 6 V rfl (by decide) (by decide)).trans (cast_app₁ _ _ _ _)

theorem st_call0_v6 (V : Valuation τ sig (Elt F)) :
    after ops V (main_call0_v6 : DevRef τ sig) = (cmpi .ne : (⟨S1677721, .i32⟩ : BufTy).Contents (Elt F) → (⟨S1677721, .i32⟩ : BufTy).Contents (Elt F) → (⟨S1677721, .i1⟩ : BufTy).Contents (Elt F)) (after ops V (main_call0_v3 : DevRef τ sig)) (after ops V (main_call0_v5 : DevRef τ sig)) :=
  (read_binary writes 7 V rfl (by decide) (by decide) (by decide)).trans (cast_app₂ _ _ _ _ _ _)

theorem st_call0_v7 (V : Valuation τ sig (Elt F)) :
    after ops V (main_call0_v7 : DevRef τ sig) = (broadcastInDim S1677721 ![] bcast_S_S1677721 : (⟨S_, .i32⟩ : BufTy).Contents (Elt F) → (⟨S1677721, .i32⟩ : BufTy).Contents (Elt F)) (after ops V (main_call0_v0 : DevRef τ sig)) :=
  (read_unary writes 8 V rfl (by decide) (by decide)).trans (cast_app₁ _ _ _ _)

theorem st_call0_v8 (V : Valuation τ sig (Elt F)) :
    after ops V (main_call0_v8 : DevRef τ sig) = (Host.remsi : (⟨S1677721, .i32⟩ : BufTy).Contents (Elt F) → (⟨S1677721, .i32⟩ : BufTy).Contents (Elt F) → (⟨S1677721, .i32⟩ : BufTy).Contents (Elt F)) (after ops V (main_arg3 : DevRef τ sig)) (after ops V (main_call0_v7 : DevRef τ sig)) :=
  (read_binary writes 9 V rfl (by decide) (by decide) (by decide)).trans (cast_app₂ _ _ _ _ _ _)

theorem st_call0_c (V : Valuation τ sig (Elt F)) :
    after ops V (main_call0_c : DevRef τ sig) = (constantI S_ 32 0#32 : (⟨S_, .i32⟩ : BufTy).Contents (Elt F)) :=
  (read_nullary writes 10 V rfl (by decide)).trans (cast_app₀ _ _)

theorem st_call0_v9 (V : Valuation τ sig (Elt F)) :
    after ops V (main_call0_v9 : DevRef τ sig) = (broadcastInDim S1677721 ![] bcast_S_S1677721 : (⟨S_, .i32⟩ : BufTy).Contents (Elt F) → (⟨S1677721, .i32⟩ : BufTy).Contents (Elt F)) (after ops V (main_call0_c : DevRef τ sig)) :=
  (read_unary writes 11 V rfl (by decide) (by decide)).trans (cast_app₁ _ _ _ _)

theorem st_call0_v10 (V : Valuation τ sig (Elt F)) :
    after ops V (main_call0_v10 : DevRef τ sig) = (cmpi .ne : (⟨S1677721, .i32⟩ : BufTy).Contents (Elt F) → (⟨S1677721, .i32⟩ : BufTy).Contents (Elt F) → (⟨S1677721, .i1⟩ : BufTy).Contents (Elt F)) (after ops V (main_call0_v8 : DevRef τ sig)) (after ops V (main_call0_v9 : DevRef τ sig)) :=
  (read_binary writes 12 V rfl (by decide) (by decide) (by decide)).trans (cast_app₂ _ _ _ _ _ _)

theorem st_call0_v11 (V : Valuation τ sig (Elt F)) :
    after ops V (main_call0_v11 : DevRef τ sig) = (andi : (⟨S1677721, .i1⟩ : BufTy).Contents (Elt F) → (⟨S1677721, .i1⟩ : BufTy).Contents (Elt F) → (⟨S1677721, .i1⟩ : BufTy).Contents (Elt F)) (after ops V (main_call0_v6 : DevRef τ sig)) (after ops V (main_call0_v10 : DevRef τ sig)) :=
  (read_binary writes 13 V rfl (by decide) (by decide) (by decide)).trans (cast_app₂ _ _ _ _ _ _)

theorem st_call0_c_0 (V : Valuation τ sig (Elt F)) :
    after ops V (main_call0_c_0 : DevRef τ sig) = (constantI S_ 32 1#32 : (⟨S_, .i32⟩ : BufTy).Contents (Elt F)) :=
  (read_nullary writes 14 V rfl (by decide)).trans (cast_app₀ _ _)

theorem st_call0_v12 (V : Valuation τ sig (Elt F)) :
    after ops V (main_call0_v12 : DevRef τ sig) = (broadcastInDim S1677721 ![] bcast_S_S1677721 : (⟨S_, .i32⟩ : BufTy).Contents (Elt F) → (⟨S1677721, .i32⟩ : BufTy).Contents (Elt F)) (after ops V (main_call0_c_0 : DevRef τ sig)) :=
  (read_unary writes 15 V rfl (by decide) (by decide)).trans (cast_app₁ _ _ _ _)

theorem st_call0_v13 (V : Valuation τ sig (Elt F)) :
    after ops V (main_call0_v13 : DevRef τ sig) = (subi : (⟨S1677721, .i32⟩ : BufTy).Contents (Elt F) → (⟨S1677721, .i32⟩ : BufTy).Contents (Elt F) → (⟨S1677721, .i32⟩ : BufTy).Contents (Elt F)) (after ops V (main_call0_v2 : DevRef τ sig)) (after ops V (main_call0_v12 : DevRef τ sig)) :=
  (read_binary writes 16 V rfl (by decide) (by decide) (by decide)).trans (cast_app₂ _ _ _ _ _ _)

theorem st_v0 (V : Valuation τ sig (Elt F)) :
    after ops V (main_v0 : DevRef τ sig) = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (after ops V (main_call0_v11 : DevRef τ sig)) (after ops V (main_call0_v13 : DevRef τ sig)) (after ops V (main_call0_v2 : DevRef τ sig)) :=
  (read_ternary writes 17 V rfl (by decide) (by decide) (by decide) (by decide)).trans (cast_app₃ _ _ _ _ _ _ _ _)

theorem st_c_0 (V : Valuation τ sig (Elt F)) :
    after ops V (main_c_0 : DevRef τ sig) = (constantI S_ 32 4096#32) :=
  read_nullary writes 18 V rfl (by decide)

theorem st_call1_v0 (V : Valuation τ sig (Elt F)) :
    after ops V (main_call1_v0 : DevRef τ sig) = (id : (⟨S_, .i32⟩ : BufTy).Contents (Elt F) → (⟨S_, .i32⟩ : BufTy).Contents (Elt F)) (after ops V (main_c_0 : DevRef τ sig)) :=
  (read_unary writes 19 V rfl (by decide) (by decide)).trans (cast_app₁ _ _ _ _)

theorem st_call1_c (V : Valuation τ sig (Elt F)) :
    after ops V (main_call1_c : DevRef τ sig) = (constantI S_ 32 0#32 : (⟨S_, .i32⟩ : BufTy).Contents (Elt F)) :=
  (read_nullary writes 20 V rfl (by decide)).trans (cast_app₀ _ _)

theorem st_call1_v1 (V : Valuation τ sig (Elt F)) :
    after ops V (main_call1_v1 : DevRef τ sig) = (cmpi .eq : (⟨S_, .i32⟩ : BufTy).Contents (Elt F) → (⟨S_, .i32⟩ : BufTy).Contents (Elt F) → (⟨S_, .i1⟩ : BufTy).Contents (Elt F)) (after ops V (main_call1_v0 : DevRef τ sig)) (after ops V (main_call1_c : DevRef τ sig)) :=
  (read_binary writes 21 V rfl (by decide) (by decide) (by decide)).trans (cast_app₂ _ _ _ _ _ _)

theorem st_call1_c_0 (V : Valuation τ sig (Elt F)) :
    after ops V (main_call1_c_0 : DevRef τ sig) = (constantI S_ 32 1#32 : (⟨S_, .i32⟩ : BufTy).Contents (Elt F)) :=
  (read_nullary writes 22 V rfl (by decide)).trans (cast_app₀ _ _)

theorem st_call1_v2 (V : Valuation τ sig (Elt F)) :
    after ops V (main_call1_v2 : DevRef τ sig) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (after ops V (main_call1_v1 : DevRef τ sig)) (after ops V (main_call1_c_0 : DevRef τ sig)) (after ops V (main_call1_v0 : DevRef τ sig)) :=
  (read_ternary writes 23 V rfl (by decide) (by decide) (by decide) (by decide)).trans (cast_app₃ _ _ _ _ _ _ _ _)

theorem st_call1_v3 (V : Valuation τ sig (Elt F)) :
    after ops V (main_call1_v3 : DevRef τ sig) = (broadcastInDim S1677721 ![] bcast_S_S1677721 : (⟨S_, .i32⟩ : BufTy).Contents (Elt F) → (⟨S1677721, .i32⟩ : BufTy).Contents (Elt F)) (after ops V (main_call1_v2 : DevRef τ sig)) :=
  (read_unary writes 24 V rfl (by decide) (by decide)).trans (cast_app₁ _ _ _ _)

theorem st_call1_v4 (V : Valuation τ sig (Elt F)) :
    after ops V (main_call1_v4 : DevRef τ sig) = (Host.remsi : (⟨S1677721, .i32⟩ : BufTy).Contents (Elt F) → (⟨S1677721, .i32⟩ : BufTy).Contents (Elt F) → (⟨S1677721, .i32⟩ : BufTy).Contents (Elt F)) (after ops V (main_arg3 : DevRef τ sig)) (after ops V (main_call1_v3 : DevRef τ sig)) :=
  (read_binary writes 25 V rfl (by decide) (by decide) (by decide)).trans (cast_app₂ _ _ _ _ _ _)

theorem st_call1_c_1 (V : Valuation τ sig (Elt F)) :
    after ops V (main_call1_c_1 : DevRef τ sig) = (constantI S_ 32 0#32 : (⟨S_, .i32⟩ : BufTy).Contents (Elt F)) :=
  (read_nullary writes 26 V rfl (by decide)).trans (cast_app₀ _ _)

theorem st_call1_v5 (V : Valuation τ sig (Elt F)) :
    after ops V (main_call1_v5 : DevRef τ sig) = (broadcastInDim S1677721 ![] bcast_S_S1677721 : (⟨S_, .i32⟩ : BufTy).Contents (Elt F) → (⟨S1677721, .i32⟩ : BufTy).Contents (Elt F)) (after ops V (main_call1_c_1 : DevRef τ sig)) :=
  (read_unary writes 27 V rfl (by decide) (by decide)).trans (cast_app₁ _ _ _ _)

theorem st_call1_v6 (V : Valuation τ sig (Elt F)) :
    after ops V (main_call1_v6 : DevRef τ sig) = (cmpi .ne : (⟨S1677721, .i32⟩ : BufTy).Contents (Elt F) → (⟨S1677721, .i32⟩ : BufTy).Contents (Elt F) → (⟨S1677721, .i1⟩ : BufTy).Contents (Elt F)) (after ops V (main_call1_v4 : DevRef τ sig)) (after ops V (main_call1_v5 : DevRef τ sig)) :=
  (read_binary writes 28 V rfl (by decide) (by decide) (by decide)).trans (cast_app₂ _ _ _ _ _ _)

theorem st_call1_c_2 (V : Valuation τ sig (Elt F)) :
    after ops V (main_call1_c_2 : DevRef τ sig) = (constantI S_ 32 0#32 : (⟨S_, .i32⟩ : BufTy).Contents (Elt F)) :=
  (read_nullary writes 29 V rfl (by decide)).trans (cast_app₀ _ _)

theorem st_call1_v7 (V : Valuation τ sig (Elt F)) :
    after ops V (main_call1_v7 : DevRef τ sig) = (broadcastInDim S1677721 ![] bcast_S_S1677721 : (⟨S_, .i32⟩ : BufTy).Contents (Elt F) → (⟨S1677721, .i32⟩ : BufTy).Contents (Elt F)) (after ops V (main_call1_c_2 : DevRef τ sig)) :=
  (read_unary writes 30 V rfl (by decide) (by decide)).trans (cast_app₁ _ _ _ _)

theorem st_call1_v8 (V : Valuation τ sig (Elt F)) :
    after ops V (main_call1_v8 : DevRef τ sig) = (cmpi .slt : (⟨S1677721, .i32⟩ : BufTy).Contents (Elt F) → (⟨S1677721, .i32⟩ : BufTy).Contents (Elt F) → (⟨S1677721, .i1⟩ : BufTy).Contents (Elt F)) (after ops V (main_call1_v4 : DevRef τ sig)) (after ops V (main_call1_v7 : DevRef τ sig)) :=
  (read_binary writes 31 V rfl (by decide) (by decide) (by decide)).trans (cast_app₂ _ _ _ _ _ _)

theorem st_call1_c_3 (V : Valuation τ sig (Elt F)) :
    after ops V (main_call1_c_3 : DevRef τ sig) = (constantI S_ 32 0#32 : (⟨S_, .i32⟩ : BufTy).Contents (Elt F)) :=
  (read_nullary writes 32 V rfl (by decide)).trans (cast_app₀ _ _)

theorem st_call1_v9 (V : Valuation τ sig (Elt F)) :
    after ops V (main_call1_v9 : DevRef τ sig) = (cmpi .slt : (⟨S_, .i32⟩ : BufTy).Contents (Elt F) → (⟨S_, .i32⟩ : BufTy).Contents (Elt F) → (⟨S_, .i1⟩ : BufTy).Contents (Elt F)) (after ops V (main_call1_v2 : DevRef τ sig)) (after ops V (main_call1_c_3 : DevRef τ sig)) :=
  (read_binary writes 33 V rfl (by decide) (by decide) (by decide)).trans (cast_app₂ _ _ _ _ _ _)

theorem st_call1_v10 (V : Valuation τ sig (Elt F)) :
    after ops V (main_call1_v10 : DevRef τ sig) = (broadcastInDim S1677721 ![] bcast_S_S1677721 : (⟨S_, .i1⟩ : BufTy).Contents (Elt F) → (⟨S1677721, .i1⟩ : BufTy).Contents (Elt F)) (after ops V (main_call1_v9 : DevRef τ sig)) :=
  (read_unary writes 34 V rfl (by decide) (by decide)).trans (cast_app₁ _ _ _ _)

theorem st_call1_v11 (V : Valuation τ sig (Elt F)) :
    after ops V (main_call1_v11 : DevRef τ sig) = (cmpi .ne : (⟨S1677721, .i1⟩ : BufTy).Contents (Elt F) → (⟨S1677721, .i1⟩ : BufTy).Contents (Elt F) → (⟨S1677721, .i1⟩ : BufTy).Contents (Elt F)) (after ops V (main_call1_v8 : DevRef τ sig)) (after ops V (main_call1_v10 : DevRef τ sig)) :=
  (read_binary writes 35 V rfl (by decide) (by decide) (by decide)).trans (cast_app₂ _ _ _ _ _ _)

theorem st_call1_v12 (V : Valuation τ sig (Elt F)) :
    after ops V (main_call1_v12 : DevRef τ sig) = (andi : (⟨S1677721, .i1⟩ : BufTy).Contents (Elt F) → (⟨S1677721, .i1⟩ : BufTy).Contents (Elt F) → (⟨S1677721, .i1⟩ : BufTy).Contents (Elt F)) (after ops V (main_call1_v11 : DevRef τ sig)) (after ops V (main_call1_v6 : DevRef τ sig)) :=
  (read_binary writes 36 V rfl (by decide) (by decide) (by decide)).trans (cast_app₂ _ _ _ _ _ _)

theorem st_call1_v13 (V : Valuation τ sig (Elt F)) :
    after ops V (main_call1_v13 : DevRef τ sig) = (broadcastInDim S1677721 ![] bcast_S_S1677721 : (⟨S_, .i32⟩ : BufTy).Contents (Elt F) → (⟨S1677721, .i32⟩ : BufTy).Contents (Elt F)) (after ops V (main_call1_v2 : DevRef τ sig)) :=
  (read_unary writes 37 V rfl (by decide) (by decide)).trans (cast_app₁ _ _ _ _)

theorem st_call1_v14 (V : Valuation τ sig (Elt F)) :
    after ops V (main_call1_v14 : DevRef τ sig) = (addi : (⟨S1677721, .i32⟩ : BufTy).Contents (Elt F) → (⟨S1677721, .i32⟩ : BufTy).Contents (Elt F) → (⟨S1677721, .i32⟩ : BufTy).Contents (Elt F)) (after ops V (main_call1_v4 : DevRef τ sig)) (after ops V (main_call1_v13 : DevRef τ sig)) :=
  (read_binary writes 38 V rfl (by decide) (by decide) (by decide)).trans (cast_app₂ _ _ _ _ _ _)

theorem st_v1 (V : Valuation τ sig (Elt F)) :
    after ops V (main_v1 : DevRef τ sig) = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (after ops V (main_call1_v12 : DevRef τ sig)) (after ops V (main_call1_v14 : DevRef τ sig)) (after ops V (main_call1_v4 : DevRef τ sig)) :=
  (read_ternary writes 39 V rfl (by decide) (by decide) (by decide) (by decide)).trans (cast_app₃ _ _ _ _ _ _ _ _)

theorem st_cst (V : Valuation τ sig (Elt F)) :
    after ops V (main_cst : DevRef τ sig) = (constant S_ .f32 0x00000000#32) :=
  read_nullary writes 40 V rfl (by decide)

theorem st_v2 (V : Valuation τ sig (Elt F)) :
    after ops V (main_v2 : DevRef τ sig) = (broadcastInDim S4096x4096 ![] bcast_S_S4096x4096 : (⟨S_, .f32⟩ : BufTy).Contents (Elt F) → (⟨S4096x4096, .f32⟩ : BufTy).Contents (Elt F)) (after ops V (main_cst : DevRef τ sig)) :=
  read_unary writes 41 V rfl (by decide) (by decide)

theorem st_c_1 (V : Valuation τ sig (Elt F)) :
    after ops V (main_c_1 : DevRef τ sig) = (constantI S_ 32 0#32) :=
  read_nullary writes 42 V rfl (by decide)

theorem st_v3 (V : Valuation τ sig (Elt F)) :
    after ops V (main_v3 : DevRef τ sig) = (broadcastInDim S1677721 ![] bcast_S_S1677721 : (⟨S_, .i32⟩ : BufTy).Contents (Elt F) → (⟨S1677721, .i32⟩ : BufTy).Contents (Elt F)) (after ops V (main_c_1 : DevRef τ sig)) :=
  read_unary writes 43 V rfl (by decide) (by decide)

theorem st_v4 (V : Valuation τ sig (Elt F)) :
    after ops V (main_v4 : DevRef τ sig) = (cmpi .slt : (⟨S1677721, .i32⟩ : BufTy).Contents (Elt F) → (⟨S1677721, .i32⟩ : BufTy).Contents (Elt F) → (⟨S1677721, .i1⟩ : BufTy).Contents (Elt F)) (after ops V (main_v0 : DevRef τ sig)) (after ops V (main_v3 : DevRef τ sig)) :=
  read_binary writes 44 V rfl (by decide) (by decide) (by decide)

theorem st_c_2 (V : Valuation τ sig (Elt F)) :
    after ops V (main_c_2 : DevRef τ sig) = (constantI S_ 32 4096#32) :=
  read_nullary writes 45 V rfl (by decide)

theorem st_v5 (V : Valuation τ sig (Elt F)) :
    after ops V (main_v5 : DevRef τ sig) = (broadcastInDim S1677721 ![] bcast_S_S1677721 : (⟨S_, .i32⟩ : BufTy).Contents (Elt F) → (⟨S1677721, .i32⟩ : BufTy).Contents (Elt F)) (after ops V (main_c_2 : DevRef τ sig)) :=
  read_unary writes 46 V rfl (by decide) (by decide)

theorem st_v6 (V : Valuation τ sig (Elt F)) :
    after ops V (main_v6 : DevRef τ sig) = (addi : (⟨S1677721, .i32⟩ : BufTy).Contents (Elt F) → (⟨S1677721, .i32⟩ : BufTy).Contents (Elt F) → (⟨S1677721, .i32⟩ : BufTy).Contents (Elt F)) (after ops V (main_v0 : DevRef τ sig)) (after ops V (main_v5 : DevRef τ sig)) :=
  read_binary writes 47 V rfl (by decide) (by decide) (by decide)

theorem st_v7 (V : Valuation τ sig (Elt F)) :
    after ops V (main_v7 : DevRef τ sig) = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (after ops V (main_v4 : DevRef τ sig)) (after ops V (main_v6 : DevRef τ sig)) (after ops V (main_v0 : DevRef τ sig)) :=
  read_ternary writes 48 V rfl (by decide) (by decide) (by decide) (by decide)

theorem st_c_3 (V : Valuation τ sig (Elt F)) :
    after ops V (main_c_3 : DevRef τ sig) = (constantI S_ 32 0#32) :=
  read_nullary writes 49 V rfl (by decide)

theorem st_v8 (V : Valuation τ sig (Elt F)) :
    after ops V (main_v8 : DevRef τ sig) = (broadcastInDim S1677721 ![] bcast_S_S1677721 : (⟨S_, .i32⟩ : BufTy).Contents (Elt F) → (⟨S1677721, .i32⟩ : BufTy).Contents (Elt F)) (after ops V (main_c_3 : DevRef τ sig)) :=
  read_unary writes 50 V rfl (by decide) (by decide)

theorem st_v9 (V : Valuation τ sig (Elt F)) :
    after ops V (main_v9 : DevRef τ sig) = (cmpi .slt : (⟨S1677721, .i32⟩ : BufTy).Contents (Elt F) → (⟨S1677721, .i32⟩ : BufTy).Contents (Elt F) → (⟨S1677721, .i1⟩ : BufTy).Contents (Elt F)) (after ops V (main_v1 : DevRef τ sig)) (after ops V (main_v8 : DevRef τ sig)) :=
  read_binary writes 51 V rfl (by decide) (by decide) (by decide)

theorem st_c_4 (V : Valuation τ sig (Elt F)) :
    after ops V (main_c_4 : DevRef τ sig) = (constantI S_ 32 4096#32) :=
  read_nullary writes 52 V rfl (by decide)

theorem st_v10 (V : Valuation τ sig (Elt F)) :
    after ops V (main_v10 : DevRef τ sig) = (broadcastInDim S1677721 ![] bcast_S_S1677721 : (⟨S_, .i32⟩ : BufTy).Contents (Elt F) → (⟨S1677721, .i32⟩ : BufTy).Contents (Elt F)) (after ops V (main_c_4 : DevRef τ sig)) :=
  read_unary writes 53 V rfl (by decide) (by decide)

theorem st_v11 (V : Valuation τ sig (Elt F)) :
    after ops V (main_v11 : DevRef τ sig) = (addi : (⟨S1677721, .i32⟩ : BufTy).Contents (Elt F) → (⟨S1677721, .i32⟩ : BufTy).Contents (Elt F) → (⟨S1677721, .i32⟩ : BufTy).Contents (Elt F)) (after ops V (main_v1 : DevRef τ sig)) (after ops V (main_v10 : DevRef τ sig)) :=
  read_binary writes 54 V rfl (by decide) (by decide) (by decide)

theorem st_v12 (V : Valuation τ sig (Elt F)) :
    after ops V (main_v12 : DevRef τ sig) = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (after ops V (main_v9 : DevRef τ sig)) (after ops V (main_v11 : DevRef τ sig)) (after ops V (main_v1 : DevRef τ sig)) :=
  read_ternary writes 55 V rfl (by decide) (by decide) (by decide) (by decide)

theorem st_v13 (V : Valuation τ sig (Elt F)) :
    after ops V (main_v13 : DevRef τ sig) = (broadcastInDim S1677721x1 ![0] bcast_S1677721_S1677721x1_0 : (⟨S1677721, .i32⟩ : BufTy).Contents (Elt F) → (⟨S1677721x1, .i32⟩ : BufTy).Contents (Elt F)) (after ops V (main_v7 : DevRef τ sig)) :=
  read_unary writes 56 V rfl (by decide) (by decide)

theorem st_v14 (V : Valuation τ sig (Elt F)) :
    after ops V (main_v14 : DevRef τ sig) = (broadcastInDim S1677721x1 ![0] bcast_S1677721_S1677721x1_0 : (⟨S1677721, .i32⟩ : BufTy).Contents (Elt F) → (⟨S1677721x1, .i32⟩ : BufTy).Contents (Elt F)) (after ops V (main_v12 : DevRef τ sig)) :=
  read_unary writes 57 V rfl (by decide) (by decide)

theorem st_v15 (V : Valuation τ sig (Elt F)) :
    after ops V (main_v15 : DevRef τ sig) = ((fun a b => concatenate S1677721x2 1 [⟨S1677721x1, a⟩, ⟨S1677721x1, b⟩] concatenates_S1677721x1_S1677721x1_S1677721x2_d1) : (⟨S1677721x1, .i32⟩ : BufTy).Contents (Elt F) → (⟨S1677721x1, .i32⟩ : BufTy).Contents (Elt F) → (⟨S1677721x2, .i32⟩ : BufTy).Contents (Elt F)) (after ops V (main_v13 : DevRef τ sig)) (after ops V (main_v14 : DevRef τ sig)) :=
  read_binary writes 58 V rfl (by decide) (by decide) (by decide)

theorem st_v16 (V : Valuation τ sig (Elt F)) :
    after ops V (main_v16 : DevRef τ sig) = ((fun x i u => Host.scatterAdd scatter_S4096x4096_S1677721x2_S1677721_n_01_01_1 x i u) : (⟨S4096x4096, .f32⟩ : BufTy).Contents (Elt F) → (⟨S1677721x2, .i32⟩ : BufTy).Contents (Elt F) → (⟨S1677721, .f32⟩ : BufTy).Contents (Elt F) → (⟨S4096x4096, .f32⟩ : BufTy).Contents (Elt F)) (after ops V (main_v2 : DevRef τ sig)) (after ops V (main_v15 : DevRef τ sig)) (after ops V (main_arg1 : DevRef τ sig)) :=
  read_ternary writes 59 V rfl (by decide) (by decide) (by decide) (by decide)

theorem st_v17 (V : Valuation τ sig (Elt F)) :
    after ops V (main_v17 : DevRef τ sig) = ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)) (after ops V (main_arg0 : DevRef τ sig)) (after ops V (main_v16 : DevRef τ sig)) :=
  read_binary writes 60 V rfl (by decide) (by decide) (by decide)

theorem st_v18 (V : Valuation τ sig (Elt F)) :
    after ops V (main_v18 : DevRef τ sig) = (broadcastInDim S1x1x4096 ![2] bcast_S4096_S1x1x4096_2 : (⟨S4096, .f32⟩ : BufTy).Contents (Elt F) → (⟨S1x1x4096, .f32⟩ : BufTy).Contents (Elt F)) (after ops V (main_arg2 : DevRef τ sig)) :=
  read_unary writes 61 V rfl (by decide) (by decide)

theorem st_v19 (V : Valuation τ sig (Elt F)) :
    after ops V (main_v19 : DevRef τ sig) = (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)) (after ops V (main_v18 : DevRef τ sig)) :=
  read_unary writes 62 V rfl (by decide) (by decide)

theorem st_v20 (V : Valuation τ sig (Elt F)) :
    after ops V (main_v20 : DevRef τ sig) = (addf : (⟨S4x2048x4096, .f32⟩ : BufTy).Contents (Elt F) → (⟨S4x2048x4096, .f32⟩ : BufTy).Contents (Elt F) → (⟨S4x2048x4096, .f32⟩ : BufTy).Contents (Elt F)) (after ops V (main_v17 : DevRef τ sig)) (after ops V (main_v19 : DevRef τ sig)) :=
  read_binary writes 63 V rfl (by decide) (by decide) (by decide)

/-! ## The steps composed along the data flow -/

/-- The floor quotient's seventeen steps compose to the floor quotient of the flat positions by 4096. -/
theorem quot_spec (V : Valuation τ sig (Elt F)) :
    after ops V (main_v0 : DevRef τ sig) = Cert.Spec.floorDiv bcast_S_S1677721 (V (main_arg3 : DevRef τ sig)) (constantI S_ 32 4096#32) := by
  rw [st_v0, st_call0_v13, st_call0_v12, st_call0_c_0, st_call0_v11, st_call0_v10, st_call0_v9, st_call0_c, st_call0_v8, st_call0_v7, st_call0_v6, st_call0_v5, st_call0_v4, st_call0_v3, st_call0_v2, st_call0_v1, st_call0_v0, st_c, arg3_eq]
  rfl

/-- The remainder's twenty-one steps compose to the remainder of the flat positions by 4096 with the divisor's sign. -/
theorem rem_spec (V : Valuation τ sig (Elt F)) :
    after ops V (main_v1 : DevRef τ sig) = Cert.Spec.floorMod bcast_S_S1677721 (V (main_arg3 : DevRef τ sig)) (constantI S_ 32 4096#32) := by
  rw [st_v1, st_call1_v14, st_call1_v13, st_call1_v12, st_call1_v11, st_call1_v10, st_call1_v9, st_call1_c_3, st_call1_v8, st_call1_v7, st_call1_c_2, st_call1_v6, st_call1_v5, st_call1_c_1, st_call1_v4, st_call1_v3, st_call1_v2, st_call1_c_0, st_call1_v1, st_call1_c, st_call1_v0, st_c_0, arg3_eq]
  rfl

/-- The wrapped floor quotient: every entry's row. -/
theorem row_spec (V : Valuation τ sig (Elt F)) :
    after ops V (main_v7 : DevRef τ sig) = Cert.Spec.rowOf bcast_S_S1677721 (V (main_arg3 : DevRef τ sig)) := by
  rw [st_v7, st_v6, st_v5, st_c_2, st_v4, st_v3, st_c_1, quot_spec]
  rfl

/-- The wrapped remainder: every entry's column. -/
theorem col_spec (V : Valuation τ sig (Elt F)) :
    after ops V (main_v12 : DevRef τ sig) = Cert.Spec.colOf bcast_S_S1677721 (V (main_arg3 : DevRef τ sig)) := by
  rw [st_v12, st_v11, st_v10, st_c_4, st_v9, st_v8, st_c_3, rem_spec]
  rfl

/-- The index pairs (row, column). -/
theorem pairs_spec (V : Valuation τ sig (Elt F)) :
    after ops V (main_v15 : DevRef τ sig) = Cert.Spec.pairs bcast_S1677721_S1677721x1_0 concatenates_S1677721x1_S1677721x1_S1677721x2_d1
      (Cert.Spec.rowOf bcast_S_S1677721 (V (main_arg3 : DevRef τ sig))) (Cert.Spec.colOf bcast_S_S1677721 (V (main_arg3 : DevRef τ sig))) := by
  rw [st_v15, st_v14, st_v13, row_spec, col_spec]
  rfl

/-- The program's result as a function of its four arguments: the values scattered, added, into the zero matrix at the
    index pairs (row, column), the input contracted with that matrix along its last axis and the matrix's second, and
    the bias broadcast along the last axis added. -/
def refOut (x : FVec F S4x2048x4096 .f32) (vals : FVec F S1677721 .f32) (bias : FVec F S4096 .f32) (flat : IVec S1677721 32) :
    FVec F S4x2048x4096 .f32 :=
  addf (Host.dotGeneral dot_S4x2048x4096_S4096x4096_S4x2048x4096_2_1_01_0_n_n none x
      (Host.scatterAdd scatter_S4096x4096_S1677721x2_S1677721_n_01_01_1
        (broadcastInDim S4096x4096 ![] bcast_S_S4096x4096 (constant S_ .f32 0x00000000#32))
        (Cert.Spec.pairs bcast_S1677721_S1677721x1_0 concatenates_S1677721x1_S1677721x1_S1677721x2_d1
          (Cert.Spec.rowOf bcast_S_S1677721 flat) (Cert.Spec.colOf bcast_S_S1677721 flat))
        vals))
    (broadcastInDim S4x2048x4096 ![0, 1, 2] bcast_S1x1x4096_S4x2048x4096_0_1_2 (broadcastInDim S1x1x4096 ![2] bcast_S4096_S1x1x4096_2 bias))

/-- After the line the result buffer holds that function of the arguments' contents before it. -/
theorem out_eq (V : Valuation τ sig (Elt F)) :
    after ops V (main_v20 : DevRef τ sig) = refOut (V (main_arg0 : DevRef τ sig)) (V (main_arg1 : DevRef τ sig)) (V (main_arg2 : DevRef τ sig)) (V (main_arg3 : DevRef τ sig)) := by
  rw [st_v20, st_v19, st_v18, st_v17, st_v16, st_v2, st_cst, pairs_spec, arg0_eq, arg1_eq, arg2_eq]
  rfl

/-- On every device, for any float values, from any memory with zero counters: every weakly fair execution of the
    program terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v20).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefValue

end
-- ==== Proof.RefRead.lean ====
/-
  The reference's result over the extended reals, read at one index.

  At output position (b, s, o) the result is the contraction's value plus the broadcast bias's. The contraction has one
  contracted axis — the input's last against the matrix's second — so its index set is one coordinate i below 4096, the
  input is read at (b, s, i) and the matrix at (o, i): the value is the sum over i of x(b, s, i) · W(o, i). The bias is
  broadcast twice, first to a 1 × 1 × 4096 array along the last axis, then across the two unit axes: at (b, s, o) it
  reads bias(o). Together: the dense layer of the specification, for the matrix the scatter-add builds.
-/
import proofs.«109815_j1666447311096_1_alg».proof.Proof.RefStages
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The input's index at output position (b, s, o) and contraction coordinate i is (b, s, i): the two free axes come
    from the output position, the contracted last axis is the coordinate. -/
theorem dot_lhsIdx (b : Fin 4) (s : Fin 2048) (o i : Fin 4096) :
    dot_S4x2048x4096_S4096x4096_S4x2048x4096_2_1_01_0_n_n.lhsIdx (ix3 b s o) ((contrEquiv1 dot_S4x2048x4096_S4096x4096_S4x2048x4096_2_1_01_0_n_n 4096 rfl rfl).symm i) = ix3 b s i :=
  funext fun a => Fin.ext (by
    match a with
    | ⟨0, _⟩ => rfl
    | ⟨1, _⟩ => rfl
    | ⟨2, _⟩ =>
      exact (dot_S4x2048x4096_S4096x4096_S4x2048x4096_2_1_01_0_n_n.lhsIdx_val_of_single rfl _ _).trans
        (contrEquiv1_symm_val dot_S4x2048x4096_S4096x4096_S4x2048x4096_2_1_01_0_n_n 4096 rfl rfl i))

/-- The matrix's index there is (o, i): its free first axis is the output's last, its contracted second axis is the
    coordinate. -/
theorem dot_rhsIdx (b : Fin 4) (s : Fin 2048) (o i : Fin 4096) :
    dot_S4x2048x4096_S4096x4096_S4x2048x4096_2_1_01_0_n_n.rhsIdx (ix3 b s o) ((contrEquiv1 dot_S4x2048x4096_S4096x4096_S4x2048x4096_2_1_01_0_n_n 4096 rfl rfl).symm i) = ix2 o i :=
  funext fun a => Fin.ext (by
    match a with
    | ⟨0, _⟩ => rfl
    | ⟨1, _⟩ =>
      exact (dot_S4x2048x4096_S4096x4096_S4x2048x4096_2_1_01_0_n_n.rhsIdx_val_of_single rfl _ _).trans
        (contrEquiv1_symm_val dot_S4x2048x4096_S4096x4096_S4x2048x4096_2_1_01_0_n_n 4096 rfl rfl i))

/-- The contraction at (b, s, o): the sum over i of x(b, s, i) · W(o, i). -/
theorem dot_apply (x : FVec Ideal S4x2048x4096 .f32) (W : FVec Ideal S4096x4096 .f32) (b : Fin 4) (s : Fin 2048) (o : Fin 4096) :
    Host.dotGeneral (F := Ideal) dot_S4x2048x4096_S4096x4096_S4x2048x4096_2_1_01_0_n_n none x W (ix3 b s o) = ∑ i : Fin 4096, x (ix3 b s i) * W (ix2 o i) := by
  show FloatOps.dotGeneral _ _ _ _ _ _ = _
  rw [Ideal.dotGeneral_apply, ← Equiv.sum_comp (contrEquiv1 dot_S4x2048x4096_S4096x4096_S4x2048x4096_2_1_01_0_n_n 4096 rfl rfl).symm]
  refine Finset.sum_congr rfl fun i _ => ?_
  rw [dot_lhsIdx, dot_rhsIdx]

/-- The bias broadcast along the last axis and then across the two unit axes reads, at (b, s, o), bias(o). -/
theorem bias_apply {α : Type} (bias : S4096.Idx → α) (b : Fin 4) (s : Fin 2048) (o : Fin 4096) :
    broadcastInDim S4x2048x4096 ![0, 1, 2] bcast_S1x1x4096_S4x2048x4096_0_1_2
        (broadcastInDim S1x1x4096 ![2] bcast_S4096_S1x1x4096_2 bias) (ix3 b s o) = bias (ix1 o) := by
  rw [broadcastInDim_apply _ _ _ (ix3 b s o) (ix3 (0 : Fin 1) (0 : Fin 1) o) (fun a => by
        match a with
        | ⟨0, _⟩ => rfl
        | ⟨1, _⟩ => rfl
        | ⟨2, _⟩ => rfl),
    broadcastInDim_apply _ _ _ (ix3 (0 : Fin 1) (0 : Fin 1) o) (ix1 o) (fun a => by
        match a with
        | ⟨0, _⟩ => rfl)]

/-- The reference's result at (b, s, o) is the specification's dense layer for the matrix the scatter-add builds from
    the index pairs (row, column). -/
theorem refOut_apply (x : FVec Ideal S4x2048x4096 .f32) (vals : FVec Ideal S1677721 .f32) (bias : FVec Ideal S4096 .f32)
    (flat : IVec S1677721 32) (b : Fin 4) (s : Fin 2048) (o : Fin 4096) :
    refOut (F := Ideal) x vals bias flat (ix3 b s o)
      = Cert.Spec.dense x
          (fun o i => Host.scatterAdd (F := Ideal) scatter_S4096x4096_S1677721x2_S1677721_n_01_01_1
            (broadcastInDim S4096x4096 ![] bcast_S_S4096x4096 (constant (F := Ideal) S_ .f32 0x00000000#32))
            (Cert.Spec.pairs bcast_S1677721_S1677721x1_0 concatenates_S1677721x1_S1677721x1_S1677721x2_d1
              (Cert.Spec.rowOf bcast_S_S1677721 flat) (Cert.Spec.colOf bcast_S_S1677721 flat))
            vals (ix2 o i))
          bias b s o := by
  unfold refOut Cert.Spec.dense
  rw [addf_apply, dot_apply, bias_apply]

end Cert.ReferenceIdeal.RefValue

end
-- ==== Proof.LibPointScatter.lean ====
/-
  A scatter of single points into a matrix, read at one entry.

  The operand is an N0 x N1 matrix, the scatter indices an E x 2 array of integer pairs, the updates a vector of E
  values. Both axes of the matrix are inserted window axes (an update is one point, it has no window), the pair's
  first component is the start on axis 0 and its second the start on axis 1, and the components lie along axis 1 of
  the index array. Update number j therefore lands at the entry (idx[j,0], idx[j,1]), both read as signed integers,
  when that entry is inside the matrix, and nowhere otherwise.

  Proved here, for every extent and every index width:
    * update j lands at (a, b) exactly when idx[j,0] = a and idx[j,1] = b as integers;
    * the accumulating scatter at the exact (extended real) values has at (a, b) the operand's entry plus the sum of
      the updates whose pair is (a, b);
    * an E x 2 index array made of two vectors p, q set side by side (each first made an E x 1 column) has p(e) at
      (e, 0) and q(e) at (e, 1).
-/
import Idealize.ShloMosaic.Lib.ValueIdx
import Idealize.ShloMosaic.PureOps.Ideal
import Idealize.ShloMosaic.Lib.Pipeline.Value

noncomputable section

namespace Cert.LibPointScatter

open Idealize.ShloMosaic Idealize.ShloMosaic.ValueIdx

/-- The dimension numbers of a point scatter into an N0 x N1 matrix from E index pairs: no window axes in the
    updates, both operand axes inserted, pair component c the start on operand axis c, the pair along axis 1. -/
abbrev pointScatter (N0 N1 E : Nat)
    (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

section
variable {N0 N1 E w : Nat} (wf : ScatterDims.WF ⟨2, ![N0, N1]⟩ ⟨2, ![E, 2]⟩ ⟨1, ![E]⟩ [] [0, 1] [0, 1] 1)

/-- On axis 0 the start of update j is the first component of its pair, read signed. -/
theorem start_zero (idx : IVec ⟨2, ![E, 2]⟩ w) (j : (⟨1, ![E]⟩ : Shape).Idx) :
    (pointScatter N0 N1 E wf).start j idx 0 = (idx (ix2 (j 0) 0)).toInt := by
  unfold ScatterDims.start
  rw [dif_pos (show (0 : Fin 2) ∈ (pointScatter N0 N1 E wf).scatterDimsToOperandDims from List.mem_cons_self)]
  have hsi : (pointScatter N0 N1 E wf).siIdx j ⟨List.idxOf (0 : Fin 2) (pointScatter N0 N1 E wf).scatterDimsToOperandDims,
      List.idxOf_lt_length_iff.2 List.mem_cons_self⟩ = ix2 (j 0) 0 := by
    funext b; refine Fin.ext ?_
    match b with
    | ⟨0, _⟩ => rfl
    | ⟨1, _⟩ => rfl
  rw [hsi]
  rfl

/-- On axis 1 the start of update j is the second component of its pair, read signed. -/
theorem start_one (idx : IVec ⟨2, ![E, 2]⟩ w) (j : (⟨1, ![E]⟩ : Shape).Idx) :
    (pointScatter N0 N1 E wf).start j idx 1 = (idx (ix2 (j 0) 1)).toInt := by
  unfold ScatterDims.start
  have hm : (1 : Fin 2) ∈ (pointScatter N0 N1 E wf).scatterDimsToOperandDims :=
    List.mem_cons_of_mem _ List.mem_cons_self
  rw [dif_pos hm]
  have hsi : (pointScatter N0 N1 E wf).siIdx j ⟨List.idxOf (1 : Fin 2) (pointScatter N0 N1 E wf).scatterDimsToOperandDims,
      List.idxOf_lt_length_iff.2 hm⟩ = ix2 (j 0) 1 := by
    funext b; refine Fin.ext ?_
    match b with
    | ⟨0, _⟩ => rfl
    | ⟨1, _⟩ => rfl
  rw [hsi]
  rfl

/-- Both operand axes are inserted: the window coordinate is 0 on each. -/
theorem window_eq_zero (j : (⟨1, ![E]⟩ : Shape).Idx) (a : Fin 2) : (pointScatter N0 N1 E wf).window j a = 0 := by
  unfold ScatterDims.window
  rw [dif_neg]
  intro h
  have h2 := (List.mem_filter.1 h).2
  match a with
  | ⟨0, _⟩ => simp at h2
  | ⟨1, _⟩ => simp at h2

/-- Update j lands at the entry (a, b) exactly when its pair, read signed, is (a, b). -/
theorem resultIdx_point (idx : IVec ⟨2, ![E, 2]⟩ w) (j : (⟨1, ![E]⟩ : Shape).Idx) (a : Fin N0) (b : Fin N1) :
    (pointScatter N0 N1 E wf).resultIdx? j idx = some (ix2 a b) ↔
      ((idx (ix2 (j 0) 0)).toInt = (a.val : Int) ∧ (idx (ix2 (j 0) 1)).toInt = (b.val : Int)) := by
  have s0 := start_zero wf idx j
  have s1 := start_one wf idx j
  have w0 := window_eq_zero wf j 0
  have w1 := window_eq_zero wf j 1
  have ha := a.isLt
  have hb := b.isLt
  unfold ScatterDims.resultIdx?
  split
  · next h =>
    rw [Option.some.injEq]
    constructor
    · intro he
      have e0 : ((pointScatter N0 N1 E wf).start j idx 0 + ((pointScatter N0 N1 E wf).window j 0 : Int)).toNat = a.val :=
        congrArg (fun f : (⟨2, ![N0, N1]⟩ : Shape).Idx => (f 0).val) he
      have e1 : ((pointScatter N0 N1 E wf).start j idx 1 + ((pointScatter N0 N1 E wf).window j 1 : Int)).toNat = b.val :=
        congrArg (fun f : (⟨2, ![N0, N1]⟩ : Shape).Idx => (f 1).val) he
      have h0 := (h 0).1
      have h1 := (h 1).1
      rw [w0, s0] at e0 h0
      rw [w1, s1] at e1 h1
      constructor <;> omega
    · rintro ⟨e0, e1⟩
      funext c
      refine Fin.ext ?_
      match c with
      | ⟨0, _⟩ =>
        show ((pointScatter N0 N1 E wf).start j idx 0 + ((pointScatter N0 N1 E wf).window j 0 : Int)).toNat = a.val
        rw [w0, s0]; omega
      | ⟨1, _⟩ =>
        show ((pointScatter N0 N1 E wf).start j idx 1 + ((pointScatter N0 N1 E wf).window j 1 : Int)).toNat = b.val
        rw [w1, s1]; omega
  · next h =>
    constructor
    · intro he; cases he
    · rintro ⟨e0, e1⟩
      exfalso
      apply h
      intro c
      match c with
      | ⟨0, _⟩ =>
        show 0 ≤ (pointScatter N0 N1 E wf).start j idx 0 + ((pointScatter N0 N1 E wf).window j 0 : Int) ∧
          (pointScatter N0 N1 E wf).start j idx 0 + ((pointScatter N0 N1 E wf).window j 0 : Int) < (N0 : Int)
        rw [w0, s0]; omega
      | ⟨1, _⟩ =>
        show 0 ≤ (pointScatter N0 N1 E wf).start j idx 1 + ((pointScatter N0 N1 E wf).window j 1 : Int) ∧
          (pointScatter N0 N1 E wf).start j idx 1 + ((pointScatter N0 N1 E wf).window j 1 : Int) < (N1 : Int)
        rw [w1, s1]; omega

/-- THE SCATTER READ AT (a, b), at the exact values: the operand's entry plus the sum of the updates whose index
    pair, read signed, is (a, b). -/
theorem scatterAdd_point_apply (x : (⟨2, ![N0, N1]⟩ : Shape).Idx → EReal) (idx : IVec ⟨2, ![E, 2]⟩ w)
    (u : (⟨1, ![E]⟩ : Shape).Idx → EReal) (a : Fin N0) (b : Fin N1) :
    Host.scatterAdd (F := Ideal) (φ := .f32) (pointScatter N0 N1 E wf) x idx u (ix2 a b) =
      x (ix2 a b) + ∑ j ∈ Finset.univ.filter (fun j : (⟨1, ![E]⟩ : Shape).Idx =>
        (idx (ix2 (j 0) 0)).toInt = (a.val : Int) ∧ (idx (ix2 (j 0) 1)).toInt = (b.val : Int)), u j := by
  show Ideal.hostScatterAdd (pointScatter N0 N1 E wf) x idx u (ix2 a b) = _
  unfold Ideal.hostScatterAdd
  congr 1
  exact Finset.sum_congr (Finset.filter_congr fun j _ => resultIdx_point wf idx j a b) fun _ _ => rfl

end

section Join
variable {α : Type} {E : Nat}

/-- A vector made an E x 1 column, read at (e, 0): its entry e. -/
theorem column_apply (h : (⟨1, ![E]⟩ : Shape).BroadcastsInDim ⟨2, ![E, 1]⟩ (![0] : Fin 1 → Fin 2))
    (p : (⟨1, ![E]⟩ : Shape).Idx → α) (e : Fin E) (z : Fin 1) :
    broadcastInDim ⟨2, ![E, 1]⟩ ![0] h p (ix2 e z) = p (ix1 e) := by
  refine broadcastInDim_apply _ _ _ _ (ix1 e) ?_
  intro a
  match a with
  | ⟨0, _⟩ =>
    show e.val = if E = 1 then 0 else e.val
    split
    · have := e.isLt; omega
    · rfl

/-- Two vectors set side by side as the columns of an E x 2 array: column 0 is the first. -/
theorem join_apply_zero (h : (⟨1, ![E]⟩ : Shape).BroadcastsInDim ⟨2, ![E, 1]⟩ (![0] : Fin 1 → Fin 2))
    (hc : Shape.Concatenates [(⟨2, ![E, 1]⟩ : Shape), ⟨2, ![E, 1]⟩] ⟨2, ![E, 2]⟩ 1)
    (p q : (⟨1, ![E]⟩ : Shape).Idx → α) (e : Fin E) :
    concatenate ⟨2, ![E, 2]⟩ 1 [⟨⟨2, ![E, 1]⟩, broadcastInDim ⟨2, ![E, 1]⟩ ![0] h p⟩,
      ⟨⟨2, ![E, 1]⟩, broadcastInDim ⟨2, ![E, 1]⟩ ![0] h q⟩] hc (ix2 e 0) = p (ix1 e) := by
  refine (concatenate_pair_apply_left (t := ⟨2, ![E, 2]⟩) (s₁ := ⟨2, ![E, 1]⟩) (s₂ := ⟨2, ![E, 1]⟩) (1 : Fin 2) _ _ hc
    (ix2 e 0) rfl (ix2 e 0) ?_).trans (column_apply h p e 0)
  intro b
  match b with
  | ⟨0, _⟩ => rfl
  | ⟨1, _⟩ => rfl

/-- Two vectors set side by side as the columns of an E x 2 array: column 1 is the second. -/
theorem join_apply_one (h : (⟨1, ![E]⟩ : Shape).BroadcastsInDim ⟨2, ![E, 1]⟩ (![0] : Fin 1 → Fin 2))
    (hc : Shape.Concatenates [(⟨2, ![E, 1]⟩ : Shape), ⟨2, ![E, 1]⟩] ⟨2, ![E, 2]⟩ 1)
    (p q : (⟨1, ![E]⟩ : Shape).Idx → α) (e : Fin E) :
    concatenate ⟨2, ![E, 2]⟩ 1 [⟨⟨2, ![E, 1]⟩, broadcastInDim ⟨2, ![E, 1]⟩ ![0] h p⟩,
      ⟨⟨2, ![E, 1]⟩, broadcastInDim ⟨2, ![E, 1]⟩ ![0] h q⟩] hc (ix2 e 1) = q (ix1 e) := by
  refine (concatenate_pair_apply_right (t := ⟨2, ![E, 2]⟩) (s₁ := ⟨2, ![E, 1]⟩) (s₂ := ⟨2, ![E, 1]⟩) (1 : Fin 2) _ _ hc
    (ix2 e 1) rfl rfl (ix2 e 0) ?_ rfl).trans (column_apply h q e 0)
  intro b hb
  match b with
  | ⟨0, _⟩ => rfl
  | ⟨1, _⟩ => exact absurd rfl hb

end Join

end Cert.LibPointScatter

end
-- ==== Proof.ScatterCoo.lean ====
/-
  The scatter of the sparse matrix's values at their index pairs, read at one entry.

  The index array is two index vectors p, q set side by side, so update number j lands at the entry (p(j), q(j)) when
  that is inside the 4096 x 4096 matrix. At the exact values the accumulating scatter therefore has, at (a, b), the
  operand's entry plus the sum of the values of all entries j with p(j) = a and q(j) = b: the coordinate-form matrix
  of the specification added to the operand.
-/
import proofs.«109815_j1666447311096_1_alg».proof.Proof.Spec
import proofs.«109815_j1666447311096_1_alg».proof.Proof.LibPointScatter

noncomputable section

namespace Cert.ScatterCoo

open Idealize.ShloMosaic Idealize.ShloMosaic.ValueIdx Cert.LibPointScatter

/-- A point scatter of the values u at the pairs (p(j), q(j)) into the matrix z, at the exact values, read at (a, b):
    z's entry plus the coordinate-form matrix's entry. -/
theorem scatterAdd_pairs
    (wf : ScatterDims.WF Cert.Spec.SW Cert.Spec.SE2 Cert.Spec.SE [] [0, 1] [0, 1] 1)
    (D : ScatterDims Cert.Spec.SW Cert.Spec.SE2 Cert.Spec.SE) (hD : D = pointScatter 4096 4096 1677721 wf)
    (z : Cert.Spec.SW.Idx → EReal)
    (hb1 : Cert.Spec.SE.BroadcastsInDim Cert.Spec.SE1 (![0] : Fin 1 → Fin Cert.Spec.SE1.rank))
    (hc : Shape.Concatenates [Cert.Spec.SE1, Cert.Spec.SE1] Cert.Spec.SE2 1)
    (p q : IVec Cert.Spec.SE 32) (u : Cert.Spec.SE.Idx → EReal) (a b : Fin 4096) :
    Host.scatterAdd (F := Ideal) (φ := .f32) D z (Cert.Spec.pairs hb1 hc p q) u (ix2 a b)
      = z (ix2 a b) + Cert.Spec.coo p q u a b := by
  subst hD
  rw [scatterAdd_point_apply]
  refine congrArg (z (ix2 a b) + ·) ?_
  unfold Cert.Spec.coo
  refine Finset.sum_congr (Finset.filter_congr fun j _ => ?_) fun _ _ => rfl
  have e0 : Cert.Spec.pairs hb1 hc p q (ix2 (j 0) 0) = p j := by
    unfold Cert.Spec.pairs
    exact (join_apply_zero hb1 hc p q (j 0)).trans (congrArg p (eq_ix1 j).symm)
  have e1 : Cert.Spec.pairs hb1 hc p q (ix2 (j 0) 1) = q j := by
    unfold Cert.Spec.pairs
    exact (join_apply_one hb1 hc p q (j 0)).trans (congrArg q (eq_ix1 j).symm)
  rw [e0, e1]

end Cert.ScatterCoo

end
-- ==== Proof.SpecOut.lean ====
/-
  The result both programs are compared with, as one function of the four inputs.

  The weight matrix W has at (o, i) the sum of the values of the entries whose row is o and whose column is i, added to
  the zero the accumulation starts from; the result is y(b, s, o) = (sum over i of x(b, s, i) * W(o, i)) + bias(o).
-/
import proofs.«109815_j1666447311096_1_alg».proof.Proof.Spec

noncomputable section

namespace Cert.Spec

open Idealize.ShloMosaic Idealize.ShloMosaic.ValueIdx

/-- The dense weight matrix: at (o, i), zero plus the sum of the values of the entries with row o and column i. -/
def weight (hb : S0.BroadcastsInDim SE (![] : Fin 0 → Fin SE.rank)) (flat : IVec SE 32) (vals : SE.Idx → EReal)
    (o i : Fin 4096) : EReal :=
  0 + coo (rowOf hb flat) (colOf hb flat) vals o i

/-- The layer's result as an array over (b, s, o). -/
def out (hb : S0.BroadcastsInDim SE (![] : Fin 0 → Fin SE.rank)) (x : SX.Idx → EReal) (vals : SE.Idx → EReal)
    (bias : SB.Idx → EReal) (flat : IVec SE 32) : SX.Idx → EReal :=
  fun j => dense x (weight hb flat vals) bias ⟨(j 0).val, (j 0).isLt⟩ ⟨(j 1).val, (j 1).isLt⟩ ⟨(j 2).val, (j 2).isLt⟩

/-- The result at (b, s, o). -/
theorem out_apply (hb : S0.BroadcastsInDim SE (![] : Fin 0 → Fin SE.rank)) (x : SX.Idx → EReal) (vals : SE.Idx → EReal)
    (bias : SB.Idx → EReal) (flat : IVec SE 32) (b : Fin 4) (s : Fin 2048) (o : Fin 4096) :
    out hb x vals bias flat (ix3 b s o) = dense x (weight hb flat vals) bias b s o := rfl

end Cert.Spec

end
-- ==== Proof.RBridge.lean ====
/-
  The reference's result is the specification's result.

  Read at (b, s, o) the reference's result is the dense layer for the matrix its scatter builds from the index pairs
  (row, column). At the exact values that scatter has at (o, i) the zero it starts from plus the sum of the values of
  the entries with row o and column i: the specification's weight matrix. So the two results agree at every index.
-/
import proofs.«109815_j1666447311096_1_alg».proof.Proof.RefRead
import proofs.«109815_j1666447311096_1_alg».proof.Proof.ScatterCoo
import proofs.«109815_j1666447311096_1_alg».proof.Proof.SpecOut

noncomputable section

namespace Cert.ReferenceIdeal.Bridge

open Cert.ReferenceIdeal Cert.ReferenceIdeal.Gen Idealize.ShloMosaic Idealize.ShloMosaic.ValueIdx

/-- The matrix the reference scatters, at (o, i): the specification's weight matrix there. -/
theorem weight_eq (vals : FVec Ideal S1677721 .f32) (flat : IVec S1677721 32) (o i : Fin 4096) :
    Host.scatterAdd (F := Ideal) scatter_S4096x4096_S1677721x2_S1677721_n_01_01_1
        (broadcastInDim S4096x4096 ![] bcast_S_S4096x4096 (constant (F := Ideal) S_ .f32 0x00000000#32))
        (Cert.Spec.pairs bcast_S1677721_S1677721x1_0 concatenates_S1677721x1_S1677721x1_S1677721x2_d1
          (Cert.Spec.rowOf bcast_S_S1677721 flat) (Cert.Spec.colOf bcast_S_S1677721 flat))
        vals (ix2 o i)
      = Cert.Spec.weight bcast_S_S1677721 flat vals o i := by
  refine (Cert.ScatterCoo.scatterAdd_pairs scatter_S4096x4096_S1677721x2_S1677721_n_01_01_1_wf _ rfl _ _ _ _ _ _ o i).trans ?_
  unfold Cert.Spec.weight
  refine congrArg (· + _) ?_
  refine (broadcastInDim_apply _ _ _ _ ix0 (fun a => a.elim0)).trans ?_
  exact (constant_apply _ _).trans Ideal.ofBits_zero_f32

/-- The reference's result, as an array, is the specification's. -/
theorem ref_is_spec (x : FVec Ideal S4x2048x4096 .f32) (vals : FVec Ideal S1677721 .f32) (bias : FVec Ideal S4096 .f32)
    (flat : IVec S1677721 32) :
    Cert.ReferenceIdeal.RefValue.refOut (F := Ideal) x vals bias flat
      = Cert.Spec.out Cert.ReferenceIdeal.Gen.bcast_S_S1677721 x vals bias flat := by
  funext j
  obtain ⟨b, s, o, rfl⟩ : ∃ (b : Fin 4) (s : Fin 2048) (o : Fin 4096), j = ix3 b s o := ⟨j 0, j 1, j 2, eq_ix3 j⟩
  rw [Cert.ReferenceIdeal.RefValue.refOut_apply, Cert.Spec.out_apply]
  refine congrArg (fun W => Cert.Spec.dense x W bias b s o) ?_
  funext o' i
  exact weight_eq vals flat o' i

end Cert.ReferenceIdeal.Bridge

end
-- ==== Proof.KHost.lean ====
/-
  The host operations that run before the kernel, read back.

  Before the kernel is launched the program computes, from the flat positions, the row (floor quotient by 4096) and
  the column (remainder by 4096) of every entry of the sparse matrix, wraps the negative ones, sets the two index
  vectors side by side — the COLUMN first, then the row —, scatters the values at those pairs into a zero
  4096 x 4096 matrix, and narrows the float format of that matrix and of x reshaped to 8192 x 4096; the bias becomes a
  1 x 4096 row. The line is in single-assignment form (every buffer is written by one operation), so each
  operation's result after the whole line is its function of its operands' contents after the whole line. Composed,
  the three operands of the kernel are: x reshaped, the coordinate-form matrix of the specification with the column
  as first index, and the bias row. At the exact values they are read entry by entry.
-/
import proofs.«109815_j1666447311096_1_alg».proof.Proof.Gen.KernelIdeal.Frame
import proofs.«109815_j1666447311096_1_alg».proof.Proof.Spec
import proofs.«109815_j1666447311096_1_alg».proof.Proof.LibStageRead
import proofs.«109815_j1666447311096_1_alg».proof.Proof.LibTypedRef
import proofs.«109815_j1666447311096_1_alg».proof.Proof.ScatterCoo
import Idealize.ShloMosaic.PureOps.Ideal.Laws

noncomputable section

namespace Cert.KernelIdeal.HostValue

open Idealize.ShloMosaic Idealize.ShloMosaic.TcCoe Idealize.ShloMosaic.ValueIdx
open Idealize.SL.Sem
open Cert.KernelIdeal Cert.KernelIdeal.Gen

variable {F : FTy → Type} [FloatOps F]

/-- The host operations before the kernel, as one line. -/
abbrev ops : List (HloOp τ sig (Elt F)) := List.flatten [hostOps0, hostOps0_1, hostOps0_2, hostOps0_3, hostOps0_4]

/-- The buffer each of them writes, in order: every buffer is written once. -/
def dsts : List (Ref sig .tc) :=
  [main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0, main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v1, main_cst, main_v2, main_c_1, main_v3, main_v4, main_c_2, main_v5, main_v6, main_v7, main_c_3, main_v8, main_v9, main_c_4, main_v10, main_v11, main_v12, main_v13, main_v14, main_v15, main_v16, main_v17, main_v18, main_v19, main_v20]

theorem W : StableHlo.WritesAre (ops (F := F)) dsts := by
  unfold StableHlo.WritesAre
  simp only [ops, dsts, hostOps0, hostOps0_1, hostOps0_2, hostOps0_3, hostOps0_4, List.flatten_cons, List.flatten_nil, List.append_nil,
    List.cons_append, List.nil_append]
  repeat' (first | exact List.Forall₂.nil | refine List.Forall₂.cons (fun _ hb => hb) ?_)

section Stages

variable (m : (ℓ : Loc nD τ sig) → Buf (Elt F) ℓ)

/-! ## Each operation's result, read after the whole line -/

theorem r_main_c (c : Dev nD) : Gen.V m c main_c = (constantI S_ 32 4096#32) :=
  StableHlo.read_nullary W 0 _ (rfl : (ops (F := F))[0]? = some (StableHlo.nullary main_c (constantI S_ 32 4096#32))) (by decide)

theorem r_main_call0_v0 (c : Dev nD) : Gen.V m c main_call0_v0 = (id : (⟨S_, .i32⟩ : BufTy).Contents (Elt F) → (⟨S_, .i32⟩ : BufTy).Contents (Elt F)) (Gen.V m c main_c) :=
  (StableHlo.read_unary W 1 _ (rfl : (ops (F := F))[1]? = some (StableHlo.TRef.unary (.of main_c : StableHlo.TRef sig ⟨S_, .i32⟩) (.of main_call0_v0 : StableHlo.TRef sig ⟨S_, .i32⟩) id)) (by decide) (by decide)).trans (StableHlo.cast_app₁ _ _ (id : (⟨S_, .i32⟩ : BufTy).Contents (Elt F) → (⟨S_, .i32⟩ : BufTy).Contents (Elt F)) _)

theorem r_main_call0_v1 (c : Dev nD) : Gen.V m c main_call0_v1 = ((broadcastInDim S1677721 ![] bcast_S_S1677721) : (⟨S_, .i32⟩ : BufTy).Contents (Elt F) → (⟨S1677721, .i32⟩ : BufTy).Contents (Elt F)) (Gen.V m c main_call0_v0) :=
  (StableHlo.read_unary W 2 _ (rfl : (ops (F := F))[2]? = some (StableHlo.TRef.unary (.of main_call0_v0 : StableHlo.TRef sig ⟨S_, .i32⟩) (.of main_call0_v1 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call0_v2 (c : Dev nD) : Gen.V m c main_call0_v2 = (Host.divsi : (⟨S1677721, .i32⟩ : BufTy).Contents (Elt F) → (⟨S1677721, .i32⟩ : BufTy).Contents (Elt F) → (⟨S1677721, .i32⟩ : BufTy).Contents (Elt F)) (Gen.V m c main_arg3) (Gen.V m c main_call0_v1) :=
  (StableHlo.read_binary W 3 _ (rfl : (ops (F := F))[3]? = some (StableHlo.TRef.binary (.of main_arg3 : StableHlo.TRef sig ⟨S1677721, .i32⟩) (.of main_call0_v1 : StableHlo.TRef sig ⟨S1677721, .i32⟩) (.of main_call0_v2 : StableHlo.TRef sig ⟨S1677721, .i32⟩) Host.divsi)) (by decide) (by decide) (by decide)).trans (StableHlo.cast_app₂ _ _ _ (Host.divsi : (⟨S1677721, .i32⟩ : BufTy).Contents (Elt F) → (⟨S1677721, .i32⟩ : BufTy).Contents (Elt F) → (⟨S1677721, .i32⟩ : BufTy).Contents (Elt F)) _ _)

theorem r_main_call0_v3 (c : Dev nD) : Gen.V m c main_call0_v3 = (signi : (⟨S1677721, .i32⟩ : BufTy).Contents (Elt F) → (⟨S1677721, .i32⟩ : BufTy).Contents (Elt F)) (Gen.V m c main_arg3) :=
  (StableHlo.read_unary W 4 _ (rfl : (ops (F := F))[4]? = some (StableHlo.TRef.unary (.of main_arg3 : StableHlo.TRef sig ⟨S1677721, .i32⟩) (.of main_call0_v3 : StableHlo.TRef sig ⟨S1677721, .i32⟩) signi)) (by decide) (by decide)).trans (StableHlo.cast_app₁ _ _ (signi : (⟨S1677721, .i32⟩ : BufTy).Contents (Elt F) → (⟨S1677721, .i32⟩ : BufTy).Contents (Elt F)) _)

theorem r_main_call0_v4 (c : Dev nD) : Gen.V m c main_call0_v4 = (signi : (⟨S_, .i32⟩ : BufTy).Contents (Elt F) → (⟨S_, .i32⟩ : BufTy).Contents (Elt F)) (Gen.V m c main_call0_v0) :=
  (StableHlo.read_unary W 5 _ (rfl : (ops (F := F))[5]? = some (StableHlo.TRef.unary (.of main_call0_v0 : StableHlo.TRef sig ⟨S_, .i32⟩) (.of main_call0_v4 : StableHlo.TRef sig ⟨S_, .i32⟩) signi)) (by decide) (by decide)).trans (StableHlo.cast_app₁ _ _ (signi : (⟨S_, .i32⟩ : BufTy).Contents (Elt F) → (⟨S_, .i32⟩ : BufTy).Contents (Elt F)) _)

theorem r_main_call0_v5 (c : Dev nD) : Gen.V m c main_call0_v5 = ((broadcastInDim S1677721 ![] bcast_S_S1677721) : (⟨S_, .i32⟩ : BufTy).Contents (Elt F) → (⟨S1677721, .i32⟩ : BufTy).Contents (Elt F)) (Gen.V m c main_call0_v4) :=
  (StableHlo.read_unary W 6 _ (rfl : (ops (F := F))[6]? = some (StableHlo.TRef.unary (.of main_call0_v4 : StableHlo.TRef sig ⟨S_, .i32⟩) (.of main_call0_v5 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call0_v6 (c : Dev nD) : Gen.V m c main_call0_v6 = ((cmpi .ne) : (⟨S1677721, .i32⟩ : BufTy).Contents (Elt F) → (⟨S1677721, .i32⟩ : BufTy).Contents (Elt F) → (⟨S1677721, .i1⟩ : BufTy).Contents (Elt F)) (Gen.V m c main_call0_v3) (Gen.V m c main_call0_v5) :=
  (StableHlo.read_binary W 7 _ (rfl : (ops (F := F))[7]? = some (StableHlo.TRef.binary (.of main_call0_v3 : StableHlo.TRef sig ⟨S1677721, .i32⟩) (.of main_call0_v5 : StableHlo.TRef sig ⟨S1677721, .i32⟩) (.of main_call0_v6 : StableHlo.TRef sig ⟨S1677721, .i1⟩) (cmpi .ne))) (by decide) (by decide) (by decide)).trans (StableHlo.cast_app₂ _ _ _ ((cmpi .ne) : (⟨S1677721, .i32⟩ : BufTy).Contents (Elt F) → (⟨S1677721, .i32⟩ : BufTy).Contents (Elt F) → (⟨S1677721, .i1⟩ : BufTy).Contents (Elt F)) _ _)

theorem r_main_call0_v7 (c : Dev nD) : Gen.V m c main_call0_v7 = ((broadcastInDim S1677721 ![] bcast_S_S1677721) : (⟨S_, .i32⟩ : BufTy).Contents (Elt F) → (⟨S1677721, .i32⟩ : BufTy).Contents (Elt F)) (Gen.V m c main_call0_v0) :=
  (StableHlo.read_unary W 8 _ (rfl : (ops (F := F))[8]? = some (StableHlo.TRef.unary (.of main_call0_v0 : StableHlo.TRef sig ⟨S_, .i32⟩) (.of main_call0_v7 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call0_v8 (c : Dev nD) : Gen.V m c main_call0_v8 = (Host.remsi : (⟨S1677721, .i32⟩ : BufTy).Contents (Elt F) → (⟨S1677721, .i32⟩ : BufTy).Contents (Elt F) → (⟨S1677721, .i32⟩ : BufTy).Contents (Elt F)) (Gen.V m c main_arg3) (Gen.V m c main_call0_v7) :=
  (StableHlo.read_binary W 9 _ (rfl : (ops (F := F))[9]? = some (StableHlo.TRef.binary (.of main_arg3 : StableHlo.TRef sig ⟨S1677721, .i32⟩) (.of main_call0_v7 : StableHlo.TRef sig ⟨S1677721, .i32⟩) (.of main_call0_v8 : StableHlo.TRef sig ⟨S1677721, .i32⟩) Host.remsi)) (by decide) (by decide) (by decide)).trans (StableHlo.cast_app₂ _ _ _ (Host.remsi : (⟨S1677721, .i32⟩ : BufTy).Contents (Elt F) → (⟨S1677721, .i32⟩ : BufTy).Contents (Elt F) → (⟨S1677721, .i32⟩ : BufTy).Contents (Elt F)) _ _)

theorem r_main_call0_c (c : Dev nD) : Gen.V m c main_call0_c = (constantI S_ 32 0#32) :=
  (StableHlo.read_nullary W 10 _ (rfl : (ops (F := F))[10]? = some (StableHlo.TRef.nullary (.of main_call0_c : StableHlo.TRef sig ⟨S_, .i32⟩) (constantI S_ 32 0#32))) (by decide)).trans (StableHlo.cast_app₀ _ _)

theorem r_main_call0_v9 (c : Dev nD) : Gen.V m c main_call0_v9 = ((broadcastInDim S1677721 ![] bcast_S_S1677721) : (⟨S_, .i32⟩ : BufTy).Contents (Elt F) → (⟨S1677721, .i32⟩ : BufTy).Contents (Elt F)) (Gen.V m c main_call0_c) :=
  (StableHlo.read_unary W 11 _ (rfl : (ops (F := F))[11]? = some (StableHlo.TRef.unary (.of main_call0_c : StableHlo.TRef sig ⟨S_, .i32⟩) (.of main_call0_v9 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call0_v10 (c : Dev nD) : Gen.V m c main_call0_v10 = ((cmpi .ne) : (⟨S1677721, .i32⟩ : BufTy).Contents (Elt F) → (⟨S1677721, .i32⟩ : BufTy).Contents (Elt F) → (⟨S1677721, .i1⟩ : BufTy).Contents (Elt F)) (Gen.V m c main_call0_v8) (Gen.V m c main_call0_v9) :=
  (StableHlo.read_binary W 12 _ (rfl : (ops (F := F))[12]? = some (StableHlo.TRef.binary (.of main_call0_v8 : StableHlo.TRef sig ⟨S1677721, .i32⟩) (.of main_call0_v9 : StableHlo.TRef sig ⟨S1677721, .i32⟩) (.of main_call0_v10 : StableHlo.TRef sig ⟨S1677721, .i1⟩) (cmpi .ne))) (by decide) (by decide) (by decide)).trans (StableHlo.cast_app₂ _ _ _ ((cmpi .ne) : (⟨S1677721, .i32⟩ : BufTy).Contents (Elt F) → (⟨S1677721, .i32⟩ : BufTy).Contents (Elt F) → (⟨S1677721, .i1⟩ : BufTy).Contents (Elt F)) _ _)

theorem r_main_call0_v11 (c : Dev nD) : Gen.V m c main_call0_v11 = (andi : (⟨S1677721, .i1⟩ : BufTy).Contents (Elt F) → (⟨S1677721, .i1⟩ : BufTy).Contents (Elt F) → (⟨S1677721, .i1⟩ : BufTy).Contents (Elt F)) (Gen.V m c main_call0_v6) (Gen.V m c main_call0_v10) :=
  (StableHlo.read_binary W 13 _ (rfl : (ops (F := F))[13]? = some (StableHlo.TRef.binary (.of main_call0_v6 : StableHlo.TRef sig ⟨S1677721, .i1⟩) (.of main_call0_v10 : StableHlo.TRef sig ⟨S1677721, .i1⟩) (.of main_call0_v11 : StableHlo.TRef sig ⟨S1677721, .i1⟩) andi)) (by decide) (by decide) (by decide)).trans (StableHlo.cast_app₂ _ _ _ (andi : (⟨S1677721, .i1⟩ : BufTy).Contents (Elt F) → (⟨S1677721, .i1⟩ : BufTy).Contents (Elt F) → (⟨S1677721, .i1⟩ : BufTy).Contents (Elt F)) _ _)

theorem r_main_call0_c_0 (c : Dev nD) : Gen.V m c main_call0_c_0 = (constantI S_ 32 1#32) :=
  (StableHlo.read_nullary W 14 _ (rfl : (ops (F := F))[14]? = some (StableHlo.TRef.nullary (.of main_call0_c_0 : StableHlo.TRef sig ⟨S_, .i32⟩) (constantI S_ 32 1#32))) (by decide)).trans (StableHlo.cast_app₀ _ _)

theorem r_main_call0_v12 (c : Dev nD) : Gen.V m c main_call0_v12 = ((broadcastInDim S1677721 ![] bcast_S_S1677721) : (⟨S_, .i32⟩ : BufTy).Contents (Elt F) → (⟨S1677721, .i32⟩ : BufTy).Contents (Elt F)) (Gen.V m c main_call0_c_0) :=
  (StableHlo.read_unary W 15 _ (rfl : (ops (F := F))[15]? = some (StableHlo.TRef.unary (.of main_call0_c_0 : StableHlo.TRef sig ⟨S_, .i32⟩) (.of main_call0_v12 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call0_v13 (c : Dev nD) : Gen.V m c main_call0_v13 = (subi : (⟨S1677721, .i32⟩ : BufTy).Contents (Elt F) → (⟨S1677721, .i32⟩ : BufTy).Contents (Elt F) → (⟨S1677721, .i32⟩ : BufTy).Contents (Elt F)) (Gen.V m c main_call0_v2) (Gen.V m c main_call0_v12) :=
  (StableHlo.read_binary W 16 _ (rfl : (ops (F := F))[16]? = some (StableHlo.TRef.binary (.of main_call0_v2 : StableHlo.TRef sig ⟨S1677721, .i32⟩) (.of main_call0_v12 : StableHlo.TRef sig ⟨S1677721, .i32⟩) (.of main_call0_v13 : StableHlo.TRef sig ⟨S1677721, .i32⟩) subi)) (by decide) (by decide) (by decide)).trans (StableHlo.cast_app₂ _ _ _ (subi : (⟨S1677721, .i32⟩ : BufTy).Contents (Elt F) → (⟨S1677721, .i32⟩ : BufTy).Contents (Elt F) → (⟨S1677721, .i32⟩ : BufTy).Contents (Elt F)) _ _)

theorem r_main_v0 (c : Dev nD) : Gen.V m c main_v0 = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (Gen.V m c main_call0_v11) (Gen.V m c main_call0_v13) (Gen.V m c main_call0_v2) :=
  (StableHlo.read_ternary W 17 _ (rfl : (ops (F := F))[17]? = some (StableHlo.TRef.ternary (.of main_call0_v11 : StableHlo.TRef sig ⟨S1677721, .i1⟩) (.of main_call0_v13 : StableHlo.TRef sig ⟨S1677721, .i32⟩) (.of main_call0_v2 : StableHlo.TRef sig ⟨S1677721, .i32⟩) (.of main_v0 : StableHlo.TRef sig ⟨S1677721, .i32⟩) select)) (by decide) (by decide) (by decide) (by decide)).trans (StableHlo.cast_app₃ _ _ _ _ (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) _ _ _)

theorem r_main_c_0 (c : Dev nD) : Gen.V m c main_c_0 = (constantI S_ 32 4096#32) :=
  StableHlo.read_nullary W 18 _ (rfl : (ops (F := F))[18]? = some (StableHlo.nullary main_c_0 (constantI S_ 32 4096#32))) (by decide)

theorem r_main_call1_v0 (c : Dev nD) : Gen.V m c main_call1_v0 = (id : (⟨S_, .i32⟩ : BufTy).Contents (Elt F) → (⟨S_, .i32⟩ : BufTy).Contents (Elt F)) (Gen.V m c main_c_0) :=
  (StableHlo.read_unary W 19 _ (rfl : (ops (F := F))[19]? = some (StableHlo.TRef.unary (.of main_c_0 : StableHlo.TRef sig ⟨S_, .i32⟩) (.of main_call1_v0 : StableHlo.TRef sig ⟨S_, .i32⟩) id)) (by decide) (by decide)).trans (StableHlo.cast_app₁ _ _ (id : (⟨S_, .i32⟩ : BufTy).Contents (Elt F) → (⟨S_, .i32⟩ : BufTy).Contents (Elt F)) _)

theorem r_main_call1_c (c : Dev nD) : Gen.V m c main_call1_c = (constantI S_ 32 0#32) :=
  (StableHlo.read_nullary W 20 _ (rfl : (ops (F := F))[20]? = some (StableHlo.TRef.nullary (.of main_call1_c : StableHlo.TRef sig ⟨S_, .i32⟩) (constantI S_ 32 0#32))) (by decide)).trans (StableHlo.cast_app₀ _ _)

theorem r_main_call1_v1 (c : Dev nD) : Gen.V m c main_call1_v1 = ((cmpi .eq) : (⟨S_, .i32⟩ : BufTy).Contents (Elt F) → (⟨S_, .i32⟩ : BufTy).Contents (Elt F) → (⟨S_, .i1⟩ : BufTy).Contents (Elt F)) (Gen.V m c main_call1_v0) (Gen.V m c main_call1_c) :=
  (StableHlo.read_binary W 21 _ (rfl : (ops (F := F))[21]? = some (StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq))) (by decide) (by decide) (by decide)).trans (StableHlo.cast_app₂ _ _ _ ((cmpi .eq) : (⟨S_, .i32⟩ : BufTy).Contents (Elt F) → (⟨S_, .i32⟩ : BufTy).Contents (Elt F) → (⟨S_, .i1⟩ : BufTy).Contents (Elt F)) _ _)

theorem r_main_call1_c_0 (c : Dev nD) : Gen.V m c main_call1_c_0 = (constantI S_ 32 1#32) :=
  (StableHlo.read_nullary W 22 _ (rfl : (ops (F := F))[22]? = some (StableHlo.TRef.nullary (.of main_call1_c_0 : StableHlo.TRef sig ⟨S_, .i32⟩) (constantI S_ 32 1#32))) (by decide)).trans (StableHlo.cast_app₀ _ _)

theorem r_main_call1_v2 (c : Dev nD) : Gen.V m c main_call1_v2 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (Gen.V m c main_call1_v1) (Gen.V m c main_call1_c_0) (Gen.V m c main_call1_v0) :=
  (StableHlo.read_ternary W 23 _ (rfl : (ops (F := F))[23]? = some (StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select)) (by decide) (by decide) (by decide) (by decide)).trans (StableHlo.cast_app₃ _ _ _ _ (select : (⟨S_, .i1⟩ : BufTy).Contents (Elt F) → (⟨S_, .i32⟩ : BufTy).Contents (Elt F) → (⟨S_, .i32⟩ : BufTy).Contents (Elt F) → (⟨S_, .i32⟩ : BufTy).Contents (Elt F)) _ _ _)

theorem r_main_call1_v3 (c : Dev nD) : Gen.V m c main_call1_v3 = ((broadcastInDim S1677721 ![] bcast_S_S1677721) : (⟨S_, .i32⟩ : BufTy).Contents (Elt F) → (⟨S1677721, .i32⟩ : BufTy).Contents (Elt F)) (Gen.V m c main_call1_v2) :=
  (StableHlo.read_unary W 24 _ (rfl : (ops (F := F))[24]? = some (StableHlo.TRef.unary main_call1_call0.v0 (.of main_call1_v3 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call1_v4 (c : Dev nD) : Gen.V m c main_call1_v4 = (Host.remsi : (⟨S1677721, .i32⟩ : BufTy).Contents (Elt F) → (⟨S1677721, .i32⟩ : BufTy).Contents (Elt F) → (⟨S1677721, .i32⟩ : BufTy).Contents (Elt F)) (Gen.V m c main_arg3) (Gen.V m c main_call1_v3) :=
  (StableHlo.read_binary W 25 _ (rfl : (ops (F := F))[25]? = some (StableHlo.TRef.binary (.of main_arg3 : StableHlo.TRef sig ⟨S1677721, .i32⟩) (.of main_call1_v3 : StableHlo.TRef sig ⟨S1677721, .i32⟩) (.of main_call1_v4 : StableHlo.TRef sig ⟨S1677721, .i32⟩) Host.remsi)) (by decide) (by decide) (by decide)).trans (StableHlo.cast_app₂ _ _ _ (Host.remsi : (⟨S1677721, .i32⟩ : BufTy).Contents (Elt F) → (⟨S1677721, .i32⟩ : BufTy).Contents (Elt F) → (⟨S1677721, .i32⟩ : BufTy).Contents (Elt F)) _ _)

theorem r_main_call1_c_1 (c : Dev nD) : Gen.V m c main_call1_c_1 = (constantI S_ 32 0#32) :=
  (StableHlo.read_nullary W 26 _ (rfl : (ops (F := F))[26]? = some (StableHlo.TRef.nullary (.of main_call1_c_1 : StableHlo.TRef sig ⟨S_, .i32⟩) (constantI S_ 32 0#32))) (by decide)).trans (StableHlo.cast_app₀ _ _)

theorem r_main_call1_v5 (c : Dev nD) : Gen.V m c main_call1_v5 = ((broadcastInDim S1677721 ![] bcast_S_S1677721) : (⟨S_, .i32⟩ : BufTy).Contents (Elt F) → (⟨S1677721, .i32⟩ : BufTy).Contents (Elt F)) (Gen.V m c main_call1_c_1) :=
  (StableHlo.read_unary W 27 _ (rfl : (ops (F := F))[27]? = some (StableHlo.TRef.unary (.of main_call1_c_1 : StableHlo.TRef sig ⟨S_, .i32⟩) (.of main_call1_v5 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call1_v6 (c : Dev nD) : Gen.V m c main_call1_v6 = ((cmpi .ne) : (⟨S1677721, .i32⟩ : BufTy).Contents (Elt F) → (⟨S1677721, .i32⟩ : BufTy).Contents (Elt F) → (⟨S1677721, .i1⟩ : BufTy).Contents (Elt F)) (Gen.V m c main_call1_v4) (Gen.V m c main_call1_v5) :=
  (StableHlo.read_binary W 28 _ (rfl : (ops (F := F))[28]? = some (StableHlo.TRef.binary (.of main_call1_v4 : StableHlo.TRef sig ⟨S1677721, .i32⟩) (.of main_call1_v5 : StableHlo.TRef sig ⟨S1677721, .i32⟩) (.of main_call1_v6 : StableHlo.TRef sig ⟨S1677721, .i1⟩) (cmpi .ne))) (by decide) (by decide) (by decide)).trans (StableHlo.cast_app₂ _ _ _ ((cmpi .ne) : (⟨S1677721, .i32⟩ : BufTy).Contents (Elt F) → (⟨S1677721, .i32⟩ : BufTy).Contents (Elt F) → (⟨S1677721, .i1⟩ : BufTy).Contents (Elt F)) _ _)

theorem r_main_call1_c_2 (c : Dev nD) : Gen.V m c main_call1_c_2 = (constantI S_ 32 0#32) :=
  (StableHlo.read_nullary W 29 _ (rfl : (ops (F := F))[29]? = some (StableHlo.TRef.nullary (.of main_call1_c_2 : StableHlo.TRef sig ⟨S_, .i32⟩) (constantI S_ 32 0#32))) (by decide)).trans (StableHlo.cast_app₀ _ _)

theorem r_main_call1_v7 (c : Dev nD) : Gen.V m c main_call1_v7 = ((broadcastInDim S1677721 ![] bcast_S_S1677721) : (⟨S_, .i32⟩ : BufTy).Contents (Elt F) → (⟨S1677721, .i32⟩ : BufTy).Contents (Elt F)) (Gen.V m c main_call1_c_2) :=
  (StableHlo.read_unary W 30 _ (rfl : (ops (F := F))[30]? = some (StableHlo.TRef.unary (.of main_call1_c_2 : StableHlo.TRef sig ⟨S_, .i32⟩) (.of main_call1_v7 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call1_v8 (c : Dev nD) : Gen.V m c main_call1_v8 = ((cmpi .slt) : (⟨S1677721, .i32⟩ : BufTy).Contents (Elt F) → (⟨S1677721, .i32⟩ : BufTy).Contents (Elt F) → (⟨S1677721, .i1⟩ : BufTy).Contents (Elt F)) (Gen.V m c main_call1_v4) (Gen.V m c main_call1_v7) :=
  (StableHlo.read_binary W 31 _ (rfl : (ops (F := F))[31]? = some (StableHlo.TRef.binary (.of main_call1_v4 : StableHlo.TRef sig ⟨S1677721, .i32⟩) (.of main_call1_v7 : StableHlo.TRef sig ⟨S1677721, .i32⟩) (.of main_call1_v8 : StableHlo.TRef sig ⟨S1677721, .i1⟩) (cmpi .slt))) (by decide) (by decide) (by decide)).trans (StableHlo.cast_app₂ _ _ _ ((cmpi .slt) : (⟨S1677721, .i32⟩ : BufTy).Contents (Elt F) → (⟨S1677721, .i32⟩ : BufTy).Contents (Elt F) → (⟨S1677721, .i1⟩ : BufTy).Contents (Elt F)) _ _)

theorem r_main_call1_c_3 (c : Dev nD) : Gen.V m c main_call1_c_3 = (constantI S_ 32 0#32) :=
  (StableHlo.read_nullary W 32 _ (rfl : (ops (F := F))[32]? = some (StableHlo.TRef.nullary (.of main_call1_c_3 : StableHlo.TRef sig ⟨S_, .i32⟩) (constantI S_ 32 0#32))) (by decide)).trans (StableHlo.cast_app₀ _ _)

theorem r_main_call1_v9 (c : Dev nD) : Gen.V m c main_call1_v9 = ((cmpi .slt) : (⟨S_, .i32⟩ : BufTy).Contents (Elt F) → (⟨S_, .i32⟩ : BufTy).Contents (Elt F) → (⟨S_, .i1⟩ : BufTy).Contents (Elt F)) (Gen.V m c main_call1_v2) (Gen.V m c main_call1_c_3) :=
  (StableHlo.read_binary W 33 _ (rfl : (ops (F := F))[33]? = some (StableHlo.TRef.binary main_call1_call0.v0 (.of main_call1_c_3 : StableHlo.TRef sig ⟨S_, .i32⟩) (.of main_call1_v9 : StableHlo.TRef sig ⟨S_, .i1⟩) (cmpi .slt))) (by decide) (by decide) (by decide)).trans (StableHlo.cast_app₂ _ _ _ ((cmpi .slt) : (⟨S_, .i32⟩ : BufTy).Contents (Elt F) → (⟨S_, .i32⟩ : BufTy).Contents (Elt F) → (⟨S_, .i1⟩ : BufTy).Contents (Elt F)) _ _)

theorem r_main_call1_v10 (c : Dev nD) : Gen.V m c main_call1_v10 = ((broadcastInDim S1677721 ![] bcast_S_S1677721) : (⟨S_, .i1⟩ : BufTy).Contents (Elt F) → (⟨S1677721, .i1⟩ : BufTy).Contents (Elt F)) (Gen.V m c main_call1_v9) :=
  (StableHlo.read_unary W 34 _ (rfl : (ops (F := F))[34]? = some (StableHlo.TRef.unary (.of main_call1_v9 : StableHlo.TRef sig ⟨S_, .i1⟩) (.of main_call1_v10 : StableHlo.TRef sig ⟨S1677721, .i1⟩) (broadcastInDim S1677721 ![] bcast_S_S1677721))) (by decide) (by decide)).trans (StableHlo.cast_app₁ _ _ ((broadcastInDim S1677721 ![] bcast_S_S1677721) : (⟨S_, .i1⟩ : BufTy).Contents (Elt F) → (⟨S1677721, .i1⟩ : BufTy).Contents (Elt F)) _)

theorem r_main_call1_v11 (c : Dev nD) : Gen.V m c main_call1_v11 = ((cmpi .ne) : (⟨S1677721, .i1⟩ : BufTy).Contents (Elt F) → (⟨S1677721, .i1⟩ : BufTy).Contents (Elt F) → (⟨S1677721, .i1⟩ : BufTy).Contents (Elt F)) (Gen.V m c main_call1_v8) (Gen.V m c main_call1_v10) :=
  (StableHlo.read_binary W 35 _ (rfl : (ops (F := F))[35]? = some (StableHlo.TRef.binary (.of main_call1_v8 : StableHlo.TRef sig ⟨S1677721, .i1⟩) (.of main_call1_v10 : StableHlo.TRef sig ⟨S1677721, .i1⟩) (.of main_call1_v11 : StableHlo.TRef sig ⟨S1677721, .i1⟩) (cmpi .ne))) (by decide) (by decide) (by decide)).trans (StableHlo.cast_app₂ _ _ _ ((cmpi .ne) : (⟨S1677721, .i1⟩ : BufTy).Contents (Elt F) → (⟨S1677721, .i1⟩ : BufTy).Contents (Elt F) → (⟨S1677721, .i1⟩ : BufTy).Contents (Elt F)) _ _)

theorem r_main_call1_v12 (c : Dev nD) : Gen.V m c main_call1_v12 = (andi : (⟨S1677721, .i1⟩ : BufTy).Contents (Elt F) → (⟨S1677721, .i1⟩ : BufTy).Contents (Elt F) → (⟨S1677721, .i1⟩ : BufTy).Contents (Elt F)) (Gen.V m c main_call1_v11) (Gen.V m c main_call1_v6) :=
  (StableHlo.read_binary W 36 _ (rfl : (ops (F := F))[36]? = some (StableHlo.TRef.binary (.of main_call1_v11 : StableHlo.TRef sig ⟨S1677721, .i1⟩) (.of main_call1_v6 : StableHlo.TRef sig ⟨S1677721, .i1⟩) (.of main_call1_v12 : StableHlo.TRef sig ⟨S1677721, .i1⟩) andi)) (by decide) (by decide) (by decide)).trans (StableHlo.cast_app₂ _ _ _ (andi : (⟨S1677721, .i1⟩ : BufTy).Contents (Elt F) → (⟨S1677721, .i1⟩ : BufTy).Contents (Elt F) → (⟨S1677721, .i1⟩ : BufTy).Contents (Elt F)) _ _)

theorem r_main_call1_v13 (c : Dev nD) : Gen.V m c main_call1_v13 = ((broadcastInDim S1677721 ![] bcast_S_S1677721) : (⟨S_, .i32⟩ : BufTy).Contents (Elt F) → (⟨S1677721, .i32⟩ : BufTy).Contents (Elt F)) (Gen.V m c main_call1_v2) :=
  (StableHlo.read_unary W 37 _ (rfl : (ops (F := F))[37]? = some (StableHlo.TRef.unary main_call1_call0.v0 (.of main_call1_v13 : StableHlo.TRef sig ⟨S1677721, .i32⟩) (broadcastInDim S1677721 ![] bcast_S_S1677721))) (by decide) (by decide)).trans (StableHlo.cast_app₁ _ _ ((broadcastInDim S1677721 ![] bcast_S_S1677721) : (⟨S_, .i32⟩ : BufTy).Contents (Elt F) → (⟨S1677721, .i32⟩ : BufTy).Contents (Elt F)) _)

theorem r_main_call1_v14 (c : Dev nD) : Gen.V m c main_call1_v14 = (addi : (⟨S1677721, .i32⟩ : BufTy).Contents (Elt F) → (⟨S1677721, .i32⟩ : BufTy).Contents (Elt F) → (⟨S1677721, .i32⟩ : BufTy).Contents (Elt F)) (Gen.V m c main_call1_v4) (Gen.V m c main_call1_v13) :=
  (StableHlo.read_binary W 38 _ (rfl : (ops (F := F))[38]? = some (StableHlo.TRef.binary (.of main_call1_v4 : StableHlo.TRef sig ⟨S1677721, .i32⟩) (.of main_call1_v13 : StableHlo.TRef sig ⟨S1677721, .i32⟩) (.of main_call1_v14 : StableHlo.TRef sig ⟨S1677721, .i32⟩) addi)) (by decide) (by decide) (by decide)).trans (StableHlo.cast_app₂ _ _ _ (addi : (⟨S1677721, .i32⟩ : BufTy).Contents (Elt F) → (⟨S1677721, .i32⟩ : BufTy).Contents (Elt F) → (⟨S1677721, .i32⟩ : BufTy).Contents (Elt F)) _ _)

theorem r_main_v1 (c : Dev nD) : Gen.V m c main_v1 = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (Gen.V m c main_call1_v12) (Gen.V m c main_call1_v14) (Gen.V m c main_call1_v4) :=
  (StableHlo.read_ternary W 39 _ (rfl : (ops (F := F))[39]? = some (StableHlo.TRef.ternary (.of main_call1_v12 : StableHlo.TRef sig ⟨S1677721, .i1⟩) (.of main_call1_v14 : StableHlo.TRef sig ⟨S1677721, .i32⟩) (.of main_call1_v4 : StableHlo.TRef sig ⟨S1677721, .i32⟩) (.of main_v1 : StableHlo.TRef sig ⟨S1677721, .i32⟩) select)) (by decide) (by decide) (by decide) (by decide)).trans (StableHlo.cast_app₃ _ _ _ _ (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) _ _ _)

theorem r_main_cst (c : Dev nD) : Gen.V m c main_cst = (constant S_ .f32 0x00000000#32) :=
  StableHlo.read_nullary W 40 _ (rfl : (ops (F := F))[40]? = some (StableHlo.nullary main_cst (constant S_ .f32 0x00000000#32))) (by decide)

theorem r_main_v2 (c : Dev nD) : Gen.V m c main_v2 = (broadcastInDim S4096x4096 ![] bcast_S_S4096x4096 : (⟨S_, .f32⟩ : BufTy).Contents (Elt F) → (⟨S4096x4096, .f32⟩ : BufTy).Contents (Elt F)) (Gen.V m c main_cst) :=
  StableHlo.read_unary W 41 _ (rfl : (ops (F := F))[41]? = some (StableHlo.unary main_cst main_v2 (broadcastInDim S4096x4096 ![] bcast_S_S4096x4096 : (⟨S_, .f32⟩ : BufTy).Contents (Elt F) → (⟨S4096x4096, .f32⟩ : BufTy).Contents (Elt F)))) (by decide) (by decide)

theorem r_main_c_1 (c : Dev nD) : Gen.V m c main_c_1 = (constantI S_ 32 0#32) :=
  StableHlo.read_nullary W 42 _ (rfl : (ops (F := F))[42]? = some (StableHlo.nullary main_c_1 (constantI S_ 32 0#32))) (by decide)

theorem r_main_v3 (c : Dev nD) : Gen.V m c main_v3 = (broadcastInDim S1677721 ![] bcast_S_S1677721 : (⟨S_, .i32⟩ : BufTy).Contents (Elt F) → (⟨S1677721, .i32⟩ : BufTy).Contents (Elt F)) (Gen.V m c main_c_1) :=
  StableHlo.read_unary W 43 _ (rfl : (ops (F := F))[43]? = some (StableHlo.unary main_c_1 main_v3 (broadcastInDim S1677721 ![] bcast_S_S1677721 : (⟨S_, .i32⟩ : BufTy).Contents (Elt F) → (⟨S1677721, .i32⟩ : BufTy).Contents (Elt F)))) (by decide) (by decide)

theorem r_main_v4 (c : Dev nD) : Gen.V m c main_v4 = (cmpi .slt : (⟨S1677721, .i32⟩ : BufTy).Contents (Elt F) → (⟨S1677721, .i32⟩ : BufTy).Contents (Elt F) → (⟨S1677721, .i1⟩ : BufTy).Contents (Elt F)) (Gen.V m c main_v1) (Gen.V m c main_v3) :=
  StableHlo.read_binary W 44 _ (rfl : (ops (F := F))[44]? = some (StableHlo.binary main_v1 main_v3 main_v4 (cmpi .slt : (⟨S1677721, .i32⟩ : BufTy).Contents (Elt F) → (⟨S1677721, .i32⟩ : BufTy).Contents (Elt F) → (⟨S1677721, .i1⟩ : BufTy).Contents (Elt F)))) (by decide) (by decide) (by decide)

theorem r_main_c_2 (c : Dev nD) : Gen.V m c main_c_2 = (constantI S_ 32 4096#32) :=
  StableHlo.read_nullary W 45 _ (rfl : (ops (F := F))[45]? = some (StableHlo.nullary main_c_2 (constantI S_ 32 4096#32))) (by decide)

theorem r_main_v5 (c : Dev nD) : Gen.V m c main_v5 = (broadcastInDim S1677721 ![] bcast_S_S1677721 : (⟨S_, .i32⟩ : BufTy).Contents (Elt F) → (⟨S1677721, .i32⟩ : BufTy).Contents (Elt F)) (Gen.V m c main_c_2) :=
  StableHlo.read_unary W 46 _ (rfl : (ops (F := F))[46]? = some (StableHlo.unary main_c_2 main_v5 (broadcastInDim S1677721 ![] bcast_S_S1677721 : (⟨S_, .i32⟩ : BufTy).Contents (Elt F) → (⟨S1677721, .i32⟩ : BufTy).Contents (Elt F)))) (by decide) (by decide)

theorem r_main_v6 (c : Dev nD) : Gen.V m c main_v6 = (addi : (⟨S1677721, .i32⟩ : BufTy).Contents (Elt F) → (⟨S1677721, .i32⟩ : BufTy).Contents (Elt F) → (⟨S1677721, .i32⟩ : BufTy).Contents (Elt F)) (Gen.V m c main_v1) (Gen.V m c main_v5) :=
  StableHlo.read_binary W 47 _ (rfl : (ops (F := F))[47]? = some (StableHlo.binary main_v1 main_v5 main_v6 (addi : (⟨S1677721, .i32⟩ : BufTy).Contents (Elt F) → (⟨S1677721, .i32⟩ : BufTy).Contents (Elt F) → (⟨S1677721, .i32⟩ : BufTy).Contents (Elt F)))) (by decide) (by decide) (by decide)

theorem r_main_v7 (c : Dev nD) : Gen.V m c main_v7 = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (Gen.V m c main_v4) (Gen.V m c main_v6) (Gen.V m c main_v1) :=
  StableHlo.read_ternary W 48 _ (rfl : (ops (F := F))[48]? = some (StableHlo.ternary main_v4 main_v6 main_v1 main_v7 (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)))) (by decide) (by decide) (by decide) (by decide)

theorem r_main_c_3 (c : Dev nD) : Gen.V m c main_c_3 = (constantI S_ 32 0#32) :=
  StableHlo.read_nullary W 49 _ (rfl : (ops (F := F))[49]? = some (StableHlo.nullary main_c_3 (constantI S_ 32 0#32))) (by decide)

theorem r_main_v8 (c : Dev nD) : Gen.V m c main_v8 = (broadcastInDim S1677721 ![] bcast_S_S1677721 : (⟨S_, .i32⟩ : BufTy).Contents (Elt F) → (⟨S1677721, .i32⟩ : BufTy).Contents (Elt F)) (Gen.V m c main_c_3) :=
  StableHlo.read_unary W 50 _ (rfl : (ops (F := F))[50]? = some (StableHlo.unary main_c_3 main_v8 (broadcastInDim S1677721 ![] bcast_S_S1677721 : (⟨S_, .i32⟩ : BufTy).Contents (Elt F) → (⟨S1677721, .i32⟩ : BufTy).Contents (Elt F)))) (by decide) (by decide)

theorem r_main_v9 (c : Dev nD) : Gen.V m c main_v9 = (cmpi .slt : (⟨S1677721, .i32⟩ : BufTy).Contents (Elt F) → (⟨S1677721, .i32⟩ : BufTy).Contents (Elt F) → (⟨S1677721, .i1⟩ : BufTy).Contents (Elt F)) (Gen.V m c main_v0) (Gen.V m c main_v8) :=
  StableHlo.read_binary W 51 _ (rfl : (ops (F := F))[51]? = some (StableHlo.binary main_v0 main_v8 main_v9 (cmpi .slt : (⟨S1677721, .i32⟩ : BufTy).Contents (Elt F) → (⟨S1677721, .i32⟩ : BufTy).Contents (Elt F) → (⟨S1677721, .i1⟩ : BufTy).Contents (Elt F)))) (by decide) (by decide) (by decide)

theorem r_main_c_4 (c : Dev nD) : Gen.V m c main_c_4 = (constantI S_ 32 4096#32) :=
  StableHlo.read_nullary W 52 _ (rfl : (ops (F := F))[52]? = some (StableHlo.nullary main_c_4 (constantI S_ 32 4096#32))) (by decide)

theorem r_main_v10 (c : Dev nD) : Gen.V m c main_v10 = (broadcastInDim S1677721 ![] bcast_S_S1677721 : (⟨S_, .i32⟩ : BufTy).Contents (Elt F) → (⟨S1677721, .i32⟩ : BufTy).Contents (Elt F)) (Gen.V m c main_c_4) :=
  StableHlo.read_unary W 53 _ (rfl : (ops (F := F))[53]? = some (StableHlo.unary main_c_4 main_v10 (broadcastInDim S1677721 ![] bcast_S_S1677721 : (⟨S_, .i32⟩ : BufTy).Contents (Elt F) → (⟨S1677721, .i32⟩ : BufTy).Contents (Elt F)))) (by decide) (by decide)

theorem r_main_v11 (c : Dev nD) : Gen.V m c main_v11 = (addi : (⟨S1677721, .i32⟩ : BufTy).Contents (Elt F) → (⟨S1677721, .i32⟩ : BufTy).Contents (Elt F) → (⟨S1677721, .i32⟩ : BufTy).Contents (Elt F)) (Gen.V m c main_v0) (Gen.V m c main_v10) :=
  StableHlo.read_binary W 54 _ (rfl : (ops (F := F))[54]? = some (StableHlo.binary main_v0 main_v10 main_v11 (addi : (⟨S1677721, .i32⟩ : BufTy).Contents (Elt F) → (⟨S1677721, .i32⟩ : BufTy).Contents (Elt F) → (⟨S1677721, .i32⟩ : BufTy).Contents (Elt F)))) (by decide) (by decide) (by decide)

theorem r_main_v12 (c : Dev nD) : Gen.V m c main_v12 = (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)) (Gen.V m c main_v9) (Gen.V m c main_v11) (Gen.V m c main_v0) :=
  StableHlo.read_ternary W 55 _ (rfl : (ops (F := F))[55]? = some (StableHlo.ternary main_v9 main_v11 main_v0 main_v12 (select : (⟨S1677721, .i1⟩ : BufTy).Contents (Elt F) → (⟨S1677721, .i32⟩ : BufTy).Contents (Elt F) → (⟨S1677721, .i32⟩ : BufTy).Contents (Elt F) → (⟨S1677721, .i32⟩ : BufTy).Contents (Elt F)))) (by decide) (by decide) (by decide) (by decide)

theorem r_main_v13 (c : Dev nD) : Gen.V m c main_v13 = (broadcastInDim S1677721x1 ![0] bcast_S1677721_S1677721x1_0 : (⟨S1677721, .i32⟩ : BufTy).Contents (Elt F) → (⟨S1677721x1, .i32⟩ : BufTy).Contents (Elt F)) (Gen.V m c main_v7) :=
  StableHlo.read_unary W 56 _ (rfl : (ops (F := F))[56]? = some (StableHlo.unary main_v7 main_v13 (broadcastInDim S1677721x1 ![0] bcast_S1677721_S1677721x1_0 : (⟨S1677721, .i32⟩ : BufTy).Contents (Elt F) → (⟨S1677721x1, .i32⟩ : BufTy).Contents (Elt F)))) (by decide) (by decide)

theorem r_main_v14 (c : Dev nD) : Gen.V m c main_v14 = (broadcastInDim S1677721x1 ![0] bcast_S1677721_S1677721x1_0 : (⟨S1677721, .i32⟩ : BufTy).Contents (Elt F) → (⟨S1677721x1, .i32⟩ : BufTy).Contents (Elt F)) (Gen.V m c main_v12) :=
  StableHlo.read_unary W 57 _ (rfl : (ops (F := F))[57]? = some (StableHlo.unary main_v12 main_v14 (broadcastInDim S1677721x1 ![0] bcast_S1677721_S1677721x1_0 : (⟨S1677721, .i32⟩ : BufTy).Contents (Elt F) → (⟨S1677721x1, .i32⟩ : BufTy).Contents (Elt F)))) (by decide) (by decide)

theorem r_main_v15 (c : Dev nD) : Gen.V m c main_v15 = ((fun a b => concatenate S1677721x2 1 [⟨S1677721x1, a⟩, ⟨S1677721x1, b⟩] concatenates_S1677721x1_S1677721x1_S1677721x2_d1) : (⟨S1677721x1, .i32⟩ : BufTy).Contents (Elt F) → (⟨S1677721x1, .i32⟩ : BufTy).Contents (Elt F) → (⟨S1677721x2, .i32⟩ : BufTy).Contents (Elt F)) (Gen.V m c main_v13) (Gen.V m c main_v14) :=
  StableHlo.read_binary W 58 _ (rfl : (ops (F := F))[58]? = some (StableHlo.binary main_v13 main_v14 main_v15 ((fun a b => concatenate S1677721x2 1 [⟨S1677721x1, a⟩, ⟨S1677721x1, b⟩] concatenates_S1677721x1_S1677721x1_S1677721x2_d1) : (⟨S1677721x1, .i32⟩ : BufTy).Contents (Elt F) → (⟨S1677721x1, .i32⟩ : BufTy).Contents (Elt F) → (⟨S1677721x2, .i32⟩ : BufTy).Contents (Elt F)))) (by decide) (by decide) (by decide)

theorem r_main_v16 (c : Dev nD) : Gen.V m c main_v16 = ((fun x i u => Host.scatterAdd scatter_S4096x4096_S1677721x2_S1677721_n_01_01_1 x i u) : (⟨S4096x4096, .f32⟩ : BufTy).Contents (Elt F) → (⟨S1677721x2, .i32⟩ : BufTy).Contents (Elt F) → (⟨S1677721, .f32⟩ : BufTy).Contents (Elt F) → (⟨S4096x4096, .f32⟩ : BufTy).Contents (Elt F)) (Gen.V m c main_v2) (Gen.V m c main_v15) (Gen.V m c main_arg1) :=
  StableHlo.read_ternary W 59 _ (rfl : (ops (F := F))[59]? = some (StableHlo.ternary main_v2 main_v15 main_arg1 main_v16 ((fun x i u => Host.scatterAdd scatter_S4096x4096_S1677721x2_S1677721_n_01_01_1 x i u) : (⟨S4096x4096, .f32⟩ : BufTy).Contents (Elt F) → (⟨S1677721x2, .i32⟩ : BufTy).Contents (Elt F) → (⟨S1677721, .f32⟩ : BufTy).Contents (Elt F) → (⟨S4096x4096, .f32⟩ : BufTy).Contents (Elt F)))) (by decide) (by decide) (by decide) (by decide)

theorem r_main_v17 (c : Dev nD) : Gen.V m c main_v17 = shapeCast S8192x4096 (Gen.V m c main_arg0) shapeCasts_S4x2048x4096_S8192x4096 :=
  (StableHlo.read_reshape W 60 _ (rfl : (ops (F := F))[60]? = some (StableHlo.reshape main_arg0 main_v17 rfl shapeCasts_S4x2048x4096_S8192x4096)) (by decide) (by decide)).trans rfl

theorem r_main_v18 (c : Dev nD) : Gen.V m c main_v18 = ((truncf .bf16 · bitsLt_bf16_f32) : (⟨S8192x4096, .f32⟩ : BufTy).Contents (Elt F) → (⟨S8192x4096, .bf16⟩ : BufTy).Contents (Elt F)) (Gen.V m c main_v17) :=
  StableHlo.read_unary W 61 _ (rfl : (ops (F := F))[61]? = some (StableHlo.unary main_v17 main_v18 ((truncf .bf16 · bitsLt_bf16_f32) : (⟨S8192x4096, .f32⟩ : BufTy).Contents (Elt F) → (⟨S8192x4096, .bf16⟩ : BufTy).Contents (Elt F)))) (by decide) (by decide)

theorem r_main_v19 (c : Dev nD) : Gen.V m c main_v19 = ((truncf .bf16 · bitsLt_bf16_f32) : (⟨S4096x4096, .f32⟩ : BufTy).Contents (Elt F) → (⟨S4096x4096, .bf16⟩ : BufTy).Contents (Elt F)) (Gen.V m c main_v16) :=
  StableHlo.read_unary W 62 _ (rfl : (ops (F := F))[62]? = some (StableHlo.unary main_v16 main_v19 ((truncf .bf16 · bitsLt_bf16_f32) : (⟨S4096x4096, .f32⟩ : BufTy).Contents (Elt F) → (⟨S4096x4096, .bf16⟩ : BufTy).Contents (Elt F)))) (by decide) (by decide)

theorem r_main_v20 (c : Dev nD) : Gen.V m c main_v20 = shapeCast S1x4096 (Gen.V m c main_arg2) shapeCasts_S4096_S1x4096 :=
  (StableHlo.read_reshape W 63 _ (rfl : (ops (F := F))[63]? = some (StableHlo.reshape main_arg2 main_v20 rfl shapeCasts_S4096_S1x4096)) (by decide) (by decide)).trans rfl

/-! ## The stages composed: the index chain, the pairs, the scatter, the three operands of the kernel -/

/-- The floor quotient of the flat positions by 4096, as the program spells it. -/
theorem v0_eq (c : Dev nD) : Gen.V m c main_v0 = Cert.Spec.floorDiv bcast_S_S1677721 (Gen.V m c main_arg3) (constantI S_ 32 4096#32) := by
  rw [r_main_v0 m c, r_main_call0_v13 m c, r_main_call0_v12 m c, r_main_call0_c_0 m c, r_main_call0_v11 m c, r_main_call0_v10 m c, r_main_call0_v9 m c, r_main_call0_c m c, r_main_call0_v8 m c, r_main_call0_v7 m c, r_main_call0_v6 m c, r_main_call0_v5 m c, r_main_call0_v4 m c, r_main_call0_v3 m c, r_main_call0_v2 m c, r_main_call0_v1 m c, r_main_call0_v0 m c, r_main_c m c]
  rfl

/-- The remainder of the flat positions by 4096, as the program spells it. -/
theorem v1_eq (c : Dev nD) : Gen.V m c main_v1 = Cert.Spec.floorMod bcast_S_S1677721 (Gen.V m c main_arg3) (constantI S_ 32 4096#32) := by
  rw [r_main_v1 m c, r_main_call1_v14 m c, r_main_call1_v13 m c, r_main_call1_v12 m c, r_main_call1_v11 m c, r_main_call1_v10 m c, r_main_call1_v9 m c, r_main_call1_c_3 m c, r_main_call1_v8 m c, r_main_call1_v7 m c, r_main_call1_c_2 m c, r_main_call1_v6 m c, r_main_call1_v5 m c, r_main_call1_c_1 m c, r_main_call1_v4 m c, r_main_call1_v3 m c, r_main_call1_v2 m c, r_main_call1_c_0 m c, r_main_call1_v1 m c, r_main_call1_c m c, r_main_call1_v0 m c, r_main_c_0 m c]
  rfl

/-- The columns, wrapped. -/
theorem v7_eq (c : Dev nD) : Gen.V m c main_v7 = Cert.Spec.colOf bcast_S_S1677721 (Gen.V m c main_arg3) := by
  rw [r_main_v7 m c, r_main_v6 m c, r_main_v5 m c, r_main_c_2 m c, r_main_v4 m c, r_main_v3 m c, r_main_c_1 m c, v1_eq m c]
  rfl

/-- The rows, wrapped. -/
theorem v12_eq (c : Dev nD) : Gen.V m c main_v12 = Cert.Spec.rowOf bcast_S_S1677721 (Gen.V m c main_arg3) := by
  rw [r_main_v12 m c, r_main_v11 m c, r_main_v10 m c, r_main_c_4 m c, r_main_v9 m c, r_main_v8 m c, r_main_c_3 m c, v0_eq m c]
  rfl

/-- The index pairs: the column first, then the row. -/
theorem v15_eq (c : Dev nD) : Gen.V m c main_v15 = Cert.Spec.pairs bcast_S1677721_S1677721x1_0 concatenates_S1677721x1_S1677721x1_S1677721x2_d1
    (Cert.Spec.colOf bcast_S_S1677721 (Gen.V m c main_arg3)) (Cert.Spec.rowOf bcast_S_S1677721 (Gen.V m c main_arg3)) := by
  rw [r_main_v15 m c, r_main_v14 m c, r_main_v13 m c, v12_eq m c, v7_eq m c]
  rfl

/-- The left operand of the kernel: x as an 8192 x 4096 matrix, in the narrow float format. -/
theorem v18_eq (c : Dev nD) : Gen.V m c main_v18
    = truncf .bf16 (shapeCast S8192x4096 (m ((c : Thread nD τ).loc main_arg0)) shapeCasts_S4x2048x4096_S8192x4096) bitsLt_bf16_f32 := by
  rw [r_main_v18 m c, r_main_v17 m c, Gen.V_main_arg0 m c]

/-- The right operand of the kernel: the values scattered at (column, row) into a zero matrix, in the narrow float format. -/
theorem v19_eq (c : Dev nD) : Gen.V m c main_v19
    = truncf .bf16 (Host.scatterAdd scatter_S4096x4096_S1677721x2_S1677721_n_01_01_1
        (broadcastInDim S4096x4096 ![] bcast_S_S4096x4096 (constant S_ .f32 0x00000000#32))
        (Cert.Spec.pairs bcast_S1677721_S1677721x1_0 concatenates_S1677721x1_S1677721x1_S1677721x2_d1
          (Cert.Spec.colOf bcast_S_S1677721 (m ((c : Thread nD τ).loc main_arg3)))
          (Cert.Spec.rowOf bcast_S_S1677721 (m ((c : Thread nD τ).loc main_arg3))))
        (m ((c : Thread nD τ).loc main_arg1))) bitsLt_bf16_f32 := by
  rw [r_main_v19 m c, r_main_v16 m c, v15_eq m c, r_main_v2 m c, r_main_cst m c, Gen.V_main_arg3 m c, Gen.V_main_arg1 m c]

/-- The bias as a 1 x 4096 row. -/
theorem v20_eq (c : Dev nD) : Gen.V m c main_v20 = shapeCast S1x4096 (m ((c : Thread nD τ).loc main_arg2)) shapeCasts_S4096_S1x4096 := by
  rw [r_main_v20 m c, Gen.V_main_arg2 m c]

end Stages

/-! ## At the exact values, entry by entry

A change of float format is the identity at the exact values, the zero word is the number 0, and a reshape reads the
operand at the index with the same row-major position. -/

section Exact

variable (m : (ℓ : Loc nD τ sig) → Buf (Elt Ideal) ℓ)

/-- The left operand at (r, k): x at (r / 2048, r % 2048, k). -/
theorem lhs_apply (c : Dev nD) (r : Fin 8192) (k : Fin 4096) :
    Gen.V (F := Ideal) m c main_v18 (ix2 r k)
      = m ((c : Thread nD τ).loc main_arg0)
          (ix3 (⟨r.val / 2048, by have := r.isLt; omega⟩ : Fin 4) (⟨r.val % 2048, by omega⟩ : Fin 2048) k) := by
  rw [v18_eq m c, truncf_apply]
  refine shapeCast_apply (s := S4x2048x4096) (t := S8192x4096) _ _ _ _ ?_
  rw [Shape.rowMajor_val_three, Shape.rowMajor_val_two]
  show (r.val / 2048 * 2048 + r.val % 2048) * 4096 + k.val = r.val * 4096 + k.val
  omega

/-- The right operand at (k, o): the coordinate-form matrix with the column as first index and the row as second. -/
theorem rhs_apply (c : Dev nD) (k o : Fin 4096) :
    Gen.V (F := Ideal) m c main_v19 (ix2 k o)
      = 0 + Cert.Spec.coo (Cert.Spec.colOf bcast_S_S1677721 (m ((c : Thread nD τ).loc main_arg3)))
          (Cert.Spec.rowOf bcast_S_S1677721 (m ((c : Thread nD τ).loc main_arg3)))
          (m ((c : Thread nD τ).loc main_arg1)) k o := by
  rw [v19_eq m c, truncf_apply]
  refine (Cert.ScatterCoo.scatterAdd_pairs scatter_S4096x4096_S1677721x2_S1677721_n_01_01_1_wf _ rfl _ _ _ _ _ _ k o).trans ?_
  refine congrArg (· + _) ?_
  refine (broadcastInDim_apply _ _ _ _ ix0 (fun a => a.elim0)).trans ?_
  exact (constant_apply _ _).trans Ideal.ofBits_zero_f32

/-- The bias row at (0, o): the bias at o. -/
theorem bias_apply (c : Dev nD) (o : Fin 4096) :
    Gen.V (F := Ideal) m c main_v20 (ix2 0 o) = m ((c : Thread nD τ).loc main_arg2) (ix1 o) := by
  rw [v20_eq m c]
  refine shapeCast_apply (s := S4096) (t := S1x4096) _ _ _ _ ?_
  rw [Shape.rowMajor_val_two, Shape.rowMajor_val_one]
  show o.val = 0 * 4096 + o.val
  omega

end Exact

end Cert.KernelIdeal.HostValue

end
-- ==== Proof.KOut.lean ====
/-
  The array the kernel's region leaves, stated as one function of the three arrays it reads.

  With A the 8192 x 4096 left array, B the 4096 x 4096 right array and bias the 1 x 4096 row, entry (r, o) is the sum
  over the four contraction blocks kb and the 1024 positions k inside a block of A(r, 1024 kb + k) * B(1024 kb + k, o),
  plus bias(0, o).
-/
import proofs.«109815_j1666447311096_1_alg».proof.Proof.Gen.KernelIdeal
import Idealize.ShloMosaic.Lib.ValueIdx

noncomputable section

open Idealize.ShloMosaic Idealize.ShloMosaic.ValueIdx
open scoped BigOperators

namespace Cert.KernelIdeal.Out

open Cert.KernelIdeal

/-- Position k of contraction block kb, as a position of the whole contraction axis. -/
def kpos (kb : Fin 4) (k : Fin 1024) : Fin 4096 := ⟨1024 * kb.val + k.val, by have := kb.isLt; have := k.isLt; omega⟩

/-- Entry (r, o) of the result: the block products summed over the four contraction blocks, plus the bias. -/
def outEntry (A : Vec Ideal S8192x4096 .bf16) (B : Vec Ideal S4096x4096 .bf16) (bias : Vec Ideal S1x4096 .f32)
    (r : Fin 8192) (o : Fin 4096) : EReal :=
  (∑ kb : Fin 4, ∑ k : Fin 1024, A (ix2 r (kpos kb k)) * B (ix2 (kpos kb k) o)) + bias (ix2 0 o)

/-- The result array. -/
def outArr (A : Vec Ideal S8192x4096 .bf16) (B : Vec Ideal S4096x4096 .bf16) (bias : Vec Ideal S1x4096 .f32) :
    Vec Ideal S8192x4096 .f32 :=
  fun j => outEntry A B bias ⟨(j 0).val, (j 0).isLt⟩ ⟨(j 1).val, (j 1).isLt⟩

theorem outArr_apply (A : Vec Ideal S8192x4096 .bf16) (B : Vec Ideal S4096x4096 .bf16) (bias : Vec Ideal S1x4096 .f32)
    (r : Fin 8192) (o : Fin 4096) : outArr A B bias (ix2 r o) = outEntry A B bias r o := rfl

end Cert.KernelIdeal.Out

end
-- ==== Proof.KTail.lean ====
/-
  The kernel program's run, read at its result.

  After the pipelined region the program has one more line: the region's 8192 x 4096 result array reshaped to
  4 x 2048 x 4096. The frame run says every buffer that is no array of the region ends as the lines after the region
  leave it, starting from the arrays as the region left them; the reshape's result is therefore the region's result
  array — whatever function G of the launch contents that array is shown to hold — under the other shape, and the four
  arguments, which no line writes, end as launched. A reshape keeps row-major positions: position (b, s, o) of the
  4 x 2048 x 4096 array is position (2048 b + s, o) of the 8192 x 4096 one.
-/
import proofs.«109815_j1666447311096_1_alg».proof.Proof.Gen.KernelIdeal.Frame
import proofs.«109815_j1666447311096_1_alg».proof.Proof.KOut
import Idealize.ShloMosaic.Lib.Pipeline.Value
import Idealize.ShloMosaic.Lib.StableHlo.Run
import Idealize.ShloMosaic.Lib.Tactic

noncomputable section

namespace Cert.KernelIdeal.Tail

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- Row 2048 b + s is one of the 8192 rows. -/
theorem row_lt (b : Fin 4) (s : Fin 2048) : 2048 * b.val + s.val < 8192 := by
  have := b.isLt; have := s.isLt; omega

/-- What the line after the region leaves in its result buffer: the region's result array, given as G, reshaped. -/
theorem tail_v22 (G : Dev nD → Vec Ideal S8192x4096 .f32) (hfinal : ∀ c, (dats m 0 c).arrAt 3 cfg0.N = G c) (c : Dev nD) :
    Pipeline.afterTail₀ cfgs (dats m) 0 (V0 m) [hostOps1] c main_v22
      = shapeCast S4x2048x4096 (G c) shapeCasts_S8192x4096_S4x2048x4096 := by
  have hX := (Pipeline.withArrays_arr spec0 launch0.win.arr_inj c (V0 m c) (fun w => (dats m 0 c).arrAt w cfg0.N) 3).trans (hfinal c)
  unfold Pipeline.afterTail₀
  show StableHlo.after hostOps1 _ (Proc.devRef .tc main_v22) = _
  after_results
  exact congrArg (fun z : Vec Ideal S8192x4096 .f32 => shapeCast S4x2048x4096 z shapeCasts_S8192x4096_S4x2048x4096) hX

/-- On every device, from any memory with zero counters: every weakly fair execution of the program terminates with the
    result buffer at the region's result array, given as G, reshaped, and the four arguments unchanged. -/
theorem run_tail (ρ : Dev nD → PrngReg) (G : Dev nD → Vec Ideal S8192x4096 .f32)
    (hfinal : ∀ c, (dats m 0 c).arrAt 3 cfg0.N = G c) :
    θ_run defs (onTc (τ := τ) (main (F := Ideal))) ⟨m, fun _ => 0, ρ⟩ fun r => ∀ c : Dev nD,
      r.2.mem ((c.tc : Thread nD τ).loc main_v22) = shapeCast S4x2048x4096 (G c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v22 (Pipeline.mem_restRefs_of main_v22 (by decide) (by decide))).trans (tail_v22 m G hfinal c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

/-- The reshaped array at (b, s, o) is the 8192 x 4096 array at (2048 b + s, o): the two positions are the same
    row-major position, (2048 b + s) * 4096 + o. -/
theorem result_apply (G : Vec Ideal S8192x4096 .f32) (b : Fin 4) (s : Fin 2048) (o : Fin 4096) :
    shapeCast S4x2048x4096 G shapeCasts_S8192x4096_S4x2048x4096 (ix3 b s o)
      = G (ix2 ⟨2048 * b.val + s.val, row_lt b s⟩ o) := by
  refine shapeCast_apply G _ (ix3 b s o) (ix2 ⟨2048 * b.val + s.val, row_lt b s⟩ o) ?_
  rw [Shape.rowMajor_val_two, Shape.rowMajor_val_three]
  show (2048 * b.val + s.val) * 4096 + o.val = (b.val * 2048 + s.val) * 4096 + o.val
  omega

end Cert.KernelIdeal.Tail

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.KBridge.lean ====
/-
  The kernel's entry joined to the specification's dense layer.

  The kernel works on the input flattened to 8192 rows: row r = 2048 b + s holds the input's position (b, s). Its right
  array is the weight matrix transposed, B(k, o) = W(o, k), and its bias is a 1 x 4096 row. Its entry (r, o) sums the
  products over four contraction blocks of 1024. Laid end to end the four blocks are the whole contraction axis, so the
  double sum is the single sum over 4096 positions — a regrouping of a finite sum, which only uses that addition is
  commutative and associative — and with (2048 b + s) / 2048 = b, (2048 b + s) mod 2048 = s the entry is
  (sum over i of x(b, s, i) * W(o, i)) + bias(o): the dense layer.
-/
import proofs.«109815_j1666447311096_1_alg».proof.Proof.Spec
import proofs.«109815_j1666447311096_1_alg».proof.Proof.KOut
import proofs.«109815_j1666447311096_1_alg».proof.Proof.LibGemmSplit

noncomputable section

open Idealize.ShloMosaic Idealize.ShloMosaic.ValueIdx
open scoped BigOperators

namespace Cert.KernelIdeal.Bridge

open Cert.KernelIdeal

/-- Row 2048 b + s of the flattened input is one of its 8192 rows. -/
theorem row_lt (b : Fin 4) (s : Fin 2048) : 2048 * b.val + s.val < 8192 := by
  have := b.isLt; have := s.isLt; omega

/-- A row of the flattened input lies in one of the 4 leading blocks of 2048 rows. -/
theorem quot_lt (r : Fin 8192) : r.val / 2048 < 4 := by have := r.isLt; omega

/-- Its position inside that block. -/
theorem rem_lt (r : Fin 8192) : r.val % 2048 < 2048 := Nat.mod_lt _ (by norm_num)

/-- The kernel's entry at row 2048 b + s and column o is the dense layer at (b, s, o), when its left array is the input
    flattened, its right array the weight matrix transposed and its bias row the bias. -/
theorem outEntry_dense (A : Vec Ideal S8192x4096 .bf16) (B : Vec Ideal S4096x4096 .bf16) (bias2 : Vec Ideal S1x4096 .f32)
    (x : Cert.Spec.SX.Idx → EReal) (W : Fin 4096 → Fin 4096 → EReal) (bias : Cert.Spec.SB.Idx → EReal)
    (hA : ∀ (r : Fin 8192) (k : Fin 4096), A (ix2 r k) = x (ix3 ⟨r.val / 2048, quot_lt r⟩ ⟨r.val % 2048, rem_lt r⟩ k))
    (hB : ∀ k o : Fin 4096, B (ix2 k o) = W o k) (hb : ∀ o : Fin 4096, bias2 (ix2 0 o) = bias (ix1 o))
    (b : Fin 4) (s : Fin 2048) (o : Fin 4096) :
    Out.outEntry A B bias2 ⟨2048 * b.val + s.val, row_lt b s⟩ o = Cert.Spec.dense x W bias b s o := by
  have hq : (2048 * b.val + s.val) / 2048 = b.val := by have := s.isLt; omega
  have hr : (2048 * b.val + s.val) % 2048 = s.val := by have := s.isLt; omega
  have key : ∀ (b' : Fin 4) (s' : Fin 2048) (i' i : Fin 4096), b' = b → s' = s → i' = i →
      x (ix3 b' s' i') * W o i' = x (ix3 b s i) * W o i := by
    rintro _ _ _ _ rfl rfl rfl; rfl
  unfold Out.outEntry Cert.Spec.dense
  rw [hb, Cert.LibGemmSplit.sum_blocks (n := 4) (b := 1024) (by norm_num) (fun i : Fin 4096 => x (ix3 b s i) * W o i)]
  congr 1
  refine Finset.sum_congr rfl fun kb _ => Finset.sum_congr rfl fun k _ => ?_
  rw [hA, hB]
  exact key _ _ _ _ (Fin.ext hq) (Fin.ext hr) (Fin.ext rfl)

end Cert.KernelIdeal.Bridge

end
-- ==== Proof.KBridge2.lean ====
/-
  The kernel's result is the specification's result.

  The kernel's region leaves, at row 2048 b + s and column o, the block products of its left and right arrays summed
  over the contraction blocks plus the bias row; the result is that array reshaped to 4 x 2048 x 4096, so its entry
  (b, s, o) is the array's entry (2048 b + s, o). The left array is x flattened, the bias row is the bias, and the
  right array is the coordinate-form matrix with the COLUMN as first index: swapping the two index vectors transposes
  a coordinate-form matrix, so the right array at (k, o) is the weight matrix at (o, k). With these three readings
  the entry is the dense layer at (b, s, o).
-/
import proofs.«109815_j1666447311096_1_alg».proof.Proof.KHost
import proofs.«109815_j1666447311096_1_alg».proof.Proof.SpecOut
import proofs.«109815_j1666447311096_1_alg».proof.Proof.KOut
import proofs.«109815_j1666447311096_1_alg».proof.Proof.KTail
import proofs.«109815_j1666447311096_1_alg».proof.Proof.KBridge

noncomputable section

namespace Cert.KernelIdeal.Bridge2

open Idealize.ShloMosaic Idealize.ShloMosaic.TcCoe Idealize.ShloMosaic.ValueIdx
open Idealize.SL.Sem
open Cert.KernelIdeal Cert.KernelIdeal.Gen

/-- The kernel's result, reshaped back to 4 x 2048 x 4096, is the specification's result. -/
theorem kernel_is_spec (m : (ℓ : Loc nD τ sig) → Buf (Elt Ideal) ℓ) (c : Dev nD) :
    shapeCast S4x2048x4096 (Out.outArr (Gen.V m c main_v18) (Gen.V m c main_v19) (Gen.V m c main_v20))
        shapeCasts_S8192x4096_S4x2048x4096
      = Cert.Spec.out Cert.KernelIdeal.Gen.bcast_S_S1677721 (m ((c : Thread nD τ).loc main_arg0))
          (m ((c : Thread nD τ).loc main_arg1)) (m ((c : Thread nD τ).loc main_arg2)) (m ((c : Thread nD τ).loc main_arg3)) := by
  funext j
  obtain ⟨b, s, o, rfl⟩ : ∃ (b : Fin 4) (s : Fin 2048) (o : Fin 4096), j = ix3 b s o := ⟨j 0, j 1, j 2, eq_ix3 j⟩
  rw [Tail.result_apply, Out.outArr_apply, Cert.Spec.out_apply]
  refine Bridge.outEntry_dense _ _ _ _ _ _ (HostValue.lhs_apply m c) (fun k o' => ?_) (HostValue.bias_apply m c) b s o
  exact (HostValue.rhs_apply m c k o').trans (congrArg (0 + ·) (Cert.Spec.coo_swap _ _ _ k o'))

end Cert.KernelIdeal.Bridge2

end
-- ==== Proof.KPieces.lean ====
/-
  What the kernel body leaves behind at one grid point, as values of the blocks it was handed.

  The body keeps a running block in a scratch buffer. At the first of the four contraction steps it clears the scratch
  and adds the product of the two input blocks to it; at the later steps it adds the product to what the step before
  left; at the last step it also writes the running block plus the bias row, broadcast down the rows, into the output
  block. Each of these is stated here as the body's arithmetic applied to the input blocks and to what the scratch held
  before the step.
-/
import proofs.«109815_j1666447311096_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A first step leaves in the scratch the cleared block plus the product of the two input blocks. -/
theorem sout_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle step leaves in the scratch what it held plus the product of the two input blocks. -/
theorem sout_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread, View.ld_unit_zero (S := S1024x1024) hz]

/-- The last step leaves in the scratch what it held plus the product of the two input blocks, -/
theorem sout_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread, View.ld_unit_zero (S := S1024x1024) hz]

/-- and in the output block that running block plus the bias row broadcast down the rows. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg7.read_unread, harg3.read_unread, harg4.read_unread, harg5.read_unread,
    View.ld_unit_zero (S := S1024x1024) hz, View.ld_unit_zero (S := S1x1024) hz]

end Cert.KernelIdeal.Pieces

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.KPayload.lean ====
/-
  The body's arithmetic read at one entry, over the extended reals.

  The cleared block is zero everywhere. The accumulation step, at entry (p, q) of a 1024 x 1024 block, is the old entry
  plus the sum over k of left(p, k) * right(k, q): the product of the two input blocks is a matrix product into a zero
  accumulator, and the casts between equal shapes do nothing. The closing step, at (p, q), is the running entry plus
  entry q of the bias row.
-/
import proofs.«109815_j1666447311096_1_alg».proof.Proof.Gen.KernelIdeal.Skeleton
import proofs.«109815_j1666447311096_1_alg».proof.Proof.LibPlainMatmul
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen

/-- The body's matrix product has the plain dimension numbers: the left block's columns against the right block's rows. -/
theorem dot_plain : dot_S1024x1024_S1024x1024_S1024x1024_1_0_0_1_n_n = DotDims.plain 1024 1024 1024 := rfl

/-- The cleared block is zero at every entry. -/
theorem clear_apply (p q : Fin 1024) : k0_pay1 (F := Ideal) (ix2 p q) = 0 := by
  unfold k0_pay1
  rw [shapeCast_self]
  exact Ideal.ofBits_zero_f32

/-- One accumulation step at entry (p, q): the old entry plus the sum over k of left(p, k) * right(k, q). -/
theorem step_apply (acc : Vec Ideal S1024x1024 .f32) (l r : Vec Ideal S1024x1024 .bf16) (p q : Fin 1024) :
    k0_pay2 acc l r (ix2 p q) = acc (ix2 p q) + ∑ k : Fin 1024, l (ix2 p k) * r (ix2 k q) := by
  unfold k0_pay2
  rw [shapeCast_self, shapeCast_self, shapeCast_self, addf_apply]
  exact congrArg (acc (ix2 p q) + ·)
    (Cert.LibPlainMatmul.matmul_eq_plain_zero_apply _ dot_plain none l r p q)

/-- The closing step at entry (p, q): the running entry plus entry q of the bias row. -/
theorem close_apply (acc : Vec Ideal S1024x1024 .f32) (b : Vec Ideal S1x1024 .f32) (p q : Fin 1024) :
    k0_pay3 acc b (ix2 p q) = acc (ix2 p q) + b (ix2 0 q) := by
  unfold k0_pay3
  rw [shapeCast_self, addf_apply]
  refine congrArg (acc (ix2 p q) + ·) (broadcastTo_apply b _ (ix2 p q) (ix2 0 q) fun a => ?_)
  match a with
  | ⟨0, _⟩ => rfl
  | ⟨1, _⟩ => rfl

end Cert.KernelIdeal.Payload

end
-- ==== Proof.KAccum.lean ====
/-
  The kernel's running block over one run of four contraction steps, over the extended reals.

  The grid has 8 x 4 x 4 points; point t works on row block t / 16, column block (t / 4) % 4 and contraction block
  t % 4, the contraction block moving fastest. With A the 8192 x 4096 left array, B the 4096 x 4096 right array and
  bias the 1 x 4096 row as the kernel finds them, the left block at point t is rows 1024 (t / 16) + p and columns
  1024 (t % 4) + k of A, the right block rows 1024 (t % 4) + k and columns 1024 ((t / 4) % 4) + q of B. The first of
  four steps leaves 0 + (its product), each later step what was there + (its product), and the last step writes
  that + bias into the output block; so the output block written at a last step is the sum over the four contraction
  blocks of the block products, plus the bias.
-/
import proofs.«109815_j1666447311096_1_alg».proof.Proof.Gen.KernelIdeal.Frame
import proofs.«109815_j1666447311096_1_alg».proof.Proof.KPieces
import proofs.«109815_j1666447311096_1_alg».proof.Proof.KPayload
import Idealize.ShloMosaic.Lib.Pipeline.Value
import proofs.«109815_j1666447311096_1_alg».proof.Proof.KOut
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Accum

open Cert.KernelIdeal Cert.KernelIdeal.Gen

variable (m : (ℓ : Loc nD τ sig) → Buf (Elt Ideal) ℓ)

/-- Which block of its array each window is on at point t. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The arrays the three input windows read are the buffers the host prefix wrote. -/
theorem arr0 : Pipeline.arrRef spec0 0 = main_v18 := rfl
theorem arr1 : Pipeline.arrRef spec0 1 = main_v19 := rfl
theorem arr2 : Pipeline.arrRef spec0 2 = main_v20 := rfl

/-- Contents read at equal references are equal (the contents' type follows the reference). -/
theorem V_heq (c : Dev nD) {b b' : Ref sig .tc} (h : b = b') : HEq (V m c b) (V m c b') := by subst h; rfl

/-- The three arrays the region reads, as it finds them. -/
def arrA (c : Dev nD) : Vec Ideal S8192x4096 .bf16 := V m c (Pipeline.arrRef spec0 0)
def arrB (c : Dev nD) : Vec Ideal S4096x4096 .bf16 := V m c (Pipeline.arrRef spec0 1)
def arrC (c : Dev nD) : Vec Ideal S1x4096 .f32 := V m c (Pipeline.arrRef spec0 2)

theorem arrA_eq (c : Dev nD) : arrA m c = (V m c main_v18 : Vec Ideal S8192x4096 .bf16) := eq_of_heq (V_heq m c arr0)
theorem arrB_eq (c : Dev nD) : arrB m c = (V m c main_v19 : Vec Ideal S4096x4096 .bf16) := eq_of_heq (V_heq m c arr1)
theorem arrC_eq (c : Dev nD) : arrC m c = (V m c main_v20 : Vec Ideal S1x4096 .f32) := eq_of_heq (V_heq m c arr2)

/-- A left block read off ANY 8192 x 4096 array X: entry (p, k) of the block at point t is X at row 1024 (t / 16) + p
    and column 1024 (t % 4) + k. -/
theorem blk0_read (X : Vec Ideal S8192x4096 .bf16) (t : Fin cfg0.N) (p k : Fin 1024) (r : Fin 8192) (kk : Fin 4096)
    (hr : r.val = 1024 * (t.val / 16) + p.val) (hk : kk.val = 1024 * (t.val % 4) + k.val) :
    (((cfg0.win 0).blk t).view.read (Elt Ideal) X : Vec Ideal S1024x1024 .bf16) (ix2 p k) = X (ix2 r kk) := by
  rw [View.read_apply]
  obtain ⟨e0, e1, -⟩ := idx_facts t
  refine congrArg X (funext fun a => Fin.ext ?_)
  match a with
  | ⟨0, _⟩ => show win0_0.index t (0 : Fin 2) * 1024 + 1 * p.val = r.val; omega
  | ⟨1, _⟩ => show win0_0.index t (1 : Fin 2) * 1024 + 1 * k.val = kk.val; omega

/-- A right block read off any 4096 x 4096 array: entry (k, q) is X at row 1024 (t % 4) + k, column 1024 ((t / 4) % 4) + q. -/
theorem blk1_read (X : Vec Ideal S4096x4096 .bf16) (t : Fin cfg0.N) (k q : Fin 1024) (kk o : Fin 4096)
    (hk : kk.val = 1024 * (t.val % 4) + k.val) (ho : o.val = 1024 * (t.val / 4 % 4) + q.val) :
    (((cfg0.win 1).blk t).view.read (Elt Ideal) X : Vec Ideal S1024x1024 .bf16) (ix2 k q) = X (ix2 kk o) := by
  rw [View.read_apply]
  obtain ⟨-, -, e0, e1, -⟩ := idx_facts t
  refine congrArg X (funext fun a => Fin.ext ?_)
  match a with
  | ⟨0, _⟩ => show win0_1.index t (0 : Fin 2) * 1024 + 1 * k.val = kk.val; omega
  | ⟨1, _⟩ => show win0_1.index t (1 : Fin 2) * 1024 + 1 * q.val = o.val; omega

/-- A bias block read off any 1 x 4096 row: entry (0, q) is X at column 1024 ((t / 4) % 4) + q. -/
theorem blk2_read (X : Vec Ideal S1x4096 .f32) (t : Fin cfg0.N) (q : Fin 1024) (o : Fin 4096)
    (ho : o.val = 1024 * (t.val / 4 % 4) + q.val) :
    (((cfg0.win 2).blk t).view.read (Elt Ideal) X : Vec Ideal S1x1024 .f32) (ix2 0 q) = X (ix2 0 o) := by
  rw [View.read_apply]
  obtain ⟨-, -, -, -, e0, e1, -⟩ := idx_facts t
  refine congrArg X (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- The three input blocks at point t, at their literal types. -/
abbrev lhsBlk (c : Dev nD) (t : Fin cfg0.N) : Vec Ideal S1024x1024 .bf16 := iblk m c 0 t
abbrev rhsBlk (c : Dev nD) (t : Fin cfg0.N) : Vec Ideal S1024x1024 .bf16 := iblk m c 1 t
abbrev biasBlk (c : Dev nD) (t : Fin cfg0.N) : Vec Ideal S1x1024 .f32 := iblk m c 2 t

theorem lhs_read (c : Dev nD) (t : Fin cfg0.N) (p k : Fin 1024) (r : Fin 8192) (kk : Fin 4096)
    (hr : r.val = 1024 * (t.val / 16) + p.val) (hk : kk.val = 1024 * (t.val % 4) + k.val) :
    lhsBlk m c t (ix2 p k) = arrA m c (ix2 r kk) :=
  blk0_read (arrA m c) t p k r kk hr hk

theorem rhs_read (c : Dev nD) (t : Fin cfg0.N) (k q : Fin 1024) (kk o : Fin 4096)
    (hk : kk.val = 1024 * (t.val % 4) + k.val) (ho : o.val = 1024 * (t.val / 4 % 4) + q.val) :
    rhsBlk m c t (ix2 k q) = arrB m c (ix2 kk o) :=
  blk1_read (arrB m c) t k q kk o hk ho

theorem bias_read (c : Dev nD) (t : Fin cfg0.N) (q : Fin 1024) (o : Fin 4096)
    (ho : o.val = 1024 * (t.val / 4 % 4) + q.val) :
    biasBlk m c t (ix2 0 q) = arrC m c (ix2 0 o) :=
  blk2_read (arrC m c) t q o ho

/-- After a first step the running block is the cleared block with the step's product added. -/
theorem scr_first (c : Dev nD) (t : Fin cfg0.N) (h0 : t.val % 4 = 0) :
    (outsAt0 m c t.val t.isLt).2 = k0_pay2 (k0_pay1 (F := Ideal)) (lhsBlk m c t) (rhsBlk m c t) := by
  have h1 : ¬t.val % 4 = 3 := by omega
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a middle step it is what the step before left with the step's product added. -/
theorem scr_mid (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (lhsBlk m c t) (rhsBlk m c t) := by
  rw [outsAt0_B m c t h0 h1]
  dsimp only
  exact Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a last step the output block is what the step before left with the step's product added, plus the bias row. -/
theorem out_last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (lhsBlk m c t) (rhsBlk m c t)) (biasBlk m c t) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- The running block depends on the point's number only. -/
theorem scr_congr (c : Dev nD) {n n' : ℕ} (h : n = n') (hn : n < cfg0.N) (hn' : n' < cfg0.N) :
    (outsAt0 m c n hn).2 = (outsAt0 m c n' hn').2 := by subst h; rfl

end Cert.KernelIdeal.Accum

end
-- ==== Proof.KSteps.lean ====
/-
  One accumulation step, and a whole run of four, read at one entry over the extended reals.

  At entry (p, q) of the block: a first step leaves 0 + (the step's product), a later step what was there + (the
  step's product), where a step's product is the sum over k of left(p, k) * right(k, q); the last step writes that,
  plus entry q of the bias block, into the output block.
-/
import proofs.«109815_j1666447311096_1_alg».proof.Proof.KAccum

set_option maxRecDepth 16384

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen

variable (m : (ℓ : Loc nD τ sig) → Buf (Elt Ideal) ℓ)

/-- The product of the two input blocks at point t, entry (p, q). -/
def prod (c : Dev nD) (t : Fin cfg0.N) (p q : Fin 1024) : EReal :=
  ∑ k : Fin 1024, lhsBlk m c t (ix2 p k) * rhsBlk m c t (ix2 k q)

theorem first_apply (c : Dev nD) (t : Fin cfg0.N) (h0 : t.val % 4 = 0) (p q : Fin 1024) :
    (outsAt0 m c t.val t.isLt).2 (ix2 p q) = 0 + prod m c t p q := by
  rw [scr_first m c t h0]
  exact (Payload.step_apply (k0_pay1 (F := Ideal)) (lhsBlk m c t) (rhsBlk m c t) p q).trans
    (congrArg (· + prod m c t p q) (Payload.clear_apply p q))

theorem mid_apply (c : Dev nD) (t : Fin cfg0.N) (h0 : ¬t.val % 4 = 0) (h1 : ¬t.val % 4 = 3) (p q : Fin 1024) :
    (outsAt0 m c t.val t.isLt).2 (ix2 p q) = (outsAt0 m c (t.val - 1) (Nat.lt_of_le_of_lt (Nat.sub_le _ _) t.isLt)).2 (ix2 p q) + prod m c t p q := by
  rw [scr_mid m c t h0 h1]
  exact Payload.step_apply (outsAt0 m c (t.val - 1) (Nat.lt_of_le_of_lt (Nat.sub_le _ _) t.isLt)).2 (lhsBlk m c t) (rhsBlk m c t) p q

theorem last_apply (c : Dev nD) (t : Fin cfg0.N) (h0 : ¬t.val % 4 = 0) (h1 : t.val % 4 = 3) (p q : Fin 1024) :
    (outsAt0 m c t.val t.isLt).1 (ix2 p q) = ((outsAt0 m c (t.val - 1) (Nat.lt_of_le_of_lt (Nat.sub_le _ _) t.isLt)).2 (ix2 p q) + prod m c t p q) + biasBlk m c t (ix2 0 q) := by
  rw [out_last m c t h0 h1]
  exact (Payload.close_apply (k0_pay2 (outsAt0 m c (t.val - 1) (Nat.lt_of_le_of_lt (Nat.sub_le _ _) t.isLt)).2 (lhsBlk m c t) (rhsBlk m c t)) (biasBlk m c t) p q).trans
    (congrArg (· + biasBlk m c t (ix2 0 q)) (Payload.step_apply (outsAt0 m c (t.val - 1) (Nat.lt_of_le_of_lt (Nat.sub_le _ _) t.isLt)).2 (lhsBlk m c t) (rhsBlk m c t) p q))

end Cert.KernelIdeal.Accum

end
-- ==== Proof.KCover.lean ====
/-
  From the block each write-back point leaves to the whole result array.

  The kernel's grid has 8 x 4 x 4 = 128 points; point t works on row block t / 16 and column block (t / 4) % 4 of the
  8192 x 4096 result, in blocks of 1024 x 1024, and t % 4 counts the contraction steps. The result's block is written
  back to the array exactly at the last contraction step, t % 4 = 3. The 32 blocks of the write-back points tile
  the array: entry (r, o) lies in the block of point 16 (r / 1024) + 4 (o / 1024) + 3 and of no other write-back point.
  So if at every write-back point the block holds, at (p, q), the value G(1024 (t / 16) + p, 1024 ((t / 4) % 4) + q) of
  one array G, the result array ends holding G.
-/
import proofs.«109815_j1666447311096_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.Cover

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result window's block index at point t: row block t / 16, column block (t / 4) % 4 (decided over the grid). -/
theorem idx3 : ∀ t : Fin cfg0.N, win0_3.index t (0 : Fin 2) = t.val / 16 ∧ win0_3.index t (1 : Fin 2) = t.val / 4 % 4 :=
  (by decide +kernel : ∀ t : Fin grid0.N, _)

/-- A point of the grid is below 128. -/
theorem lt_N (t : Fin cfg0.N) : t.val < 128 := Nat.lt_of_lt_of_eq t.isLt N_0

/-- An entry of the array is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v21).slice (win0_3.rect t)).set ↔ _
  rw [View.set_slice_whole, Rect.mem_set_unit]
  exact Iff.rfl

/-- Every entry (r, o) of the array is in the block of a write-back point: point 16 (r / 1024) + 4 (o / 1024) + 3. -/
theorem cover (c : Dev nD) : ∀ i : S8192x4096.Idx, ∃ t : Fin cfg0.N, (cfg0.win 3).flush t = true ∧ i ∈ ((cfg0.win 3).blk t).view.set := by
  intro i
  have hi0 : (i 0).val < 8192 := (i 0).isLt
  have hi1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [show cfg0.N = 128 from N_0]; omega⟩, rfl⟩
  obtain ⟨e0, e1⟩ := idx3 t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- WHAT A WRITE-BACK POINT WRITES is its block of G, when the block the point leaves is G read at the block's place. -/
theorem flushed_of_block (c : Dev nD) (G : Vec Ideal S8192x4096 .f32)
    (hblk : ∀ (t : Fin cfg0.N), t.val % 4 = 3 → ∀ (p q : Fin 1024) (r : Fin 8192) (o : Fin 4096),
      r.val = 1024 * (t.val / 16) + p.val → o.val = 1024 * (t.val / 4 % 4) + q.val →
      (outsAt0 m c t.val t.isLt).1 (ix2 p q) = G (ix2 r o))
    (t : Fin cfg0.N) (hf : (cfg0.win 3).flush t = true) :
    (dats m 0 c).flushed 3 t = ((cfg0.win 3).blk t).view.read (Elt Ideal) G := by
  have h3 : t.val % 4 = 3 := (flush0_3 t).mp hf
  have hN : t.val < 128 := lt_N t
  obtain ⟨e0, e1⟩ := idx3 t
  have hb := hblk t h3
  show (cfg0.win 3).cut (grid0.coords t) ((dats m 0 c).after 3 t) = _
  rw [after0_3]
  generalize (outsAt0 m c t.val t.isLt).1 = X at hb ⊢
  funext y
  rw [View.read_apply]
  have hy0 : (y 0).val < 1024 := (y 0).isLt
  have hy1 : (y 1).val < 1024 := (y 1).isLt
  have hr : 1024 * (t.val / 16) + (y 0).val < 8192 := by omega
  have ho : 1024 * (t.val / 4 % 4) + (y 1).val < 4096 := by omega
  have hX : win0_3.xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  have hE : ((cfg0.win 3).blk t).view.emb y
      = ix2 (⟨1024 * (t.val / 16) + (y 0).val, hr⟩ : Fin 8192) (⟨1024 * (t.val / 4 % 4) + (y 1).val, ho⟩ : Fin 4096) := by
    funext a; apply Fin.ext
    match a with
    | ⟨0, _⟩ => show win0_3.index t (0 : Fin 2) * 1024 + 1 * (y 0).val = 1024 * (t.val / 16) + (y 0).val; omega
    | ⟨1, _⟩ => show win0_3.index t (1 : Fin 2) * 1024 + 1 * (y 1).val = 1024 * (t.val / 4 % 4) + (y 1).val; omega
  show X (win0_3.xinj (grid0.coords t) y) = G (((cfg0.win 3).blk t).view.emb y)
  rw [hX, hE]
  exact hb (⟨(y 0).val, hy0⟩ : Fin 1024) (⟨(y 1).val, hy1⟩ : Fin 1024) (⟨1024 * (t.val / 16) + (y 0).val, hr⟩ : Fin 8192)
    (⟨1024 * (t.val / 4 % 4) + (y 1).val, ho⟩ : Fin 4096) rfl rfl

/-- THE RESULT ARRAY after the kernel is G, when every write-back point's block is G read at the block's place. -/
theorem final_of_block (c : Dev nD) (G : Vec Ideal S8192x4096 .f32)
    (hblk : ∀ (t : Fin cfg0.N), t.val % 4 = 3 → ∀ (p q : Fin 1024) (r : Fin 8192) (o : Fin 4096),
      r.val = 1024 * (t.val / 16) + p.val → o.val = 1024 * (t.val / 4 % 4) + q.val →
      (outsAt0 m c t.val t.isLt).1 (ix2 p q) = G (ix2 r o)) :
    (dats m 0 c).arrAt 3 cfg0.N = G :=
  (dats m 0 c).arrAt_eq_of_cover 3 G (flushed_of_block m c G hblk) (cover c)

end Cert.KernelIdeal.Cover

end
-- ==== Proof.KFinal.lean ====
/-
  The kernel's result array, as one function of the three arrays the region reads.

  A run of four consecutive points t - 3, …, t with t % 4 = 3 works on one output block: the first point leaves
  0 + (its product) in the running block, the next two add theirs, and the last adds its own and writes the total
  plus the bias into the output block. Each product is the sum over the 1024 positions of one contraction block of
  left entry times right entry, so the output block's entry (p, q), which is the array's entry
  (1024 (t / 16) + p, 1024 ((t / 4) % 4) + q), is the sum over the four contraction blocks and the 1024 positions
  inside each, plus the bias at that column. The output blocks written at those points tile the array.
-/
import proofs.«109815_j1666447311096_1_alg».proof.Proof.KSteps
import proofs.«109815_j1666447311096_1_alg».proof.Proof.KCover
import proofs.«109815_j1666447311096_1_alg».proof.Proof.KOut

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Accum

open Cert.KernelIdeal Cert.KernelIdeal.Gen

variable (m : (ℓ : Loc nD τ sig) → Buf (Elt Ideal) ℓ)

/-- The product of the two input blocks at point s, entry (p, q), as a sum over entries of the two arrays:
    contraction block s % 4, row 1024 (s / 16) + p of the left array, column 1024 ((s / 4) % 4) + q of the right. -/
theorem prod_read (c : Dev nD) (s : Fin cfg0.N) (p q : Fin 1024) (r : Fin 8192) (o : Fin 4096) (kb : Fin 4)
    (hr : r.val = 1024 * (s.val / 16) + p.val) (ho : o.val = 1024 * (s.val / 4 % 4) + q.val) (hkb : kb.val = s.val % 4) :
    prod m c s p q = ∑ k : Fin 1024, arrA m c (ix2 r (Out.kpos kb k)) * arrB m c (ix2 (Out.kpos kb k) o) := by
  unfold prod
  refine Finset.sum_congr rfl fun k _ => ?_
  have hk : (Out.kpos kb k).val = 1024 * (s.val % 4) + k.val := by
    show 1024 * kb.val + k.val = _
    omega
  rw [lhs_read m c s p k r (Out.kpos kb k) hr hk, rhs_read m c s k q (Out.kpos kb k) o hk ho]

/-- The output block written at a last step, entry (p, q), is the result's entry at the block's place in the array. -/
theorem block_total (c : Dev nD) (t : Fin cfg0.N) (h3 : t.val % 4 = 3) (p q : Fin 1024) (r : Fin 8192) (o : Fin 4096)
    (hr : r.val = 1024 * (t.val / 16) + p.val) (ho : o.val = 1024 * (t.val / 4 % 4) + q.val) :
    (outsAt0 m c t.val t.isLt).1 (ix2 p q) = Out.outArr (arrA m c) (arrB m c) (arrC m c) (ix2 r o) := by
  have hlt1 : t.val - 1 < cfg0.N := Nat.lt_of_le_of_lt (Nat.sub_le _ _) t.isLt
  have hlt2 : t.val - 1 - 1 < cfg0.N := Nat.lt_of_le_of_lt (Nat.sub_le _ _) hlt1
  have hlt3 : t.val - 1 - 1 - 1 < cfg0.N := Nat.lt_of_le_of_lt (Nat.sub_le _ _) hlt2
  have e0 := last_apply m c t (by omega) h3 p q
  have e1 := mid_apply m c ⟨t.val - 1, hlt1⟩ (by show ¬(t.val - 1) % 4 = 0; omega) (by show ¬(t.val - 1) % 4 = 3; omega) p q
  have e2 := mid_apply m c ⟨t.val - 1 - 1, hlt2⟩ (by show ¬(t.val - 1 - 1) % 4 = 0; omega) (by show ¬(t.val - 1 - 1) % 4 = 3; omega) p q
  have e3 := first_apply m c ⟨t.val - 1 - 1 - 1, hlt3⟩ (by show (t.val - 1 - 1 - 1) % 4 = 0; omega) p q
  dsimp only at e1 e2 e3
  rw [e0, e1, e2, e3, Out.outArr_apply]
  unfold Out.outEntry
  rw [Fin.sum_univ_four,
    prod_read m c ⟨t.val - 1 - 1 - 1, hlt3⟩ p q r o 0 (by show r.val = 1024 * ((t.val - 1 - 1 - 1) / 16) + p.val; omega)
      (by show o.val = 1024 * ((t.val - 1 - 1 - 1) / 4 % 4) + q.val; omega) (by show 0 = (t.val - 1 - 1 - 1) % 4; omega),
    prod_read m c ⟨t.val - 1 - 1, hlt2⟩ p q r o 1 (by show r.val = 1024 * ((t.val - 1 - 1) / 16) + p.val; omega)
      (by show o.val = 1024 * ((t.val - 1 - 1) / 4 % 4) + q.val; omega) (by show 1 = (t.val - 1 - 1) % 4; omega),
    prod_read m c ⟨t.val - 1, hlt1⟩ p q r o 2 (by show r.val = 1024 * ((t.val - 1) / 16) + p.val; omega)
      (by show o.val = 1024 * ((t.val - 1) / 4 % 4) + q.val; omega) (by show 2 = (t.val - 1) % 4; omega),
    prod_read m c t p q r o 3 hr ho (by show 3 = t.val % 4; omega),
    bias_read m c t q o ho, zero_add]

/-- So the result array ends holding, at (r, o), the sum over the four contraction blocks and the 1024 positions in
    each of left(r, ·) * right(·, o), plus the bias at column o. -/
theorem final' (c : Dev nD) : (dats m 0 c).arrAt 3 cfg0.N = Out.outArr (arrA m c) (arrB m c) (arrC m c) :=
  Cover.final_of_block m c (Out.outArr (arrA m c) (arrB m c) (arrC m c))
    (fun t h3 p q r o hr ho => block_total m c t h3 p q r o hr ho)

/-- The same with the three arrays named by the buffers the host prefix wrote. -/
theorem final (c : Dev nD) : (dats m 0 c).arrAt 3 cfg0.N
    = Out.outArr (V m c main_v18 : Vec Ideal S8192x4096 .bf16) (V m c main_v19 : Vec Ideal S4096x4096 .bf16)
        (V m c main_v20 : Vec Ideal S1x4096 .f32) :=
  ((final' m c).trans (congrArg (fun X => Out.outArr X (arrB m c) (arrC m c)) (arrA_eq m c))).trans
    ((congrArg (fun X => Out.outArr (V m c main_v18 : Vec Ideal S8192x4096 .bf16) X (arrC m c)) (arrB_eq m c)).trans
      (congrArg (fun X => Out.outArr (V m c main_v18 : Vec Ideal S8192x4096 .bf16) (V m c main_v19 : Vec Ideal S4096x4096 .bf16) X) (arrC_eq m c)))

end Cert.KernelIdeal.Accum

end
-- ==== Proof.lean ====
/-
  The proof of `Cert.Claim`: a dense layer with a sparse weight matrix, computed two ways.

  Both programs take an input x of shape 4 x 2048 x 4096, a 4096 x 4096 weight matrix in coordinate form — 1677721
  values vals(e), entry e at the flat position flat(e) — and a bias of length 4096. Both turn every flat position into
  a row, its floor quotient by 4096, and a column, its remainder by 4096 with the divisor's sign, through the same two
  outlined integer functions; both move a negative row or column up by 4096 once; and both scatter the values, added,
  into a zero matrix at the resulting index pairs, an entry whose pair is still outside the matrix being dropped.
  From there on they differ.

  The reference scatters at the pairs (row, column). Its matrix W has at (o, i) the sum of the values of the entries
  with row o and column i. It contracts the last axis of x with the second axis of W and adds the bias broadcast along
  the last axis:  y(b, s, o) = (sum over i of x(b, s, i) * W(o, i)) + bias(o).

  The kernel scatters at the pairs (column, row). Swapping the two index vectors of a coordinate-form matrix
  transposes it, so its matrix is Wt(i, o) = W(o, i). It flattens x to 8192 rows — row 2048 b + s is position (b, s) —,
  narrows x and Wt to a 16-bit format, reshapes the bias to a 1 x 4096 row, and runs a tiled matrix product over a grid
  of 8 x 4 output tiles of 1024 x 1024, each visited at 4 contraction blocks of 1024, the contraction block moving
  fastest: at a tile's first block a scratch accumulator is set to zero, at every block the product of the left tile
  (rows of x, a block of the contraction axis) and the right tile (the same block, columns of Wt) is added to it, and
  at the last block the accumulator plus the bias tile is stored as the output tile. Entry (r, o) of the 8192 x 4096
  result is therefore the sum over the four blocks kb and the 1024 positions k of a block of
  x(r, 1024 kb + k) * Wt(1024 kb + k, o), plus bias(o); the result is reshaped back to 4 x 2048 x 4096.

  At the ideal instance — floats are extended reals, operations are exact, a change of format is the identity — the two
  results are equal element by element, for all inputs. The four blocks laid end to end are the whole contraction axis,
  so the kernel's double sum is the reference's single sum regrouped: this uses that addition of extended reals is
  commutative and associative and nothing else, in particular no finiteness of the inputs. Wt(k, o) = W(o, k). A reshape
  keeps row-major positions, so position (b, s, o) of the result is position (2048 b + s, o) of the 8192 x 4096 array,
  and (2048 b + s) / 2048 = b, (2048 b + s) mod 2048 = s. Both bias readings are bias(o).

  Both results are proved equal to ONE specification, stated over literal shapes and importing no program
  (Proof/Spec.lean: the index chain exactly as the programs spell it, the coordinate-form sum, the dense layer;
  Proof/SpecOut.lean: the layer as an array).
  The reference (Proof/RefRun.lean, RefStages.lean, RefRead.lean, RBridge.lean): its entry function with the calls
  unfolded is one line of sixty-four operations in single-assignment form; read one operation at a time its result is
  the sum of the contraction of x with the scattered matrix and the twice-broadcast bias, the index pairs being the
  specification's (row, column); at (b, s, o) that is the dense layer, and the scatter into the zero matrix is, entry by
  entry, zero plus the coordinate-form sum (Proof/ScatterCoo.lean over Proof/LibPointScatter.lean).
  The kernel. Proof/KHost.lean reads the lines before the region, in single-assignment form like the reference's: they
  leave the left array at x flattened, the right array at zero plus the coordinate-form sum with the COLUMN as first
  index, the bias row at the bias. Proof/KPieces.lean states what the body leaves at one grid point as its arithmetic
  applied to the blocks it was handed, and Proof/KPayload.lean reads that arithmetic at one entry: the cleared block is
  zero, an accumulation step is the old entry plus the sum over k of left(p, k) * right(k, q) (a plain matrix product
  into a zero accumulator, Proof/LibPlainMatmul.lean), the closing step the running entry plus the bias entry.
  Proof/KAccum.lean says which block of which array each window is on at a grid point and what one step leaves, and
  Proof/KSteps.lean reads a step at one entry; Proof/KFinal.lean adds up a run of four steps — the first leaves zero
  plus its product, each later one adds its own, the last writes the total plus the bias — into the sum over the four
  contraction blocks, and with Proof/KCover.lean (the output tiles written at the last steps tile the array) concludes
  what the region's output array holds after the last point, the array of Proof/KOut.lean. Proof/KTail.lean reads the
  line after the region, the reshape, out of the generated frame certificate's run; Proof/KBridge.lean rejoins the
  block sums (Proof/LibGemmSplit.lean) and Proof/KBridge2.lean undoes the transposition against the specification.
  The frames are the generated frame certificates' for the two kernel programs and the reference's run for the third;
  the idealization rewrote no operation, so its statement is `True`.
-/
import proofs.«109815_j1666447311096_1_alg».proof.Defs
import proofs.«109815_j1666447311096_1_alg».proof.Proof.Gen.Kernel
import proofs.«109815_j1666447311096_1_alg».proof.Proof.Gen.Kernel.Skeleton
import proofs.«109815_j1666447311096_1_alg».proof.Proof.Gen.Kernel.Launch
import proofs.«109815_j1666447311096_1_alg».proof.Proof.Gen.Kernel.Points
import proofs.«109815_j1666447311096_1_alg».proof.Proof.Gen.Kernel.Frame
import proofs.«109815_j1666447311096_1_alg».proof.Proof.Gen.KernelIdeal
import proofs.«109815_j1666447311096_1_alg».proof.Proof.Gen.KernelIdeal.Skeleton
import proofs.«109815_j1666447311096_1_alg».proof.Proof.Gen.KernelIdeal.Launch
import proofs.«109815_j1666447311096_1_alg».proof.Proof.Gen.KernelIdeal.Points
import proofs.«109815_j1666447311096_1_alg».proof.Proof.Gen.KernelIdeal.Frame
import proofs.«109815_j1666447311096_1_alg».proof.Proof.Gen.ReferenceIdeal
import proofs.«109815_j1666447311096_1_alg».proof.Proof.Gen.Pre_finite_inputs
import proofs.«109815_j1666447311096_1_alg».proof.Proof.RBridge
import proofs.«109815_j1666447311096_1_alg».proof.Proof.KBridge2
import proofs.«109815_j1666447311096_1_alg».proof.Proof.KFinal
import Idealize.ShloMosaic.Adequacy
import Idealize.ShloMosaic.Init

noncomputable section

namespace Cert.Proof

open Idealize.ShloMosaic Idealize.SL.Sem

/-- The kernel program as printed runs and leaves its arguments unchanged: its generated frame certificate. -/
theorem frame_k : Cert.frame_Kernel := fun m ρ _ => Cert.Kernel.Gen.frame m ρ

/-- The same program read at the ideal instance: its generated frame certificate. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- At the ideal instance, from memories that agree on the four arguments, both programs end with the
    specification's result of those arguments — the kernel's reshaped region output by the block sums rejoined and the
    transposition undone, the reference's by its stages read in order — and with their arguments unchanged. -/
theorem algebraic : Cert.algebraic_KernelIdeal_ReferenceIdeal := by
  intro m ρ m' ρ' _ hagree
  refine ⟨fun c => Cert.Spec.out Cert.KernelIdeal.Gen.bcast_S_S1677721
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Bridge2.kernel_is_spec m c), (h c).2⟩)
      (Cert.KernelIdeal.Tail.run_tail m ρ
        (fun c => Cert.KernelIdeal.Out.outArr (Cert.KernelIdeal.Gen.V m c Cert.KernelIdeal.main_v18)
          (Cert.KernelIdeal.Gen.V m c Cert.KernelIdeal.main_v19) (Cert.KernelIdeal.Gen.V m c Cert.KernelIdeal.main_v20))
        (Cert.KernelIdeal.Accum.final m))
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2]
    exact (Cert.ReferenceIdeal.Bridge.ref_is_spec _ _ _ _).trans rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
